-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x16x256 : Shape := ⟨3, ![10000, 16, 256]⟩
abbrev S_ : Shape := ⟨0, ![]⟩

class Facts : Prop where
  bcast_S_S10000x16x256 : S_.BroadcastsInDim S10000x16x256 (![] : Fin 0 → Fin S10000x16x256.rank)
  reducesTo_S10000x16x256_S_d0_1_2 : S10000x16x256.ReducesTo [0, 1, 2] S_
  h_S_ : 0 < S_.numel

variable [Facts]

def fn {F : FTy → Type} [FloatOps F] (main_arg0 : FVec F S10000x16x256 .f32) (main_arg1 : FVec F S10000x16x256 .f32) : IVec S_ 1 :=
  let main_v0 : FVec F S10000x16x256 .f32 := Host.absf main_arg0
  let main_cst : FVec F S_ .f32 := constant S_ .f32 0x7F800000#32
  let main_v1 : FVec F S10000x16x256 .f32 := broadcastInDim S10000x16x256 ![] bcast_S_S10000x16x256 main_cst
  let main_v2 : IVec S10000x16x256 1 := cmpf .olt main_v0 main_v1
  let main_c : IVec S_ 1 := constantI S_ 1 1#1
  let main_v3 : IVec S_ 1 := (fun x v => Host.reduce IntOp.andi x v reducesTo_S10000x16x256_S_d0_1_2 h_S_) main_v2 main_c
  let main_v4 : FVec F S10000x16x256 .f32 := Host.absf main_arg1
  let main_cst_0 : FVec F S_ .f32 := constant S_ .f32 0x7F800000#32
  let main_v5 : FVec F S10000x16x256 .f32 := broadcastInDim S10000x16x256 ![] bcast_S_S10000x16x256 main_cst_0
  let main_v6 : IVec S10000x16x256 1 := cmpf .olt main_v4 main_v5
  let main_c_1 : IVec S_ 1 := constantI S_ 1 1#1
  let main_v7 : IVec S_ 1 := (fun x v => Host.reduce IntOp.andi x v reducesTo_S10000x16x256_S_d0_1_2 h_S_) main_v6 main_c_1
  let main_v8 : IVec S_ 1 := andi main_v3 main_v7
  main_v8
-- ==== Kernel.lean ====
abbrev S10000x16x256 : Shape := ⟨3, ![10000, 16, 256]⟩
abbrev S10000x1024 : Shape := ⟨2, ![10000, 1024]⟩
abbrev S40x1024 : Shape := ⟨2, ![40, 1024]⟩
abbrev S_ : Shape := ⟨0, ![]⟩
abbrev S40x256 : Shape := ⟨2, ![40, 256]⟩
abbrev S40x1x256 : Shape := ⟨3, ![40, 1, 256]⟩

abbrev nBuf : Table → Nat
  | .hbm => 3
  | .local .scVector .vmem => 3
  | _ => 0

abbrev bufTy : (tb : Table) → Fin (nBuf tb) → BufTy
  | .hbm, ⟨0, _⟩ => ⟨S10000x16x256, .f32⟩
  | .hbm, ⟨1, _⟩ => ⟨S10000x16x256, .f32⟩
  | .hbm, ⟨2, _⟩ => ⟨S10000x1024, .f32⟩
  | .local .scVector .vmem, ⟨0, _⟩ => ⟨S40x1024, .f32⟩
  | .local .scVector .vmem, ⟨1, _⟩ => ⟨S40x1024, .f32⟩
  | .local .scVector .vmem, ⟨2, _⟩ => ⟨S40x1024, .f32⟩
  | _, _ => ⟨S10000x16x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi v1 c0_i32
  let c40_i32 : BitVec 32 := 40#32
  let v3 : BitVec 32 := Scalar.muli v2 c40_i32
  let c0_i32_0 : BitVec 32 := 0#32
  let c0_i32_3 : BitVec 32 := 0#32
  ![v3.toNat, 0, 0]
def k0_off2 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi v1 c0_i32
  let c40_i32 : BitVec 32 := 40#32
  let v3 : BitVec 32 := Scalar.muli v2 c40_i32
  let c1_i32 : BitVec 32 := 1#32
  let c0_i32_14 : BitVec 32 := 0#32
  ![v3.toNat, 1, 0]
def k0_off3 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi v1 c0_i32
  let c40_i32 : BitVec 32 := 40#32
  let v3 : BitVec 32 := Scalar.muli v2 c40_i32
  let c2_i32_18 : BitVec 32 := 2#32
  let c0_i32_20 : BitVec 32 := 0#32
  ![v3.toNat, 2, 0]
def k0_off4 (i : grid0.Coords) (c0_i32_110 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v104 : BitVec 32 := Scalar.addi v1 c0_i32_110
  let c40_i32_111 : BitVec 32 := 40#32
  let v105 : BitVec 32 := Scalar.muli v104 c40_i32_111
  let c0_i32_112 : BitVec 32 := 0#32
  ![v105.toNat, 0]
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v394 : BitVec 1 := Scalar.cmpi .slt v1 c26_i32
  let v395 : BitVec 32 := Scalar.extui v394
  let c0_i32_436 : BitVec 32 := 0#32
  let v396 : BitVec 1 := Scalar.cmpi .ne v395 c0_i32_436
  v396

def k0_off5 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c224_i32 : BitVec 32 := 224#32
  let v397 : BitVec 32 := Scalar.addi v1 c224_i32
  let c40_i32_437 : BitVec 32 := 40#32
  let v398 : BitVec 32 := Scalar.muli v397 c40_i32_437
  let c0_i32_438 : BitVec 32 := 0#32
  let c0_i32_441 : BitVec 32 := 0#32
  ![v398.toNat, 0, 0]
def k0_off6 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c224_i32 : BitVec 32 := 224#32
  let v397 : BitVec 32 := Scalar.addi v1 c224_i32
  let c40_i32_437 : BitVec 32 := 40#32
  let v398 : BitVec 32 := Scalar.muli v397 c40_i32_437
  let c1_i32_452 : BitVec 32 := 1#32
  let c0_i32_455 : BitVec 32 := 0#32
  ![v398.toNat, 1, 0]
def k0_off7 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c224_i32 : BitVec 32 := 224#32
  let v397 : BitVec 32 := Scalar.addi v1 c224_i32
  let c40_i32_437 : BitVec 32 := 40#32
  let v398 : BitVec 32 := Scalar.muli v397 c40_i32_437
  let c2_i32_459 : BitVec 32 := 2#32
  let c0_i32_462 : BitVec 32 := 0#32
  ![v398.toNat, 2, 0]
def k0_off8 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c224_i32_494 : BitVec 32 := 224#32
  let v447 : BitVec 32 := Scalar.addi v1 c224_i32_494
  let c40_i32_495 : BitVec 32 := 40#32
  let v448 : BitVec 32 := Scalar.muli v447 c40_i32_495
  let c0_i32_496 : BitVec 32 := 0#32
  ![v448.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S40x1024_S40x256_0_0 : ∀ a, (![0, 0] : Fin 2 → Nat) a + S40x256.size a ≤ S40x1024.size a
  squeezes_S40x1x256_S40x256 : S40x1x256.Squeezes S40x256
  inb_S40x1024_S40x256_0_256 : ∀ a, (![0, 256] : Fin 2 → Nat) a + S40x256.size a ≤ S40x1024.size a
  inb_S40x1024_S40x256_0_512 : ∀ a, (![0, 512] : Fin 2 → Nat) a + S40x256.size a ≤ S40x1024.size a
  inb_S40x1024_S40x256_0_768 : ∀ a, (![0, 768] : Fin 2 → Nat) a + S40x256.size a ≤ S40x1024.size a
  hcc0_scratch3 : 0 + S_.numel ≤ 6
  hcc0_scratch4 : 1 + S_.numel ≤ 6
  hcc0_scratch5 : 2 + S_.numel ≤ 6
  hcc0_scratch6 : 3 + S_.numel ≤ 6
  hcc0_scratch7 : 4 + S_.numel ≤ 6
  hcc0_scratch8 : 5 + S_.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 7), ∀ a, (k0_off1 i (BitVec.ofNat 32 (32 * r.val))) a + S40x1x256.size a ≤ S10000x16x256.size a
  k0_off2_inb : ∀ i : grid0.Coords, ∀ (r : Fin 7), ∀ a, (k0_off2 i (BitVec.ofNat 32 (32 * r.val))) a + S40x1x256.size a ≤ S10000x16x256.size a
  k0_off3_inb : ∀ i : grid0.Coords, ∀ (r : Fin 7), ∀ a, (k0_off3 i (BitVec.ofNat 32 (32 * r.val))) a + S40x1x256.size a ≤ S10000x16x256.size a
  k0_off4_inb : ∀ i : grid0.Coords, ∀ (r : Fin 7), ∀ a, (k0_off4 i (BitVec.ofNat 32 (32 * r.val))) a + S40x1024.size a ≤ S10000x1024.size a
  k0_off5_inb : ∀ i : grid0.Coords, ∀ (k0_h1 : k0_cond1 i = 1#1), ∀ a, (k0_off5 i) a + S40x1x256.size a ≤ S10000x16x256.size a
  k0_off6_inb : ∀ i : grid0.Coords, ∀ (k0_h1 : k0_cond1 i = 1#1), ∀ a, (k0_off6 i) a + S40x1x256.size a ≤ S10000x16x256.size a
  k0_off7_inb : ∀ i : grid0.Coords, ∀ (k0_h1 : k0_cond1 i = 1#1), ∀ a, (k0_off7 i) a + S40x1x256.size a ≤ S10000x16x256.size a
  k0_off8_inb : ∀ i : grid0.Coords, ∀ (k0_h1 : k0_cond1 i = 1#1), ∀ a, (k0_off8 i) a + S40x1024.size a ≤ S10000x1024.size a

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scratch6 : DmaSems sig S_ := SemArray.consecutive 3 S_ hcc0_scratch6
abbrev cc0_scratch7 : DmaSems sig S_ := SemArray.consecutive 4 S_ hcc0_scratch7
abbrev cc0_scratch8 : DmaSems sig S_ := SemArray.consecutive 5 S_ hcc0_scratch8

class Facts : Prop extends Facts₀ where

variable [Facts]
-- ==== ReferenceIdeal.lean ====
abbrev S10000x16x256 : Shape := ⟨3, ![10000, 16, 256]⟩
abbrev S10000x1x256 : Shape := ⟨3, ![10000, 1, 256]⟩
abbrev S10000x256 : Shape := ⟨2, ![10000, 256]⟩
abbrev S10000x512 : Shape := ⟨2, ![10000, 512]⟩
abbrev S10000x768 : Shape := ⟨2, ![10000, 768]⟩
abbrev S10000x1024 : Shape := ⟨2, ![10000, 1024]⟩
abbrev S_ : Shape := ⟨0, ![]⟩
abbrev S10000x0 : Shape := ⟨2, ![10000, 0]⟩

abbrev nBuf : Space → Nat
  | .hbm => 16
  | .vmem => 0
  | .smem => 0
  | _ => 0

abbrev bufTy : (tb : Table) → Fin (tcTables nBuf tb) → BufTy
  | .hbm, ⟨0, _⟩ => ⟨S10000x16x256, .f32⟩
  | .hbm, ⟨1, _⟩ => ⟨S10000x16x256, .f32⟩
  | .hbm, ⟨2, _⟩ => ⟨S10000x1x256, .f32⟩
  | .hbm, ⟨3, _⟩ => ⟨S10000x256, .f32⟩
  | .hbm, ⟨4, _⟩ => ⟨S10000x1x256, .f32⟩
  | .hbm, ⟨5, _⟩ => ⟨S10000x256, .f32⟩
  | .hbm, ⟨6, _⟩ => ⟨S10000x512, .f32⟩
  | .hbm, ⟨7, _⟩ => ⟨S10000x1x256, .f32⟩
  | .hbm, ⟨8, _⟩ => ⟨S10000x256, .f32⟩
  | .hbm, ⟨9, _⟩ => ⟨S10000x768, .f32⟩
  | .hbm, ⟨10, _⟩ => ⟨S10000x1x256, .f32⟩
  | .hbm, ⟨11, _⟩ => ⟨S10000x256, .f32⟩
  | .hbm, ⟨12, _⟩ => ⟨S10000x1024, .f32⟩
  | .hbm, ⟨13, _⟩ => ⟨S_, .f32⟩
  | .hbm, ⟨14, _⟩ => ⟨S10000x0, .f32⟩
  | .hbm, ⟨15, _⟩ => ⟨S10000x1024, .f32⟩
  | _, _ => ⟨S10000x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]

class Facts₀ : Prop where
  slices_S10000x16x256_S10000x1x256_0_0_0 : S10000x16x256.Slices ![0, 0, 0] S10000x1x256
  shapeCasts_S10000x1x256_S10000x256 : S10000x1x256.ShapeCasts S10000x256
  concatenates_S10000x256_S10000x256_S10000x512_d1 : Shape.Concatenates [S10000x256, S10000x256] S10000x512 1
  slices_S10000x16x256_S10000x1x256_0_1_0 : S10000x16x256.Slices ![0, 1, 0] S10000x1x256
  concatenates_S10000x512_S10000x256_S10000x768_d1 : Shape.Concatenates [S10000x512, S10000x256] S10000x768 1
  slices_S10000x16x256_S10000x1x256_0_2_0 : S10000x16x256.Slices ![0, 2, 0] S10000x1x256
  concatenates_S10000x768_S10000x256_S10000x1024_d1 : Shape.Concatenates [S10000x768, S10000x256] S10000x1024 1
  bcast_S_S10000x0 : S_.BroadcastsInDim S10000x0 (![] : Fin 0 → Fin S10000x0.rank)
  concatenates_S10000x1024_S10000x0_S10000x1024_d1 : Shape.Concatenates [S10000x1024, S10000x0] S10000x1024 1

variable [Facts₀]

class Facts : Prop extends Facts₀ where

variable [Facts]
-- ==== Proof.Spec.lean ====
import Idealize.ShloMosaic.Lib.ValueIdx
import Idealize.ShloMosaic.Lib.Writes

/-!
  The function both programs compute, and the three index facts the kernel's side rests on.

  The inputs are two arrays of shape 10000 × 16 × 256 (`msg` and `cur`), the result is 10000 × 1024: row `r` of the
  result is row `r` of slot 0 of `cur` followed by rows `r` of slots 0, 1, 2 of `msg`, each 256 lanes wide.  Pure data
  movement: no arithmetic, so nothing here depends on the float instance.
-/

noncomputable section

namespace Cert.Spec

open Idealize.ShloMosaic Idealize.ShloMosaic.ValueIdx

abbrev SIn : Shape := ⟨3, ![10000, 16, 256]⟩
abbrev SOut : Shape := ⟨2, ![10000, 1024]⟩
abbrev SBuf : Shape := ⟨2, ![40, 1024]⟩
abbrev SWin : Shape := ⟨2, ![40, 256]⟩
abbrev SSl : Shape := ⟨3, ![40, 1, 256]⟩

/-- Lane `c` of a result row lies in quarter `c / 256`, at lane `c % 256` of it: quarter 0 is slot 0 of `cur`, quarter `k + 1`
    slot `k` of `msg`. -/
def rowsCat {α : Type} (msg cur : SIn.Idx → α) (j : SOut.Idx) : α :=
  if (j 1).val / 256 = 0 then
    cur (ix3 (j 0) ⟨0, by decide⟩ ⟨(j 1).val % 256, Nat.mod_lt _ (by decide)⟩)
  else
    msg (ix3 (j 0) ⟨(j 1).val / 256 - 1, by have := idx2_lt1 j; omega⟩ ⟨(j 1).val % 256, Nat.mod_lt _ (by decide)⟩)

theorem rowsCat_cur {α : Type} (msg cur : SIn.Idx → α) (j : SOut.Idx) (i : SIn.Idx) (hq : (j 1).val < 256)
    (h0 : (i 0).val = (j 0).val) (h1 : (i 1).val = 0) (h2 : (i 2).val = (j 1).val) : rowsCat msg cur j = cur i := by
  unfold rowsCat
  rw [if_pos (by omega)]
  congr 1
  funext a
  match a with
  | ⟨0, _⟩ => exact Fin.ext h0.symm
  | ⟨1, _⟩ => exact Fin.ext h1.symm
  | ⟨2, _⟩ => exact Fin.ext (by show (j 1).val % 256 = (i 2).val; omega)

theorem rowsCat_msg {α : Type} (msg cur : SIn.Idx → α) (j : SOut.Idx) (i : SIn.Idx) (k : Nat) (hk : k < 3)
    (hq : 256 * (k + 1) ≤ (j 1).val ∧ (j 1).val < 256 * (k + 2))
    (h0 : (i 0).val = (j 0).val) (h1 : (i 1).val = k) (h2 : (i 2).val + 256 * (k + 1) = (j 1).val) : rowsCat msg cur j = msg i := by
  unfold rowsCat
  rw [if_neg (by omega)]
  congr 1
  funext a
  match a with
  | ⟨0, _⟩ => exact Fin.ext h0.symm
  | ⟨1, _⟩ => exact Fin.ext (by show (j 1).val / 256 - 1 = (i 1).val; omega)
  | ⟨2, _⟩ => exact Fin.ext (by show (j 1).val % 256 = (i 2).val; omega)

section Views

variable {sig : RefSig} {κ : Kind} {sp : Space} {e : EltTy} {Val : EltTy → Type}

/-- A unit-stride rectangle places an index of its own at its offsets plus the index. -/
theorem unit_emb_val {s : Shape} (off size : Fin s.rank → Nat) (inb : ∀ a, off a + size a ≤ s.size a)
    (x : (Rect.unit off size inb).shape.Idx) (a : Fin s.rank) : (((Rect.unit off size inb).emb x) a).val = off a + (x a).val := by
  show off a + 1 * (x a).val = _; omega

/-- The four quarter windows of a 40 × 1024 scratch. -/
abbrev win (k : Nat) (h : ∀ a, (![0, 256 * k] : Fin 2 → Nat) a + SWin.size a ≤ SBuf.size a) : Rect SBuf := Rect.unit (s := SBuf) ![0, 256 * k] SWin.size h

theorem mem_win (k : Nat) (h) (y : SBuf.Idx) : y ∈ (win k h).set ↔ 256 * k ≤ (y 1).val ∧ (y 1).val < 256 * k + 256 := by
  rw [Rect.mem_set_unit]
  constructor
  · intro H; have := H 1; exact this
  · intro H a
    match a with
    | ⟨0, _⟩ => exact ⟨Nat.zero_le _, by have := idx2_lt0 y; show (y 0).val < 0 + 40; omega⟩
    | ⟨1, _⟩ => exact H

/-- Quarter window at lane offset `c` places `(a, b)` at `(a, c + b)`. -/
theorem emb_win (c : Nat) (hc : ∀ a, (![0, c] : Fin 2 → Nat) a + SWin.size a ≤ SBuf.size a) (y : SBuf.Idx)
    (hlo : c ≤ (y 1).val) (hhi : (y 1).val < c + 256) :
    (Rect.unit (s := SBuf) ![0, c] SWin.size hc).emb (ix2 (n0 := 40) (n1 := 256) (y 0) ⟨(y 1).val - c, by omega⟩) = y := by
  funext a
  match a with
  | ⟨0, _⟩ => exact Fin.ext (show 0 + 1 * (y 0).val = (y 0).val by omega)
  | ⟨1, _⟩ => exact Fin.ext (show c + 1 * ((y 1).val - c) = (y 1).val by omega)

/-- Two quarter windows at lane offsets 256 apart or more do not meet. -/
theorem not_mem_win (c c' : Nat) (hc : ∀ a, (![0, c] : Fin 2 → Nat) a + SWin.size a ≤ SBuf.size a)
    (hc' : ∀ a, (![0, c'] : Fin 2 → Nat) a + SWin.size a ≤ SBuf.size a) (x : SWin.Idx) (hne : c + 256 ≤ c' ∨ c' + 256 ≤ c) :
    (Rect.unit (s := SBuf) ![0, c] SWin.size hc).emb x ∉ Finset.univ.map (Rect.unit (s := SBuf) ![0, c'] SWin.size hc').emb := by
  rw [Rect.map_emb_univ, Rect.mem_set_unit]
  intro H
  have H1 : c' ≤ c + 1 * (x 1).val ∧ c + 1 * (x 1).val < c' + 256 := H 1
  have hx := idx2_lt1 x
  omega

section Filled

variable (v : View sig κ sp SBuf e) (f : v.ty.Contents Val) (p0 p1 p2 p3 : SWin.Idx → Val e)
  (h0 : ∀ a, (![0, 0] : Fin 2 → Nat) a + SWin.size a ≤ SBuf.size a) (h1 : ∀ a, (![0, 256] : Fin 2 → Nat) a + SWin.size a ≤ SBuf.size a)
  (h2 : ∀ a, (![0, 512] : Fin 2 → Nat) a + SWin.size a ≤ SBuf.size a) (h3 : ∀ a, (![0, 768] : Fin 2 → Nat) a + SWin.size a ≤ SBuf.size a)
  (rest : List (View.Piece Val SBuf e))

/-- The scratch after its four quarter windows were written last (in the order 0, 256, 512, 768), over whatever was
    written before. -/
abbrev filled : v.ty.Contents Val :=
  v.writes Val f (⟨Rect.unit (s := SBuf) ![0, 768] SWin.size h3, p3⟩ :: ⟨Rect.unit (s := SBuf) ![0, 512] SWin.size h2, p2⟩
    :: ⟨Rect.unit (s := SBuf) ![0, 256] SWin.size h1, p1⟩ :: ⟨Rect.unit (s := SBuf) ![0, 0] SWin.size h0, p0⟩ :: rest)

theorem read_q3 (x : SWin.Idx) : v.read Val (filled v f p0 p1 p2 p3 h0 h1 h2 h3 rest) ((Rect.unit (s := SBuf) ![0, 768] SWin.size h3).emb x) = p3 x :=
  View.read_writes_cons_emb v f (Rect.unit (s := SBuf) ![0, 768] SWin.size h3) p3 _ x

theorem read_q2 (x : SWin.Idx) : v.read Val (filled v f p0 p1 p2 p3 h0 h1 h2 h3 rest) ((Rect.unit (s := SBuf) ![0, 512] SWin.size h2).emb x) = p2 x := by
  unfold filled
  rw [View.writes_cons, View.read_slice_write_of_not_mem _ _ _ _ (not_mem_win 512 768 h2 h3 x (by omega))]
  exact View.read_writes_cons_emb v f (Rect.unit (s := SBuf) ![0, 512] SWin.size h2) p2 _ x

theorem read_q1 (x : SWin.Idx) : v.read Val (filled v f p0 p1 p2 p3 h0 h1 h2 h3 rest) ((Rect.unit (s := SBuf) ![0, 256] SWin.size h1).emb x) = p1 x := by
  unfold filled
  rw [View.writes_cons, View.read_slice_write_of_not_mem _ _ _ _ (not_mem_win 256 768 h1 h3 x (by omega)),
    View.writes_cons, View.read_slice_write_of_not_mem _ _ _ _ (not_mem_win 256 512 h1 h2 x (by omega))]
  exact View.read_writes_cons_emb v f (Rect.unit (s := SBuf) ![0, 256] SWin.size h1) p1 _ x

theorem read_q0 (x : SWin.Idx) : v.read Val (filled v f p0 p1 p2 p3 h0 h1 h2 h3 rest) ((Rect.unit (s := SBuf) ![0, 0] SWin.size h0).emb x) = p0 x := by
  unfold filled
  rw [View.writes_cons, View.read_slice_write_of_not_mem _ _ _ _ (not_mem_win 0 768 h0 h3 x (by omega)),
    View.writes_cons, View.read_slice_write_of_not_mem _ _ _ _ (not_mem_win 0 512 h0 h2 x (by omega)),
    View.writes_cons, View.read_slice_write_of_not_mem _ _ _ _ (not_mem_win 0 256 h0 h1 x (by omega))]
  exact View.read_writes_cons_emb v f (Rect.unit (s := SBuf) ![0, 0] SWin.size h0) p0 _ x

/-- It reads at `(a, b)` the payload of the quarter that holds lane `b`, at `(a, b - the quarter's offset)`. -/
theorem read_filled (y : SBuf.Idx) (k : Nat) (hk : 256 * k ≤ (y 1).val ∧ (y 1).val < 256 * k + 256) :
    v.read Val (filled v f p0 p1 p2 p3 h0 h1 h2 h3 rest) y
      = (match k with | 0 => p0 | 1 => p1 | 2 => p2 | _ => p3) (ix2 (n0 := 40) (n1 := 256) (y 0) ⟨(y 1).val - 256 * k, by omega⟩) := by
  have hy1 := idx2_lt1 y
  match k, hk with
  | 0, hk =>
    have := read_q0 v f p0 p1 p2 p3 h0 h1 h2 h3 rest (ix2 (n0 := 40) (n1 := 256) (y 0) ⟨(y 1).val - 0, by omega⟩)
    rw [emb_win 0 h0 y (by omega) (by omega)] at this
    exact this
  | 1, hk =>
    have := read_q1 v f p0 p1 p2 p3 h0 h1 h2 h3 rest (ix2 (n0 := 40) (n1 := 256) (y 0) ⟨(y 1).val - 256, by omega⟩)
    rw [emb_win 256 h1 y (by omega) (by omega)] at this
    exact this
  | 2, hk =>
    have := read_q2 v f p0 p1 p2 p3 h0 h1 h2 h3 rest (ix2 (n0 := 40) (n1 := 256) (y 0) ⟨(y 1).val - 512, by omega⟩)
    rw [emb_win 512 h2 y (by omega) (by omega)] at this
    exact this
  | 3, hk =>
    have := read_q3 v f p0 p1 p2 p3 h0 h1 h2 h3 rest (ix2 (n0 := 40) (n1 := 256) (y 0) ⟨(y 1).val - 768, by omega⟩)
    rw [emb_win 768 h3 y (by omega) (by omega)] at this
    exact this
  | k + 4, hk => exact absurd hk.1 (by omega)

end Filled

/-- A 40 × 1 × 256 slice of a 10000 × 16 × 256 array at offsets `o`, read as 40 × 256: `(a, b)` is the array's element
    `(o 0 + a, o 1, o 2 + b)`. -/
theorem slice_read (v : View sig κ sp SIn e) (f : v.ty.Contents Val) (o : Fin 3 → Nat) (h : ∀ a, o a + SSl.size a ≤ SIn.size a)
    (hn : SWin.numel = SSl.numel) (x : SWin.Idx) (i : SIn.Idx)
    (e0 : (i 0).val = o 0 + (x 0).val) (e1 : (i 1).val = o 1) (e2 : (i 2).val = o 2 + (x 1).val) :
    ((v.slice (Rect.unit (s := SIn) o SSl.size h)).reshape SWin hn).read Val f x = v.read Val f i := by
  have hy : Shape.reshapeEquiv hn x = (ix3 (n0 := 40) (n1 := 1) (n2 := 256) (x 0) ⟨0, Nat.one_pos⟩ (x 1)) :=
    Shape.reshapeEquiv_eq_of_rowMajor hn (by
      rewrite [Shape.rowMajor_val_three, Shape.rowMajor_val_two]
      show ((x 0).val * 1 + 0) * 256 + (x 1).val = (x 0).val * 256 + (x 1).val; omega)
  have hi : (Rect.unit (s := SIn) o SSl.size h).emb (Shape.reshapeEquiv hn x) = i := by
    rw [hy]; funext a; apply Fin.ext
    match a with
    | ⟨0, _⟩ => show o 0 + 1 * (x 0).val = (i 0).val; omega
    | ⟨1, _⟩ => show o 1 + 1 * 0 = (i 1).val; omega
    | ⟨2, _⟩ => show o 2 + 1 * (x 1).val = (i 2).val; omega
  rw [View.read_apply, View.read_apply]
  show _root_.cast _ (f (v.emb ((Rect.unit (s := SIn) o SSl.size h).emb (Shape.reshapeEquiv hn x)))) = _
  rw [hi]

/-- A view written whole reads the payload. -/
theorem whole_write_read (v : View sig κ sp SBuf e) (f : v.ty.Contents Val) (P : SBuf.Idx → Val e) (y : SBuf.Idx) :
    v.read Val (v.writes Val f [⟨Rect.whole SBuf, P⟩]) y = P y := by
  have := View.read_writes_cons_emb v f (Rect.whole SBuf) P [] y
  rwa [Rect.emb_whole_apply] at this

end Views

end Cert.Spec

end
-- ==== Proof.TileKB.lean ====
/-
  One vector subcore's share of the kernel, at a symbolic grid point.

  Worker `w = 2 · subcore + core` moves the 40-row chunks `w + 32 j` (`j = 0 … 6`, and `j = 7` when `w < 26`): four copies bring
  rows `40 (w + 32 j) …` of slot 0 of `cur` and of slots 0, 1, 2 of `msg` into the four 256-lane quarters of a 40 × 1024 scratch,
  one copy takes the scratch to the same rows of the result. Three scratches are used in turn; the four copies into a scratch
  complete on one semaphore and are all waited for before the copy out is started, which is waited for before the scratch is
  filled again. So what a row block of the result holds at the end is, lane by lane, the concatenation `Spec.rowsCat`.

  The inputs are only read: every reader holds some positive share of what it reads. The result is held as its 250 row blocks.
-/
import proofs.«214735_g34067680592248_cont_8to1_b_1285_15_alg».proof.Kernel
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic
import proofs.«214735_g34067680592248_cont_8to1_b_1285_15_alg».proof.Proof.Spec
import proofs.«214735_g34067680592248_cont_8to1_b_1285_15_alg».proof.Proof.Gen.Kernel
import proofs.«214735_g34067680592248_cont_8to1_b_1285_15_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

abbrev msgLoc (d : Dev nD) : Loc nD τ sig := (SparseCore.T d).loc main_arg0
abbrev curLoc (d : Dev nD) : Loc nD τ sig := (SparseCore.T d).loc main_arg1
abbrev outLoc (d : Dev nD) : Loc nD τ sig := (SparseCore.T d).loc main_v0

variable [FloatOps F]

abbrev msgV : Memref sig .scVector .hbm S10000x16x256 .f32 := Memref.whole main_arg0_scv
abbrev curV : Memref sig .scVector .hbm S10000x16x256 .f32 := Memref.whole main_arg1_scv
abbrev outV : Memref sig .scVector .hbm S10000x1024 .f32 := Memref.whole main_v0_scv
abbrev b0 : Memref sig .scVector .vmem S40x1024 .f32 := Memref.whole cc0_scratch0
abbrev b1 : Memref sig .scVector .vmem S40x1024 .f32 := Memref.whole cc0_scratch1
abbrev b2 : Memref sig .scVector .vmem S40x1024 .f32 := Memref.whole cc0_scratch2

/-- A 40-row, one-slot, 256-lane slice of an input array at the offsets `o`, squeezed to 40 × 256. -/
abbrev inSl (A : Memref sig .scVector .hbm S10000x16x256 .f32) (o : Fin 3 → Nat) (h : ∀ a, o a + S40x1x256.size a ≤ S10000x16x256.size a) :
    Memref sig .scVector .hbm S40x256 .f32 :=
  (A.slice (Rect.unit (s := S10000x16x256) o S40x1x256.size h) (fun _ => rfl)).squeeze S40x256 squeezes_S40x1x256_S40x256
/-- A 40-row block of the output array at the offsets `o`. -/
abbrev outSl (o : Fin 2 → Nat) (h : ∀ a, o a + S40x1024.size a ≤ S10000x1024.size a) : Memref sig .scVector .hbm S40x1024 .f32 :=
  (outV).slice (Rect.unit (s := S10000x1024) o S40x1024.size h) (fun _ => rfl)

/-! ## Read shares of an input array

The two inputs are only read, by all 32 tiles at once and by several copies in flight per tile. Each reader holds SOME positive
share of what it reads: such a holding can be halved as often as needed, and cut down to any set of elements. -/

/-- Some read share of the whole array `ℓ` at contents `f`. -/
def rd (ℓ : Loc nD τ sig) (f : Buf (Elt F) ℓ) : sProp 𝕄 := iprop(∃ q : PosShare TreeShare, ℓ ↦{q} f)

omit [FloatOps F] in
theorem rd_dup (ℓ : Loc nD τ sig) (f : Buf (Elt F) ℓ) : rd ℓ f ⊢ (iprop(rd ℓ f ∗ rd ℓ f) : sProp 𝕄) := by
  unfold rd
  iintro ⟨%q, Hq⟩
  ihave H2 := ((pointsTo_share (PosShare.mem_left_op_right q)).1) $$ Hq
  icases H2 with ⟨Ha, Hb⟩
  isplitl [Ha]
  · iexists _; iexact Ha
  · iexists _; iexact Hb

omit [FloatOps F] in
theorem rd_many {ι : Type} [DecidableEq ι] (ℓ : Loc nD τ sig) (f : Buf (Elt F) ℓ) (s : Finset ι) :
    rd ℓ f ⊢ (bigSep s fun _ => rd ℓ f : sProp 𝕄) := by
  induction s using Finset.induction_on with
  | empty => rw [bigSep_empty]; iintro -; iempintro
  | insert a s ha ih =>
    rw [bigSep_insert ha]
    exact (rd_dup ℓ f).trans (sep_mono_r ih)

omit [FloatOps F] in
/-- One reader's share of the elements `I` alone, the rest of the holding kept. -/
theorem rd_take (ℓ : Loc nD τ sig) (f : Buf (Elt F) ℓ) (I : Finset (Idx ℓ)) :
    rd ℓ f ⊢ (iprop((∃ q : PosShare TreeShare, ℓ ↦[I]{q} f) ∗ rd ℓ f) : sProp 𝕄) := by
  refine (rd_dup ℓ f).trans ?_
  unfold rd
  iintro ⟨⟨%q, Hq⟩, H2⟩
  ihave H' := ((pointsTo_split_subset (Finset.subset_univ I)).1) $$ Hq
  icases H' with ⟨HI, -⟩
  isplitl [HI]
  · iexists _; iexact HI
  · iexact H2

/-! ## The result's 250 row blocks

The result has 10000 rows; block `k` is rows `40 k … 40 k + 39`, all 1024 lanes. Tile `(c, s)` (SparseCore `c`, subcore `s`)
is worker `2 s + c` and writes blocks `2 s + c + 32 r` for `r = 0 … 7`, the last only when it exists (`< 250`). -/

theorem hdiv : 250 ∣ S10000x1024.size 0 := ⟨40, rfl⟩
abbrev blk (k : Fin 250) : Rect S10000x1024 := Rect.part (s := S10000x1024) (a₀ := 0) hdiv k
abbrev blkSet (k : Fin 250) : Finset S10000x1024.Idx := ((outV : Memref sig .scVector .hbm S10000x1024 .f32).view.slice (blk k)).set

omit [FloatOps F] in
theorem blkSet_eq (k : Fin 250) : blkSet k = (blk k).set := by
  show ((View.whole (main_v0_scv : Ref sig .scVector)).slice (blk k)).set = _
  rw [View.set_slice]; exact Finset.map_refl
omit [FloatOps F] in
theorem blks_disjoint : ∀ i ∈ (Finset.univ : Finset (Fin 250)), ∀ j ∈ (Finset.univ : Finset (Fin 250)), i ≠ j → Disjoint (blkSet i) (blkSet j) :=
  fun i _ j _ h => by rw [blkSet_eq, blkSet_eq]; exact Rect.part_disjoint hdiv h
omit [FloatOps F] in
theorem blks_cover : (Finset.univ : Finset (Fin 250)).biUnion blkSet = Finset.univ :=
  (Finset.biUnion_congr rfl fun i _ => blkSet_eq i).trans (Rect.biUnion_part hdiv)

/-- A unit-stride rectangle of 40 rows from row `40 k`, all lanes, is block `k`. -/
theorem outRect_eq (o : Fin 2 → Nat) (h : ∀ a, o a + S40x1024.size a ≤ S10000x1024.size a) (k : Fin 250) (ho : o = ![40 * k.val, 0]) :
    Rect.unit (s := S10000x1024) o S40x1024.size h = blk k := by
  subst ho
  unfold blk Rect.part Rect.block
  congr 1 <;> funext a
  · match a with
    | 0 => simp [Shape.partIx, Shape.partSize]; omega
    | 1 => simp [Shape.partIx, Shape.partSize]
  · match a with
    | 0 => simp [Shape.partSize]
    | 1 => simp [Shape.partSize]

omit [FloatOps F] in
theorem set_outSl (o : Fin 2 → Nat) (h : ∀ a, o a + S40x1024.size a ≤ S10000x1024.size a) (k : Fin 250) (ho : o = ![40 * k.val, 0]) :
    (outSl o h).view.set = blkSet k := by
  show ((outV : Memref sig .scVector .hbm S10000x1024 .f32).view.slice (Rect.unit (s := S10000x1024) o S40x1024.size h)).set = _
  rw [outRect_eq o h k ho]

/-! ## What a block holds after its chunk has gone through the scratch

Four copies fill the four quarters of a scratch from 40 × 256 slices of `cur` (slot 0) and of `msg` (slots 0, 1, 2) at one
row offset; one copy writes the scratch to the 40 rows of the result at that offset. Element by element that block is then
`Spec.rowsCat`. -/

theorem chunk_val (x0 x1 : (⟨S10000x16x256, .f32⟩ : BufTy).Contents (Elt F)) (fo : (⟨S10000x1024, .f32⟩ : BufTy).Contents (Elt F))
    (b : Memref sig .scVector .vmem S40x1024 .f32) (f0 : b.view.ty.Contents (Elt F))
    (row : Nat) (oc o0 o1 o2 : Fin 3 → Nat) (o4 : Fin 2 → Nat)
    (hc : ∀ a, oc a + S40x1x256.size a ≤ S10000x16x256.size a) (h0 : ∀ a, o0 a + S40x1x256.size a ≤ S10000x16x256.size a)
    (h1 : ∀ a, o1 a + S40x1x256.size a ≤ S10000x16x256.size a) (h2 : ∀ a, o2 a + S40x1x256.size a ≤ S10000x16x256.size a)
    (h4 : ∀ a, o4 a + S40x1024.size a ≤ S10000x1024.size a)
    (ec : oc = ![row, 0, 0]) (e0 : o0 = ![row, 0, 0]) (e1 : o1 = ![row, 1, 0]) (e2 : o2 = ![row, 2, 0]) (e4 : o4 = ![row, 0])
    (rest : List (View.Piece (Elt F) S40x1024 .f32)) :
    ∀ i ∈ (outSl o4 h4).view.set,
      (outSl o4 h4).view.writes (Elt F) fo [⟨Rect.whole S40x1024, ReadAs.same.apply (View.read (Elt F) b.view
        (b.view.writes (Elt F) f0 (⟨Rect.unit (s := S40x1024) ![0, 768] S40x256.size inb_S40x1024_S40x256_0_768, ReadAs.same.apply (View.read (Elt F) (inSl msgV o2 h2).view x0)⟩
          :: ⟨Rect.unit (s := S40x1024) ![0, 512] S40x256.size inb_S40x1024_S40x256_0_512, ReadAs.same.apply (View.read (Elt F) (inSl msgV o1 h1).view x0)⟩
          :: ⟨Rect.unit (s := S40x1024) ![0, 256] S40x256.size inb_S40x1024_S40x256_0_256, ReadAs.same.apply (View.read (Elt F) (inSl msgV o0 h0).view x0)⟩
          :: ⟨Rect.unit (s := S40x1024) ![0, 0] S40x256.size inb_S40x1024_S40x256_0_0, ReadAs.same.apply (View.read (Elt F) (inSl curV oc hc).view x1)⟩ :: rest)))⟩] i
        = Cert.Spec.rowsCat x0 x1 i := by
  subst ec e0 e1 e2 e4
  intro i hi
  obtain ⟨y, -, rfl⟩ := Finset.mem_map.mp hi
  have hy0 := ValueIdx.idx2_lt0 y
  have hy1 := ValueIdx.idx2_lt1 y
  have hrow : row + 40 ≤ 10000 := h4 0
  -- the block's element `(a, b)` is the result's `(row + a, b)`
  have hE0 : (((outSl ![row, 0] h4).view.emb y) 0).val = row + 1 * (y 0).val := rfl
  have hE1 : (((outSl ![row, 0] h4).view.emb y) 1).val = 0 + 1 * (y 1).val := rfl
  have key : ∀ (Fb : (outSl ![row, 0] h4).view.ty.Contents (Elt F)), Fb ((outSl ![row, 0] h4).view.emb y) = (outSl ![row, 0] h4).view.read (Elt F) Fb y := fun _ => rfl
  refine (key _).trans ?_
  refine (Cert.Spec.whole_write_read (outSl ![row, 0] h4).view fo _ y).trans ?_
  show View.read (Elt F) b.view (Cert.Spec.filled b.view f0 _ _ _ _ inb_S40x1024_S40x256_0_0 inb_S40x1024_S40x256_0_256 inb_S40x1024_S40x256_0_512 inb_S40x1024_S40x256_0_768 rest) y = _
  by_cases c0 : (y 1).val < 256
  · rw [Cert.Spec.read_filled _ _ _ _ _ _ _ _ _ _ _ y 0 (by omega)]
    refine (Cert.Spec.slice_read (curV : Memref sig .scVector .hbm S10000x16x256 .f32).view x1 ![row, 0, 0] hc _ _
      (ValueIdx.ix3 (n0 := 10000) (n1 := 16) (n2 := 256) ⟨row + (y 0).val, by omega⟩ ⟨0, by decide⟩ ⟨(y 1).val, by omega⟩) rfl rfl (by show (y 1).val = 0 + ((y 1).val - 256 * 0); omega)).trans ?_
    exact (Cert.Spec.rowsCat_cur x0 x1 _ _ (by omega) (by show row + (y 0).val = _; omega) rfl (by show (y 1).val = _; omega)).symm
  · by_cases c1 : (y 1).val < 512
    · rw [Cert.Spec.read_filled _ _ _ _ _ _ _ _ _ _ _ y 1 (by omega)]
      refine (Cert.Spec.slice_read (msgV : Memref sig .scVector .hbm S10000x16x256 .f32).view x0 ![row, 0, 0] h0 _ _
        (ValueIdx.ix3 (n0 := 10000) (n1 := 16) (n2 := 256) ⟨row + (y 0).val, by omega⟩ ⟨0, by decide⟩ ⟨(y 1).val - 256, by omega⟩) rfl rfl (by show (y 1).val - 256 = 0 + ((y 1).val - 256 * 1); omega)).trans ?_
      exact (Cert.Spec.rowsCat_msg x0 x1 _ _ 0 (by omega) (by omega) (by show row + (y 0).val = _; omega) rfl (by show (y 1).val - 256 + 256 * (0 + 1) = _; omega)).symm
    · by_cases c2 : (y 1).val < 768
      · rw [Cert.Spec.read_filled _ _ _ _ _ _ _ _ _ _ _ y 2 (by omega)]
        refine (Cert.Spec.slice_read (msgV : Memref sig .scVector .hbm S10000x16x256 .f32).view x0 ![row, 1, 0] h1 _ _
          (ValueIdx.ix3 (n0 := 10000) (n1 := 16) (n2 := 256) ⟨row + (y 0).val, by omega⟩ ⟨1, by decide⟩ ⟨(y 1).val - 512, by omega⟩) rfl rfl (by show (y 1).val - 512 = 0 + ((y 1).val - 256 * 2); omega)).trans ?_
        exact (Cert.Spec.rowsCat_msg x0 x1 _ _ 1 (by omega) (by omega) (by show row + (y 0).val = _; omega) rfl (by show (y 1).val - 512 + 256 * (1 + 1) = _; omega)).symm
      · rw [Cert.Spec.read_filled _ _ _ _ _ _ _ _ _ _ _ y 3 (by omega)]
        refine (Cert.Spec.slice_read (msgV : Memref sig .scVector .hbm S10000x16x256 .f32).view x0 ![row, 2, 0] h2 _ _
          (ValueIdx.ix3 (n0 := 10000) (n1 := 16) (n2 := 256) ⟨row + (y 0).val, by omega⟩ ⟨2, by decide⟩ ⟨(y 1).val - 768, by omega⟩) rfl rfl (by show (y 1).val - 768 = 0 + ((y 1).val - 256 * 3); omega)).trans ?_
        exact (Cert.Spec.rowsCat_msg x0 x1 _ _ 2 (by omega) (by omega) (by show row + (y 0).val = _; omega) rfl (by show (y 1).val - 768 + 256 * (2 + 1) = _; omega)).symm

section Tile
variable (d : Dev nD) (L : grid0.Coords)
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev cell (d : Dev nD) (L : grid0.Coords) (s : DmaSem sig) : GSem nD τ sig := (thr d L, .dma s)

omit [FloatOps F] in
theorem ownSems0_V :
    (ownSems0 (thr d L) : sProp 𝕄)
      = iprop(semVal (cell d L cc0_scratch3.sem) 0 ∗ semVal (cell d L cc0_scratch4.sem) 0 ∗ semVal (cell d L cc0_scratch5.sem) 0 ∗ semVal (cell d L cc0_scratch6.sem) 0 ∗ semVal (cell d L cc0_scratch7.sem) 0 ∗ semVal (cell d L cc0_scratch8.sem) 0
          ∗ bigSep (((((((ownCells (thr d L)).erase (cell d L cc0_scratch3.sem)).erase (cell d L cc0_scratch4.sem)).erase (cell d L cc0_scratch5.sem)).erase (cell d L cc0_scratch6.sem)).erase (cell d L cc0_scratch7.sem)).erase (cell d L cc0_scratch8.sem)) fun g => semVal g 0) := by
  unfold SparseCore.Cfg.ownSems0
  rw [SparseCore.bigSep_erase' ((mem_ownCells (g := cell d L cc0_scratch3.sem)).mpr ⟨rfl, by show (SemLoc.dma cc0_scratch3.sem : SemLoc sig).isScoped .scVector = true; decide⟩),
    SparseCore.bigSep_erase' (Finset.mem_erase.mpr ⟨fun e => absurd (congrArg Prod.snd e) (show (SemLoc.dma cc0_scratch4.sem : SemLoc sig) ≠ SemLoc.dma cc0_scratch3.sem by decide), (mem_ownCells (g := cell d L cc0_scratch4.sem)).mpr ⟨rfl, by show (SemLoc.dma cc0_scratch4.sem : SemLoc sig).isScoped .scVector = true; decide⟩⟩),
    SparseCore.bigSep_erase' (Finset.mem_erase.mpr ⟨fun e => absurd (congrArg Prod.snd e) (show (SemLoc.dma cc0_scratch5.sem : SemLoc sig) ≠ SemLoc.dma cc0_scratch4.sem by decide), Finset.mem_erase.mpr ⟨fun e => absurd (congrArg Prod.snd e) (show (SemLoc.dma cc0_scratch5.sem : SemLoc sig) ≠ SemLoc.dma cc0_scratch3.sem by decide), (mem_ownCells (g := cell d L cc0_scratch5.sem)).mpr ⟨rfl, by show (SemLoc.dma cc0_scratch5.sem : SemLoc sig).isScoped .scVector = true; decide⟩⟩⟩),
    SparseCore.bigSep_erase' (Finset.mem_erase.mpr ⟨fun e => absurd (congrArg Prod.snd e) (show (SemLoc.dma cc0_scratch6.sem : SemLoc sig) ≠ SemLoc.dma cc0_scratch5.sem by decide), Finset.mem_erase.mpr ⟨fun e => absurd (congrArg Prod.snd e) (show (SemLoc.dma cc0_scratch6.sem : SemLoc sig) ≠ SemLoc.dma cc0_scratch4.sem by decide), Finset.mem_erase.mpr ⟨fun e => absurd (congrArg Prod.snd e) (show (SemLoc.dma cc0_scratch6.sem : SemLoc sig) ≠ SemLoc.dma cc0_scratch3.sem by decide), (mem_ownCells (g := cell d L cc0_scratch6.sem)).mpr ⟨rfl, by show (SemLoc.dma cc0_scratch6.sem : SemLoc sig).isScoped .scVector = true; decide⟩⟩⟩⟩),
    SparseCore.bigSep_erase' (Finset.mem_erase.mpr ⟨fun e => absurd (congrArg Prod.snd e) (show (SemLoc.dma cc0_scratch7.sem : SemLoc sig) ≠ SemLoc.dma cc0_scratch6.sem by decide), Finset.mem_erase.mpr ⟨fun e => absurd (congrArg Prod.snd e) (show (SemLoc.dma cc0_scratch7.sem : SemLoc sig) ≠ SemLoc.dma cc0_scratch5.sem by decide), Finset.mem_erase.mpr ⟨fun e => absurd (congrArg Prod.snd e) (show (SemLoc.dma cc0_scratch7.sem : SemLoc sig) ≠ SemLoc.dma cc0_scratch4.sem by decide), Finset.mem_erase.mpr ⟨fun e => absurd (congrArg Prod.snd e) (show (SemLoc.dma cc0_scratch7.sem : SemLoc sig) ≠ SemLoc.dma cc0_scratch3.sem by decide), (mem_ownCells (g := cell d L cc0_scratch7.sem)).mpr ⟨rfl, by show (SemLoc.dma cc0_scratch7.sem : SemLoc sig).isScoped .scVector = true; decide⟩⟩⟩⟩⟩),
    SparseCore.bigSep_erase' (Finset.mem_erase.mpr ⟨fun e => absurd (congrArg Prod.snd e) (show (SemLoc.dma cc0_scratch8.sem : SemLoc sig) ≠ SemLoc.dma cc0_scratch7.sem by decide), Finset.mem_erase.mpr ⟨fun e => absurd (congrArg Prod.snd e) (show (SemLoc.dma cc0_scratch8.sem : SemLoc sig) ≠ SemLoc.dma cc0_scratch6.sem by decide), Finset.mem_erase.mpr ⟨fun e => absurd (congrArg Prod.snd e) (show (SemLoc.dma cc0_scratch8.sem : SemLoc sig) ≠ SemLoc.dma cc0_scratch5.sem by decide), Finset.mem_erase.mpr ⟨fun e => absurd (congrArg Prod.snd e) (show (SemLoc.dma cc0_scratch8.sem : SemLoc sig) ≠ SemLoc.dma cc0_scratch4.sem by decide), Finset.mem_erase.mpr ⟨fun e => absurd (congrArg Prod.snd e) (show (SemLoc.dma cc0_scratch8.sem : SemLoc sig) ≠ SemLoc.dma cc0_scratch3.sem by decide), (mem_ownCells (g := cell d L cc0_scratch8.sem)).mpr ⟨rfl, by show (SemLoc.dma cc0_scratch8.sem : SemLoc sig).isScoped .scVector = true; decide⟩⟩⟩⟩⟩⟩)]

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩)]

/-- The tile's worker number: it handles row blocks `wk + 32 r`. -/
abbrev wk (L : grid0.Coords) : Nat := 2 * (L 1).val + (L 0).val
omit [FloatOps F] in
theorem wk_lt : wk L < 32 := by
  have h1 : (L 1).val < 16 := (L 1).isLt
  have h0 : (L 0).val < 2 := (L 0).isLt
  unfold wk; omega
/-- The last block exists exactly for the first 26 workers: the kernel's own test. -/
theorem cond_iff : ∀ L : grid0.Coords, k0_cond1 L = 1#1 ↔ 2 * (L 1).val + (L 0).val < 26 := by decide +kernel

/-- What the result must hold: `Spec.rowsCat` of the two inputs' launch contents. -/
def Gout (d : Dev nD) : Buf (Elt F) (outLoc d) :=
  (Cert.Spec.rowsCat (α := Elt F .f32) (m (msgLoc d) : (⟨S10000x16x256, .f32⟩ : BufTy).Contents (Elt F))
    (m (curLoc d) : (⟨S10000x16x256, .f32⟩ : BufTy).Contents (Elt F)) : (⟨S10000x1024, .f32⟩ : BufTy).Contents (Elt F))

/-- Row block `w + 32 r` of the result at contents `f`, if there is such a block. -/
def pc (d : Dev nD) (f : Buf (Elt F) (outLoc d)) (w r : Nat) : sProp 𝕄 :=
  if h : w + 32 * r < 250 then outLoc d ↦[blkSet ⟨w + 32 * r, h⟩]{fullShare} f else iprop(emp)

instance pc_storable (d : Dev nD) (f : Buf (Elt F) (outLoc d)) (w r : Nat) : BI.Storable (upEmb : UEmb _ 𝕄) (pc d f w r) := by
  unfold pc; split <;> infer_instance

/-- A tile is handed a read share of each input and its row blocks of the result at their launch contents, -/
def goT : sProp 𝕄 :=
  iprop(rd (msgLoc d) (m (msgLoc d)) ∗ rd (curLoc d) (m (curLoc d)) ∗ bigSep (Finset.univ : Finset (Fin 8)) fun r => pc d (m (outLoc d)) (wk L) r.val)
/-- and hands the blocks back holding what they must. -/
def tdT : sProp 𝕄 := bigSep (Finset.univ : Finset (Fin 8)) fun r => pc d (Gout m d) (wk L) r.val

omit [FloatOps F] in
theorem pcs8 (f : Buf (Elt F) (outLoc d)) (w : Nat) :
    (bigSep (Finset.univ : Finset (Fin 8)) fun r => pc d f w r.val)
      = iprop(pc d f w 0 ∗ pc d f w 1 ∗ pc d f w 2 ∗ pc d f w 3 ∗ pc d f w 4 ∗ pc d f w 5 ∗ pc d f w 6 ∗ pc d f w 7) := by
  rw [show (Finset.univ : Finset (Fin 8)) = {0, 1, 2, 3, 4, 5, 6, 7} by decide, SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

omit [FloatOps F] in
theorem off4_row (r : Fin 7) : k0_off4 L (BitVec.ofNat 32 (32 * r.val)) = ![40 * (wk L + 32 * r.val), 0] := by
  rw [k0_off4_eq L r]
  have : 80 * (L 1).val + 40 * (L 0).val + 1280 * r.val = 40 * (wk L + 32 * r.val) := by unfold wk; omega
  rw [this]
omit [FloatOps F] in
theorem off8_row : k0_off8 L = ![40 * (wk L + 32 * 7), 0] := by
  rw [k0_off8_eq L]
  have : 80 * (L 1).val + 40 * (L 0).val + 8960 = 40 * (wk L + 32 * 7) := by unfold wk; omega
  rw [this]

omit [FloatOps F] in
/-- Block `wk + 32 r`, `r ≤ 6`, is the 40-row slice of the result the kernel addresses for its chunk `r`. -/
theorem pc_out (f : Buf (Elt F) (outLoc d)) (r : Fin 7) :
    pc d f (wk L) r.val
      = ((outSl (k0_off4 L (BitVec.ofNat 32 (32 * r.val))) (k0_off4_inb L r)).view.loc (thr d L)
          ↦[(outSl (k0_off4 L (BitVec.ofNat 32 (32 * r.val))) (k0_off4_inb L r)).view.set]{fullShare} f) := by
  have hw := wk_lt L
  have hr := r.isLt
  unfold pc
  rw [dif_pos (by omega), set_outSl _ _ ⟨wk L + 32 * r.val, by omega⟩ (off4_row L r)]
omit [FloatOps F] in
theorem pc_rem (f : Buf (Elt F) (outLoc d)) (hc : k0_cond1 L = 1#1) :
    pc d f (wk L) 7
      = ((outSl (k0_off8 L) (k0_off8_inb L hc)).view.loc (thr d L) ↦[(outSl (k0_off8 L) (k0_off8_inb L hc)).view.set]{fullShare} f) := by
  have hw : wk L < 26 := (cond_iff L).mp hc
  unfold pc
  rw [dif_pos (by omega), set_outSl _ _ ⟨wk L + 32 * 7, by omega⟩ (off8_row L)]
omit [FloatOps F] in
theorem pc_none (f : Buf (Elt F) (outLoc d)) (hc : ¬ k0_cond1 L = 1#1) : pc d f (wk L) 7 = iprop(emp) := by
  have hw : ¬ wk L < 26 := fun h => hc ((cond_iff L).mpr h)
  unfold pc
  rw [dif_neg (by omega)]

omit [FloatOps F] in
theorem take_cur (o : Fin 3 → Nat) (h : ∀ a, o a + S40x1x256.size a ≤ S10000x16x256.size a) :
    rd (curLoc d) (m (curLoc d)) ⊢ (iprop((∃ q : PosShare TreeShare, (inSl curV o h).view.loc (thr d L) ↦[(inSl curV o h).view.set]{q} m (curLoc d))
      ∗ rd (curLoc d) (m (curLoc d))) : sProp 𝕄) := rd_take (curLoc d) (m (curLoc d)) _
omit [FloatOps F] in
theorem take_msg (o : Fin 3 → Nat) (h : ∀ a, o a + S40x1x256.size a ≤ S10000x16x256.size a) :
    rd (msgLoc d) (m (msgLoc d)) ⊢ (iprop((∃ q : PosShare TreeShare, (inSl msgV o h).view.loc (thr d L) ↦[(inSl msgV o h).view.set]{q} m (msgLoc d))
      ∗ rd (msgLoc d) (m (msgLoc d))) : sProp 𝕄) := rd_take (msgLoc d) (m (msgLoc d)) _

omit [FloatOps F] in
theorem off123_row (r : Fin 7) :
    k0_off1 L (BitVec.ofNat 32 (32 * r.val)) = ![40 * (wk L + 32 * r.val), 0, 0] ∧ k0_off2 L (BitVec.ofNat 32 (32 * r.val)) = ![40 * (wk L + 32 * r.val), 1, 0]
      ∧ k0_off3 L (BitVec.ofNat 32 (32 * r.val)) = ![40 * (wk L + 32 * r.val), 2, 0] := by
  have : 80 * (L 1).val + 40 * (L 0).val + 1280 * r.val = 40 * (wk L + 32 * r.val) := by unfold wk; omega
  rw [k0_off1_eq L r, k0_off2_eq L r, k0_off3_eq L r, this]
  exact ⟨rfl, rfl, rfl⟩
omit [FloatOps F] in
theorem off567_row :
    k0_off5 L = ![40 * (wk L + 32 * 7), 0, 0] ∧ k0_off6 L = ![40 * (wk L + 32 * 7), 1, 0] ∧ k0_off7 L = ![40 * (wk L + 32 * 7), 2, 0] := by
  have : 80 * (L 1).val + 40 * (L 0).val + 8960 = 40 * (wk L + 32 * 7) := by unfold wk; omega
  rw [k0_off5_eq L, k0_off6_eq L, k0_off7_eq L, this]
  exact ⟨rfl, rfl, rfl⟩

/-- Chunk `r ≤ 6` gone through scratch `b`: the block then holds what it must. -/
theorem fin_piece (r : Fin 7) (b : Memref sig .scVector .vmem S40x1024 .f32) (f0 : b.view.ty.Contents (Elt F))
    (rest : List (View.Piece (Elt F) S40x1024 .f32)) :
    ((outSl (k0_off4 L (BitVec.ofNat 32 (32 * r.val))) (k0_off4_inb L r)).view.loc (thr d L)
        ↦[(outSl (k0_off4 L (BitVec.ofNat 32 (32 * r.val))) (k0_off4_inb L r)).view.set]{fullShare}
          ((outSl (k0_off4 L (BitVec.ofNat 32 (32 * r.val))) (k0_off4_inb L r)).view.writes (Elt F) (m (outLoc d))
            [⟨Rect.whole S40x1024, ReadAs.same.apply (View.read (Elt F) b.view
              (b.view.writes (Elt F) f0 (⟨Rect.unit (s := S40x1024) ![0, 768] S40x256.size inb_S40x1024_S40x256_0_768, ReadAs.same.apply (View.read (Elt F) (inSl msgV (k0_off3 L (BitVec.ofNat 32 (32 * r.val))) (k0_off3_inb L r)).view (m (msgLoc d)))⟩
                :: ⟨Rect.unit (s := S40x1024) ![0, 512] S40x256.size inb_S40x1024_S40x256_0_512, ReadAs.same.apply (View.read (Elt F) (inSl msgV (k0_off2 L (BitVec.ofNat 32 (32 * r.val))) (k0_off2_inb L r)).view (m (msgLoc d)))⟩
                :: ⟨Rect.unit (s := S40x1024) ![0, 256] S40x256.size inb_S40x1024_S40x256_0_256, ReadAs.same.apply (View.read (Elt F) (inSl msgV (k0_off1 L (BitVec.ofNat 32 (32 * r.val))) (k0_off1_inb L r)).view (m (msgLoc d)))⟩
                :: ⟨Rect.unit (s := S40x1024) ![0, 0] S40x256.size inb_S40x1024_S40x256_0_0, ReadAs.same.apply (View.read (Elt F) (inSl curV (k0_off1 L (BitVec.ofNat 32 (32 * r.val))) (k0_off1_inb L r)).view (m (curLoc d)))⟩ :: rest)))⟩]) : sProp 𝕄)
      = pc d (Gout m d) (wk L) r.val := by
  rw [pc_out]
  exact pointsTo_congr (chunk_val (m (msgLoc d)) (m (curLoc d)) (m (outLoc d)) b f0 (40 * (wk L + 32 * r.val)) _ _ _ _ _ _ _ _ _ _
    (off123_row L r).1 (off123_row L r).1 (off123_row L r).2.1 (off123_row L r).2.2 (off4_row L r) rest)

/-- The last chunk (where there is one) likewise. -/
theorem fin_rem (hc : k0_cond1 L = 1#1) (b : Memref sig .scVector .vmem S40x1024 .f32) (f0 : b.view.ty.Contents (Elt F))
    (rest : List (View.Piece (Elt F) S40x1024 .f32)) :
    ((outSl (k0_off8 L) (k0_off8_inb L hc)).view.loc (thr d L)
        ↦[(outSl (k0_off8 L) (k0_off8_inb L hc)).view.set]{fullShare}
          ((outSl (k0_off8 L) (k0_off8_inb L hc)).view.writes (Elt F) (m (outLoc d))
            [⟨Rect.whole S40x1024, ReadAs.same.apply (View.read (Elt F) b.view
              (b.view.writes (Elt F) f0 (⟨Rect.unit (s := S40x1024) ![0, 768] S40x256.size inb_S40x1024_S40x256_0_768, ReadAs.same.apply (View.read (Elt F) (inSl msgV (k0_off7 L) (k0_off7_inb L hc)).view (m (msgLoc d)))⟩
                :: ⟨Rect.unit (s := S40x1024) ![0, 512] S40x256.size inb_S40x1024_S40x256_0_512, ReadAs.same.apply (View.read (Elt F) (inSl msgV (k0_off6 L) (k0_off6_inb L hc)).view (m (msgLoc d)))⟩
                :: ⟨Rect.unit (s := S40x1024) ![0, 256] S40x256.size inb_S40x1024_S40x256_0_256, ReadAs.same.apply (View.read (Elt F) (inSl msgV (k0_off5 L) (k0_off5_inb L hc)).view (m (msgLoc d)))⟩
                :: ⟨Rect.unit (s := S40x1024) ![0, 0] S40x256.size inb_S40x1024_S40x256_0_0, ReadAs.same.apply (View.read (Elt F) (inSl curV (k0_off5 L) (k0_off5_inb L hc)).view (m (curLoc d)))⟩ :: rest)))⟩]) : sProp 𝕄)
      = pc d (Gout m d) (wk L) 7 := by
  rw [pc_rem d L _ hc]
  exact pointsTo_congr (chunk_val (m (msgLoc d)) (m (curLoc d)) (m (outLoc d)) b f0 (40 * (wk L + 32 * 7)) _ _ _ _ _ _ _ _ _ _
    (off567_row L).1 (off567_row L).1 (off567_row L).2.1 (off567_row L).2.2 (off8_row L) rest)

omit [FloatOps F] in
theorem waits_ins {W W' : Waits sig (HIx 1)} {x : SemLoc sig × HIx 1} (hx : x.2 = none) (h : ∀ p ∈ W', p ∈ W ∨ p.2 = none) :
    ∀ p ∈ insert x W', p ∈ W ∨ p.2 = none :=
  fun p hp => (Finset.mem_insert.mp hp).elim (fun e => .inr (e ▸ hx)) (h p)

omit [FloatOps F] in
theorem pts_b0 (f : Buf (Elt F) ((thr d L).loc cc0_scratch0)) :
    ((thr d L).loc cc0_scratch0 ↦{fullShare} f : sProp 𝕄) = ((b0 : Memref sig .scVector .vmem S40x1024 .f32).view.loc (thr d L) ↦{fullShare} f) := rfl
omit [FloatOps F] in
theorem pts_b1 (f : Buf (Elt F) ((thr d L).loc cc0_scratch1)) :
    ((thr d L).loc cc0_scratch1 ↦{fullShare} f : sProp 𝕄) = ((b1 : Memref sig .scVector .vmem S40x1024 .f32).view.loc (thr d L) ↦{fullShare} f) := rfl
omit [FloatOps F] in
theorem pts_b2 (f : Buf (Elt F) ((thr d L).loc cc0_scratch2)) :
    ((thr d L).loc cc0_scratch2 ↦{fullShare} f : sProp 𝕄) = ((b2 : Memref sig .scVector .vmem S40x1024 .f32).view.loc (thr d L) ↦{fullShare} f) := rfl

set_option maxHeartbeats 8000000 in
/-- The kernel on tile `L`: every gather fills a scratch's four quarters, every scatter writes the scratch to its block; the
    copies of one scratch complete on one semaphore each way and are all waited for before the scratch is used again. -/
theorem tile_body (hF : (K (F := F)).Facts) (O : CellTallies nD τ sig (HIx 1)) (W : Waits sig (HIx 1)) (hO : ∀ g, O g none = 0) :
    (iprop(levAts (K (F := F)).L (K (F := F)).lev ∗ emp ∗ goT m d L
        ∗ scopedBufs (thr d L) ∗ scopedSems0 (thr d L) ∗ owes (thr d L) O W) : sProp 𝕄)
      ⊢ wp frame (wpE (defs₀ (F := F)) 𝒱₀ (thr d L) none) Set.univ
          (cc0_k L msgV (Memref.isWhole_whole _) curV (Memref.isWhole_whole _) outV (Memref.isWhole_whole _) b0 (Memref.isWhole_whole _) b1 (Memref.isWhole_whole _) b2 (Memref.isWhole_whole _) cc0_scratch3 cc0_scratch4 cc0_scratch5 cc0_scratch6 cc0_scratch7 cc0_scratch8)
          fun _ => iprop(tdT m d L ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold goT; rw [pcs8]
  iintro ⟨#Hlv, -, ⟨Hmsg, Hcur, Hp0, Hp1, Hp2, Hp3, Hp4, Hp5, Hp6, Hp7⟩, ⟨⟨%f0, Hb0⟩, ⟨%f1, Hb1⟩, ⟨%f2, Hb2⟩, Hbufs⟩,
    ⟨Hs3, Hs4, Hs5, Hs6, Hs7, Hs8, Hsems⟩, HO⟩
  ihave Hmw := ((K (F := F)).mayWaits_none (thr := thr d L) hO) $$ Hlv
  by_cases hc : k0_cond1 L = 1#1
  · skip

    -- the blocks as the kernel addresses them
    ihave Ho0 := (Entails.of_eq (show pc d (m (outLoc d)) (wk L) 0 = ((outSl (k0_off4 L 0#32) (k0_off4_inb L 0)).view.loc (thr d L) ↦[(outSl (k0_off4 L 0#32) (k0_off4_inb L 0)).view.set]{fullShare} m (outLoc d)) from pc_out d L (m (outLoc d)) 0)) $$ Hp0
    ihave Ho1 := (Entails.of_eq (show pc d (m (outLoc d)) (wk L) 1 = ((outSl (k0_off4 L 32#32) (k0_off4_inb L 1)).view.loc (thr d L) ↦[(outSl (k0_off4 L 32#32) (k0_off4_inb L 1)).view.set]{fullShare} m (outLoc d)) from pc_out d L (m (outLoc d)) 1)) $$ Hp1
    ihave Ho2 := (Entails.of_eq (show pc d (m (outLoc d)) (wk L) 2 = ((outSl (k0_off4 L 64#32) (k0_off4_inb L 2)).view.loc (thr d L) ↦[(outSl (k0_off4 L 64#32) (k0_off4_inb L 2)).view.set]{fullShare} m (outLoc d)) from pc_out d L (m (outLoc d)) 2)) $$ Hp2
    ihave Ho3 := (Entails.of_eq (show pc d (m (outLoc d)) (wk L) 3 = ((outSl (k0_off4 L 96#32) (k0_off4_inb L 3)).view.loc (thr d L) ↦[(outSl (k0_off4 L 96#32) (k0_off4_inb L 3)).view.set]{fullShare} m (outLoc d)) from pc_out d L (m (outLoc d)) 3)) $$ Hp3
    ihave Ho4 := (Entails.of_eq (show pc d (m (outLoc d)) (wk L) 4 = ((outSl (k0_off4 L 128#32) (k0_off4_inb L 4)).view.loc (thr d L) ↦[(outSl (k0_off4 L 128#32) (k0_off4_inb L 4)).view.set]{fullShare} m (outLoc d)) from pc_out d L (m (outLoc d)) 4)) $$ Hp4
    ihave Ho5 := (Entails.of_eq (show pc d (m (outLoc d)) (wk L) 5 = ((outSl (k0_off4 L 160#32) (k0_off4_inb L 5)).view.loc (thr d L) ↦[(outSl (k0_off4 L 160#32) (k0_off4_inb L 5)).view.set]{fullShare} m (outLoc d)) from pc_out d L (m (outLoc d)) 5)) $$ Hp5
    ihave Ho6 := (Entails.of_eq (show pc d (m (outLoc d)) (wk L) 6 = ((outSl (k0_off4 L 192#32) (k0_off4_inb L 6)).view.loc (thr d L) ↦[(outSl (k0_off4 L 192#32) (k0_off4_inb L 6)).view.set]{fullShare} m (outLoc d)) from pc_out d L (m (outLoc d)) 6)) $$ Hp6
    ihave Ho7 := (Entails.of_eq (pc_rem d L (m (outLoc d)) hc)) $$ Hp7
    -- one reader's share of each slice a copy reads
    ihave Ht := (take_cur m d L (k0_off1 L 0#32) (k0_off1_inb L 0)) $$ Hcur; icases Ht with ⟨⟨%qc0, Hc0⟩, Hcur⟩
    ihave Ht := (take_msg m d L (k0_off1 L 0#32) (k0_off1_inb L 0)) $$ Hmsg; icases Ht with ⟨⟨%qa0, Hma0⟩, Hmsg⟩
    ihave Ht := (take_msg m d L (k0_off2 L 0#32) (k0_off2_inb L 0)) $$ Hmsg; icases Ht with ⟨⟨%qb0, Hmb0⟩, Hmsg⟩
    ihave Ht := (take_msg m d L (k0_off3 L 0#32) (k0_off3_inb L 0)) $$ Hmsg; icases Ht with ⟨⟨%qd0, Hmc0⟩, Hmsg⟩
    ihave Ht := (take_cur m d L (k0_off1 L 32#32) (k0_off1_inb L 1)) $$ Hcur; icases Ht with ⟨⟨%qc1, Hc1⟩, Hcur⟩
    ihave Ht := (take_msg m d L (k0_off1 L 32#32) (k0_off1_inb L 1)) $$ Hmsg; icases Ht with ⟨⟨%qa1, Hma1⟩, Hmsg⟩
    ihave Ht := (take_msg m d L (k0_off2 L 32#32) (k0_off2_inb L 1)) $$ Hmsg; icases Ht with ⟨⟨%qb1, Hmb1⟩, Hmsg⟩
    ihave Ht := (take_msg m d L (k0_off3 L 32#32) (k0_off3_inb L 1)) $$ Hmsg; icases Ht with ⟨⟨%qd1, Hmc1⟩, Hmsg⟩
    ihave Ht := (take_cur m d L (k0_off1 L 64#32) (k0_off1_inb L 2)) $$ Hcur; icases Ht with ⟨⟨%qc2, Hc2⟩, Hcur⟩
    ihave Ht := (take_msg m d L (k0_off1 L 64#32) (k0_off1_inb L 2)) $$ Hmsg; icases Ht with ⟨⟨%qa2, Hma2⟩, Hmsg⟩
    ihave Ht := (take_msg m d L (k0_off2 L 64#32) (k0_off2_inb L 2)) $$ Hmsg; icases Ht with ⟨⟨%qb2, Hmb2⟩, Hmsg⟩
    ihave Ht := (take_msg m d L (k0_off3 L 64#32) (k0_off3_inb L 2)) $$ Hmsg; icases Ht with ⟨⟨%qd2, Hmc2⟩, Hmsg⟩
    ihave Ht := (take_cur m d L (k0_off1 L 96#32) (k0_off1_inb L 3)) $$ Hcur; icases Ht with ⟨⟨%qc3, Hc3⟩, Hcur⟩
    ihave Ht := (take_msg m d L (k0_off1 L 96#32) (k0_off1_inb L 3)) $$ Hmsg; icases Ht with ⟨⟨%qa3, Hma3⟩, Hmsg⟩
    ihave Ht := (take_msg m d L (k0_off2 L 96#32) (k0_off2_inb L 3)) $$ Hmsg; icases Ht with ⟨⟨%qb3, Hmb3⟩, Hmsg⟩
    ihave Ht := (take_msg m d L (k0_off3 L 96#32) (k0_off3_inb L 3)) $$ Hmsg; icases Ht with ⟨⟨%qd3, Hmc3⟩, Hmsg⟩
    ihave Ht := (take_cur m d L (k0_off1 L 128#32) (k0_off1_inb L 4)) $$ Hcur; icases Ht with ⟨⟨%qc4, Hc4⟩, Hcur⟩
    ihave Ht := (take_msg m d L (k0_off1 L 128#32) (k0_off1_inb L 4)) $$ Hmsg; icases Ht with ⟨⟨%qa4, Hma4⟩, Hmsg⟩
    ihave Ht := (take_msg m d L (k0_off2 L 128#32) (k0_off2_inb L 4)) $$ Hmsg; icases Ht with ⟨⟨%qb4, Hmb4⟩, Hmsg⟩
    ihave Ht := (take_msg m d L (k0_off3 L 128#32) (k0_off3_inb L 4)) $$ Hmsg; icases Ht with ⟨⟨%qd4, Hmc4⟩, Hmsg⟩
    ihave Ht := (take_cur m d L (k0_off1 L 160#32) (k0_off1_inb L 5)) $$ Hcur; icases Ht with ⟨⟨%qc5, Hc5⟩, Hcur⟩
    ihave Ht := (take_msg m d L (k0_off1 L 160#32) (k0_off1_inb L 5)) $$ Hmsg; icases Ht with ⟨⟨%qa5, Hma5⟩, Hmsg⟩
    ihave Ht := (take_msg m d L (k0_off2 L 160#32) (k0_off2_inb L 5)) $$ Hmsg; icases Ht with ⟨⟨%qb5, Hmb5⟩, Hmsg⟩
    ihave Ht := (take_msg m d L (k0_off3 L 160#32) (k0_off3_inb L 5)) $$ Hmsg; icases Ht with ⟨⟨%qd5, Hmc5⟩, Hmsg⟩
    ihave Ht := (take_cur m d L (k0_off1 L 192#32) (k0_off1_inb L 6)) $$ Hcur; icases Ht with ⟨⟨%qc6, Hc6⟩, Hcur⟩
    ihave Ht := (take_msg m d L (k0_off1 L 192#32) (k0_off1_inb L 6)) $$ Hmsg; icases Ht with ⟨⟨%qa6, Hma6⟩, Hmsg⟩
    ihave Ht := (take_msg m d L (k0_off2 L 192#32) (k0_off2_inb L 6)) $$ Hmsg; icases Ht with ⟨⟨%qb6, Hmb6⟩, Hmsg⟩
    ihave Ht := (take_msg m d L (k0_off3 L 192#32) (k0_off3_inb L 6)) $$ Hmsg; icases Ht with ⟨⟨%qd6, Hmc6⟩, Hmsg⟩
    ihave Ht := (take_cur m d L (k0_off5 L) (k0_off5_inb L hc)) $$ Hcur; icases Ht with ⟨⟨%qc7, Hc7⟩, Hcur⟩
    ihave Ht := (take_msg m d L (k0_off5 L) (k0_off5_inb L hc)) $$ Hmsg; icases Ht with ⟨⟨%qa7, Hma7⟩, Hmsg⟩
    ihave Ht := (take_msg m d L (k0_off6 L) (k0_off6_inb L hc)) $$ Hmsg; icases Ht with ⟨⟨%qb7, Hmb7⟩, Hmsg⟩
    ihave Ht := (take_msg m d L (k0_off7 L) (k0_off7_inb L hc)) $$ Hmsg; icases Ht with ⟨⟨%qd7, Hmc7⟩, Hmsg⟩
    have plan3 : Transfers.BatchOf (thr d L) (SemLoc.dma (sig := sig) cc0_scratch3.sem) 4 (windows := true) := trivial
    have plan4 : Transfers.BatchOf (thr d L) (SemLoc.dma (sig := sig) cc0_scratch4.sem) 4 (windows := true) := trivial
    have plan5 : Transfers.BatchOf (thr d L) (SemLoc.dma (sig := sig) cc0_scratch5.sem) 4 (windows := true) := trivial
    ihave Hb0 := (Entails.of_eq (pts_b0 d L f0)) $$ Hb0
    ihave Hb1 := (Entails.of_eq (pts_b1 d L f1)) $$ Hb1
    ihave Hb2 := (Entails.of_eq (pts_b2 d L f2)) $$ Hb2
    sl_unfold [cc0_k]
    sl_exec_parts
    sl_step
    sl_unfold_run_names
    -- every block holds what it must
    ihave Hf0 := (Entails.of_eq (show ((outSl (k0_off4 L 0#32) (k0_off4_inb L 0)).view.loc (thr d L) ↦[(outSl (k0_off4 L 0#32) (k0_off4_inb L 0)).view.set]{fullShare}
        ((outSl (k0_off4 L 0#32) (k0_off4_inb L 0)).view.writes (Elt F) (m (outLoc d))
          [⟨Rect.whole S40x1024, ReadAs.same.apply (View.read (Elt F) b0.view
            (b0.view.writes (Elt F) f0 (⟨Rect.unit (s := S40x1024) ![0, 768] S40x256.size inb_S40x1024_S40x256_0_768, ReadAs.same.apply (View.read (Elt F) (inSl msgV (k0_off3 L 0#32) (k0_off3_inb L 0)).view (m (msgLoc d)))⟩
              :: ⟨Rect.unit (s := S40x1024) ![0, 512] S40x256.size inb_S40x1024_S40x256_0_512, ReadAs.same.apply (View.read (Elt F) (inSl msgV (k0_off2 L 0#32) (k0_off2_inb L 0)).view (m (msgLoc d)))⟩
              :: ⟨Rect.unit (s := S40x1024) ![0, 256] S40x256.size inb_S40x1024_S40x256_0_256, ReadAs.same.apply (View.read (Elt F) (inSl msgV (k0_off1 L 0#32) (k0_off1_inb L 0)).view (m (msgLoc d)))⟩
              :: ⟨Rect.unit (s := S40x1024) ![0, 0] S40x256.size inb_S40x1024_S40x256_0_0, ReadAs.same.apply (View.read (Elt F) (inSl curV (k0_off1 L 0#32) (k0_off1_inb L 0)).view (m (curLoc d)))⟩ :: _)))⟩]) : sProp 𝕄) = pc d (Gout m d) (wk L) 0 from fin_piece m d L 0 b0 f0 _)) $$ Ho0
    ihave Hf1 := (Entails.of_eq (show ((outSl (k0_off4 L 32#32) (k0_off4_inb L 1)).view.loc (thr d L) ↦[(outSl (k0_off4 L 32#32) (k0_off4_inb L 1)).view.set]{fullShare}
        ((outSl (k0_off4 L 32#32) (k0_off4_inb L 1)).view.writes (Elt F) (m (outLoc d))
          [⟨Rect.whole S40x1024, ReadAs.same.apply (View.read (Elt F) b1.view
            (b1.view.writes (Elt F) f1 (⟨Rect.unit (s := S40x1024) ![0, 768] S40x256.size inb_S40x1024_S40x256_0_768, ReadAs.same.apply (View.read (Elt F) (inSl msgV (k0_off3 L 32#32) (k0_off3_inb L 1)).view (m (msgLoc d)))⟩
              :: ⟨Rect.unit (s := S40x1024) ![0, 512] S40x256.size inb_S40x1024_S40x256_0_512, ReadAs.same.apply (View.read (Elt F) (inSl msgV (k0_off2 L 32#32) (k0_off2_inb L 1)).view (m (msgLoc d)))⟩
              :: ⟨Rect.unit (s := S40x1024) ![0, 256] S40x256.size inb_S40x1024_S40x256_0_256, ReadAs.same.apply (View.read (Elt F) (inSl msgV (k0_off1 L 32#32) (k0_off1_inb L 1)).view (m (msgLoc d)))⟩
              :: ⟨Rect.unit (s := S40x1024) ![0, 0] S40x256.size inb_S40x1024_S40x256_0_0, ReadAs.same.apply (View.read (Elt F) (inSl curV (k0_off1 L 32#32) (k0_off1_inb L 1)).view (m (curLoc d)))⟩ :: _)))⟩]) : sProp 𝕄) = pc d (Gout m d) (wk L) 1 from fin_piece m d L 1 b1 f1 _)) $$ Ho1
    ihave Hf2 := (Entails.of_eq (show ((outSl (k0_off4 L 64#32) (k0_off4_inb L 2)).view.loc (thr d L) ↦[(outSl (k0_off4 L 64#32) (k0_off4_inb L 2)).view.set]{fullShare}
        ((outSl (k0_off4 L 64#32) (k0_off4_inb L 2)).view.writes (Elt F) (m (outLoc d))
          [⟨Rect.whole S40x1024, ReadAs.same.apply (View.read (Elt F) b2.view
            (b2.view.writes (Elt F) f2 (⟨Rect.unit (s := S40x1024) ![0, 768] S40x256.size inb_S40x1024_S40x256_0_768, ReadAs.same.apply (View.read (Elt F) (inSl msgV (k0_off3 L 64#32) (k0_off3_inb L 2)).view (m (msgLoc d)))⟩
              :: ⟨Rect.unit (s := S40x1024) ![0, 512] S40x256.size inb_S40x1024_S40x256_0_512, ReadAs.same.apply (View.read (Elt F) (inSl msgV (k0_off2 L 64#32) (k0_off2_inb L 2)).view (m (msgLoc d)))⟩
              :: ⟨Rect.unit (s := S40x1024) ![0, 256] S40x256.size inb_S40x1024_S40x256_0_256, ReadAs.same.apply (View.read (Elt F) (inSl msgV (k0_off1 L 64#32) (k0_off1_inb L 2)).view (m (msgLoc d)))⟩
              :: ⟨Rect.unit (s := S40x1024) ![0, 0] S40x256.size inb_S40x1024_S40x256_0_0, ReadAs.same.apply (View.read (Elt F) (inSl curV (k0_off1 L 64#32) (k0_off1_inb L 2)).view (m (curLoc d)))⟩ :: _)))⟩]) : sProp 𝕄) = pc d (Gout m d) (wk L) 2 from fin_piece m d L 2 b2 f2 _)) $$ Ho2
    ihave Hf3 := (Entails.of_eq (show ((outSl (k0_off4 L 96#32) (k0_off4_inb L 3)).view.loc (thr d L) ↦[(outSl (k0_off4 L 96#32) (k0_off4_inb L 3)).view.set]{fullShare}
        ((outSl (k0_off4 L 96#32) (k0_off4_inb L 3)).view.writes (Elt F) (m (outLoc d))
          [⟨Rect.whole S40x1024, ReadAs.same.apply (View.read (Elt F) b0.view
            (b0.view.writes (Elt F) f0 (⟨Rect.unit (s := S40x1024) ![0, 768] S40x256.size inb_S40x1024_S40x256_0_768, ReadAs.same.apply (View.read (Elt F) (inSl msgV (k0_off3 L 96#32) (k0_off3_inb L 3)).view (m (msgLoc d)))⟩
              :: ⟨Rect.unit (s := S40x1024) ![0, 512] S40x256.size inb_S40x1024_S40x256_0_512, ReadAs.same.apply (View.read (Elt F) (inSl msgV (k0_off2 L 96#32) (k0_off2_inb L 3)).view (m (msgLoc d)))⟩
              :: ⟨Rect.unit (s := S40x1024) ![0, 256] S40x256.size inb_S40x1024_S40x256_0_256, ReadAs.same.apply (View.read (Elt F) (inSl msgV (k0_off1 L 96#32) (k0_off1_inb L 3)).view (m (msgLoc d)))⟩
              :: ⟨Rect.unit (s := S40x1024) ![0, 0] S40x256.size inb_S40x1024_S40x256_0_0, ReadAs.same.apply (View.read (Elt F) (inSl curV (k0_off1 L 96#32) (k0_off1_inb L 3)).view (m (curLoc d)))⟩ :: _)))⟩]) : sProp 𝕄) = pc d (Gout m d) (wk L) 3 from fin_piece m d L 3 b0 f0 _)) $$ Ho3
    ihave Hf4 := (Entails.of_eq (show ((outSl (k0_off4 L 128#32) (k0_off4_inb L 4)).view.loc (thr d L) ↦[(outSl (k0_off4 L 128#32) (k0_off4_inb L 4)).view.set]{fullShare}
        ((outSl (k0_off4 L 128#32) (k0_off4_inb L 4)).view.writes (Elt F) (m (outLoc d))
          [⟨Rect.whole S40x1024, ReadAs.same.apply (View.read (Elt F) b1.view
            (b1.view.writes (Elt F) f1 (⟨Rect.unit (s := S40x1024) ![0, 768] S40x256.size inb_S40x1024_S40x256_0_768, ReadAs.same.apply (View.read (Elt F) (inSl msgV (k0_off3 L 128#32) (k0_off3_inb L 4)).view (m (msgLoc d)))⟩
              :: ⟨Rect.unit (s := S40x1024) ![0, 512] S40x256.size inb_S40x1024_S40x256_0_512, ReadAs.same.apply (View.read (Elt F) (inSl msgV (k0_off2 L 128#32) (k0_off2_inb L 4)).view (m (msgLoc d)))⟩
              :: ⟨Rect.unit (s := S40x1024) ![0, 256] S40x256.size inb_S40x1024_S40x256_0_256, ReadAs.same.apply (View.read (Elt F) (inSl msgV (k0_off1 L 128#32) (k0_off1_inb L 4)).view (m (msgLoc d)))⟩
              :: ⟨Rect.unit (s := S40x1024) ![0, 0] S40x256.size inb_S40x1024_S40x256_0_0, ReadAs.same.apply (View.read (Elt F) (inSl curV (k0_off1 L 128#32) (k0_off1_inb L 4)).view (m (curLoc d)))⟩ :: _)))⟩]) : sProp 𝕄) = pc d (Gout m d) (wk L) 4 from fin_piece m d L 4 b1 f1 _)) $$ Ho4
    ihave Hf5 := (Entails.of_eq (show ((outSl (k0_off4 L 160#32) (k0_off4_inb L 5)).view.loc (thr d L) ↦[(outSl (k0_off4 L 160#32) (k0_off4_inb L 5)).view.set]{fullShare}
        ((outSl (k0_off4 L 160#32) (k0_off4_inb L 5)).view.writes (Elt F) (m (outLoc d))
          [⟨Rect.whole S40x1024, ReadAs.same.apply (View.read (Elt F) b2.view
            (b2.view.writes (Elt F) f2 (⟨Rect.unit (s := S40x1024) ![0, 768] S40x256.size inb_S40x1024_S40x256_0_768, ReadAs.same.apply (View.read (Elt F) (inSl msgV (k0_off3 L 160#32) (k0_off3_inb L 5)).view (m (msgLoc d)))⟩
              :: ⟨Rect.unit (s := S40x1024) ![0, 512] S40x256.size inb_S40x1024_S40x256_0_512, ReadAs.same.apply (View.read (Elt F) (inSl msgV (k0_off2 L 160#32) (k0_off2_inb L 5)).view (m (msgLoc d)))⟩
              :: ⟨Rect.unit (s := S40x1024) ![0, 256] S40x256.size inb_S40x1024_S40x256_0_256, ReadAs.same.apply (View.read (Elt F) (inSl msgV (k0_off1 L 160#32) (k0_off1_inb L 5)).view (m (msgLoc d)))⟩
              :: ⟨Rect.unit (s := S40x1024) ![0, 0] S40x256.size inb_S40x1024_S40x256_0_0, ReadAs.same.apply (View.read (Elt F) (inSl curV (k0_off1 L 160#32) (k0_off1_inb L 5)).view (m (curLoc d)))⟩ :: _)))⟩]) : sProp 𝕄) = pc d (Gout m d) (wk L) 5 from fin_piece m d L 5 b2 f2 _)) $$ Ho5
    ihave Hf6 := (Entails.of_eq (show ((outSl (k0_off4 L 192#32) (k0_off4_inb L 6)).view.loc (thr d L) ↦[(outSl (k0_off4 L 192#32) (k0_off4_inb L 6)).view.set]{fullShare}
        ((outSl (k0_off4 L 192#32) (k0_off4_inb L 6)).view.writes (Elt F) (m (outLoc d))
          [⟨Rect.whole S40x1024, ReadAs.same.apply (View.read (Elt F) b0.view
            (b0.view.writes (Elt F) f0 (⟨Rect.unit (s := S40x1024) ![0, 768] S40x256.size inb_S40x1024_S40x256_0_768, ReadAs.same.apply (View.read (Elt F) (inSl msgV (k0_off3 L 192#32) (k0_off3_inb L 6)).view (m (msgLoc d)))⟩
              :: ⟨Rect.unit (s := S40x1024) ![0, 512] S40x256.size inb_S40x1024_S40x256_0_512, ReadAs.same.apply (View.read (Elt F) (inSl msgV (k0_off2 L 192#32) (k0_off2_inb L 6)).view (m (msgLoc d)))⟩
              :: ⟨Rect.unit (s := S40x1024) ![0, 256] S40x256.size inb_S40x1024_S40x256_0_256, ReadAs.same.apply (View.read (Elt F) (inSl msgV (k0_off1 L 192#32) (k0_off1_inb L 6)).view (m (msgLoc d)))⟩
              :: ⟨Rect.unit (s := S40x1024) ![0, 0] S40x256.size inb_S40x1024_S40x256_0_0, ReadAs.same.apply (View.read (Elt F) (inSl curV (k0_off1 L 192#32) (k0_off1_inb L 6)).view (m (curLoc d)))⟩ :: _)))⟩]) : sProp 𝕄) = pc d (Gout m d) (wk L) 6 from fin_piece m d L 6 b0 f0 _)) $$ Ho6
    ihave Hf7 := (Entails.of_eq (show ((outSl (k0_off8 L) (k0_off8_inb L hc)).view.loc (thr d L) ↦[(outSl (k0_off8 L) (k0_off8_inb L hc)).view.set]{fullShare}
        ((outSl (k0_off8 L) (k0_off8_inb L hc)).view.writes (Elt F) (m (outLoc d))
          [⟨Rect.whole S40x1024, ReadAs.same.apply (View.read (Elt F) b0.view
            (b0.view.writes (Elt F) f0 (⟨Rect.unit (s := S40x1024) ![0, 768] S40x256.size inb_S40x1024_S40x256_0_768, ReadAs.same.apply (View.read (Elt F) (inSl msgV (k0_off7 L) (k0_off7_inb L hc)).view (m (msgLoc d)))⟩
              :: ⟨Rect.unit (s := S40x1024) ![0, 512] S40x256.size inb_S40x1024_S40x256_0_512, ReadAs.same.apply (View.read (Elt F) (inSl msgV (k0_off6 L) (k0_off6_inb L hc)).view (m (msgLoc d)))⟩
              :: ⟨Rect.unit (s := S40x1024) ![0, 256] S40x256.size inb_S40x1024_S40x256_0_256, ReadAs.same.apply (View.read (Elt F) (inSl msgV (k0_off5 L) (k0_off5_inb L hc)).view (m (msgLoc d)))⟩
              :: ⟨Rect.unit (s := S40x1024) ![0, 0] S40x256.size inb_S40x1024_S40x256_0_0, ReadAs.same.apply (View.read (Elt F) (inSl curV (k0_off5 L) (k0_off5_inb L hc)).view (m (curLoc d)))⟩ :: _)))⟩]) : sProp 𝕄) = pc d (Gout m d) (wk L) 7 from fin_rem m d L hc b0 f0 _)) $$ Ho7
    isplitl [Hf0 Hf1 Hf2 Hf3 Hf4 Hf5 Hf6 Hf7]
    · unfold tdT; rw [pcs8]
      isplitl [Hf0]; · iexact Hf0
      isplitl [Hf1]; · iexact Hf1
      isplitl [Hf2]; · iexact Hf2
      isplitl [Hf3]; · iexact Hf3
      isplitl [Hf4]; · iexact Hf4
      isplitl [Hf5]; · iexact Hf5
      isplitl [Hf6]; · iexact Hf6
      iexact Hf7
    isplitl [Hb0 Hb1 Hb2 Hbufs]
    · isplitl [Hb0]; · iexists _; iapply (Entails.of_eq (pts_b0 d L _).symm); iexact Hb0
      isplitl [Hb1]; · iexists _; iapply (Entails.of_eq (pts_b1 d L _).symm); iexact Hb1
      isplitl [Hb2]; · iexists _; iapply (Entails.of_eq (pts_b2 d L _).symm); iexact Hb2
      iexact Hbufs
    isplitl [Hs3 Hs4 Hs5 Hs6 Hs7 Hs8 Hsems]
    · isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      iexact Hsems
    iexists _; isplitr
    rotate_left
    · iexact HO
    · ipureintro
      repeat (refine waits_ins rfl ?_)
      exact fun p hp => Or.inl hp

  · skip

    -- the blocks as the kernel addresses them
    ihave Ho0 := (Entails.of_eq (show pc d (m (outLoc d)) (wk L) 0 = ((outSl (k0_off4 L 0#32) (k0_off4_inb L 0)).view.loc (thr d L) ↦[(outSl (k0_off4 L 0#32) (k0_off4_inb L 0)).view.set]{fullShare} m (outLoc d)) from pc_out d L (m (outLoc d)) 0)) $$ Hp0
    ihave Ho1 := (Entails.of_eq (show pc d (m (outLoc d)) (wk L) 1 = ((outSl (k0_off4 L 32#32) (k0_off4_inb L 1)).view.loc (thr d L) ↦[(outSl (k0_off4 L 32#32) (k0_off4_inb L 1)).view.set]{fullShare} m (outLoc d)) from pc_out d L (m (outLoc d)) 1)) $$ Hp1
    ihave Ho2 := (Entails.of_eq (show pc d (m (outLoc d)) (wk L) 2 = ((outSl (k0_off4 L 64#32) (k0_off4_inb L 2)).view.loc (thr d L) ↦[(outSl (k0_off4 L 64#32) (k0_off4_inb L 2)).view.set]{fullShare} m (outLoc d)) from pc_out d L (m (outLoc d)) 2)) $$ Hp2
    ihave Ho3 := (Entails.of_eq (show pc d (m (outLoc d)) (wk L) 3 = ((outSl (k0_off4 L 96#32) (k0_off4_inb L 3)).view.loc (thr d L) ↦[(outSl (k0_off4 L 96#32) (k0_off4_inb L 3)).view.set]{fullShare} m (outLoc d)) from pc_out d L (m (outLoc d)) 3)) $$ Hp3
    ihave Ho4 := (Entails.of_eq (show pc d (m (outLoc d)) (wk L) 4 = ((outSl (k0_off4 L 128#32) (k0_off4_inb L 4)).view.loc (thr d L) ↦[(outSl (k0_off4 L 128#32) (k0_off4_inb L 4)).view.set]{fullShare} m (outLoc d)) from pc_out d L (m (outLoc d)) 4)) $$ Hp4
    ihave Ho5 := (Entails.of_eq (show pc d (m (outLoc d)) (wk L) 5 = ((outSl (k0_off4 L 160#32) (k0_off4_inb L 5)).view.loc (thr d L) ↦[(outSl (k0_off4 L 160#32) (k0_off4_inb L 5)).view.set]{fullShare} m (outLoc d)) from pc_out d L (m (outLoc d)) 5)) $$ Hp5
    ihave Ho6 := (Entails.of_eq (show pc d (m (outLoc d)) (wk L) 6 = ((outSl (k0_off4 L 192#32) (k0_off4_inb L 6)).view.loc (thr d L) ↦[(outSl (k0_off4 L 192#32) (k0_off4_inb L 6)).view.set]{fullShare} m (outLoc d)) from pc_out d L (m (outLoc d)) 6)) $$ Hp6

    -- one reader's share of each slice a copy reads
    ihave Ht := (take_cur m d L (k0_off1 L 0#32) (k0_off1_inb L 0)) $$ Hcur; icases Ht with ⟨⟨%qc0, Hc0⟩, Hcur⟩
    ihave Ht := (take_msg m d L (k0_off1 L 0#32) (k0_off1_inb L 0)) $$ Hmsg; icases Ht with ⟨⟨%qa0, Hma0⟩, Hmsg⟩
    ihave Ht := (take_msg m d L (k0_off2 L 0#32) (k0_off2_inb L 0)) $$ Hmsg; icases Ht with ⟨⟨%qb0, Hmb0⟩, Hmsg⟩
    ihave Ht := (take_msg m d L (k0_off3 L 0#32) (k0_off3_inb L 0)) $$ Hmsg; icases Ht with ⟨⟨%qd0, Hmc0⟩, Hmsg⟩
    ihave Ht := (take_cur m d L (k0_off1 L 32#32) (k0_off1_inb L 1)) $$ Hcur; icases Ht with ⟨⟨%qc1, Hc1⟩, Hcur⟩
    ihave Ht := (take_msg m d L (k0_off1 L 32#32) (k0_off1_inb L 1)) $$ Hmsg; icases Ht with ⟨⟨%qa1, Hma1⟩, Hmsg⟩
    ihave Ht := (take_msg m d L (k0_off2 L 32#32) (k0_off2_inb L 1)) $$ Hmsg; icases Ht with ⟨⟨%qb1, Hmb1⟩, Hmsg⟩
    ihave Ht := (take_msg m d L (k0_off3 L 32#32) (k0_off3_inb L 1)) $$ Hmsg; icases Ht with ⟨⟨%qd1, Hmc1⟩, Hmsg⟩
    ihave Ht := (take_cur m d L (k0_off1 L 64#32) (k0_off1_inb L 2)) $$ Hcur; icases Ht with ⟨⟨%qc2, Hc2⟩, Hcur⟩
    ihave Ht := (take_msg m d L (k0_off1 L 64#32) (k0_off1_inb L 2)) $$ Hmsg; icases Ht with ⟨⟨%qa2, Hma2⟩, Hmsg⟩
    ihave Ht := (take_msg m d L (k0_off2 L 64#32) (k0_off2_inb L 2)) $$ Hmsg; icases Ht with ⟨⟨%qb2, Hmb2⟩, Hmsg⟩
    ihave Ht := (take_msg m d L (k0_off3 L 64#32) (k0_off3_inb L 2)) $$ Hmsg; icases Ht with ⟨⟨%qd2, Hmc2⟩, Hmsg⟩
    ihave Ht := (take_cur m d L (k0_off1 L 96#32) (k0_off1_inb L 3)) $$ Hcur; icases Ht with ⟨⟨%qc3, Hc3⟩, Hcur⟩
    ihave Ht := (take_msg m d L (k0_off1 L 96#32) (k0_off1_inb L 3)) $$ Hmsg; icases Ht with ⟨⟨%qa3, Hma3⟩, Hmsg⟩
    ihave Ht := (take_msg m d L (k0_off2 L 96#32) (k0_off2_inb L 3)) $$ Hmsg; icases Ht with ⟨⟨%qb3, Hmb3⟩, Hmsg⟩
    ihave Ht := (take_msg m d L (k0_off3 L 96#32) (k0_off3_inb L 3)) $$ Hmsg; icases Ht with ⟨⟨%qd3, Hmc3⟩, Hmsg⟩
    ihave Ht := (take_cur m d L (k0_off1 L 128#32) (k0_off1_inb L 4)) $$ Hcur; icases Ht with ⟨⟨%qc4, Hc4⟩, Hcur⟩
    ihave Ht := (take_msg m d L (k0_off1 L 128#32) (k0_off1_inb L 4)) $$ Hmsg; icases Ht with ⟨⟨%qa4, Hma4⟩, Hmsg⟩
    ihave Ht := (take_msg m d L (k0_off2 L 128#32) (k0_off2_inb L 4)) $$ Hmsg; icases Ht with ⟨⟨%qb4, Hmb4⟩, Hmsg⟩
    ihave Ht := (take_msg m d L (k0_off3 L 128#32) (k0_off3_inb L 4)) $$ Hmsg; icases Ht with ⟨⟨%qd4, Hmc4⟩, Hmsg⟩
    ihave Ht := (take_cur m d L (k0_off1 L 160#32) (k0_off1_inb L 5)) $$ Hcur; icases Ht with ⟨⟨%qc5, Hc5⟩, Hcur⟩
    ihave Ht := (take_msg m d L (k0_off1 L 160#32) (k0_off1_inb L 5)) $$ Hmsg; icases Ht with ⟨⟨%qa5, Hma5⟩, Hmsg⟩
    ihave Ht := (take_msg m d L (k0_off2 L 160#32) (k0_off2_inb L 5)) $$ Hmsg; icases Ht with ⟨⟨%qb5, Hmb5⟩, Hmsg⟩
    ihave Ht := (take_msg m d L (k0_off3 L 160#32) (k0_off3_inb L 5)) $$ Hmsg; icases Ht with ⟨⟨%qd5, Hmc5⟩, Hmsg⟩
    ihave Ht := (take_cur m d L (k0_off1 L 192#32) (k0_off1_inb L 6)) $$ Hcur; icases Ht with ⟨⟨%qc6, Hc6⟩, Hcur⟩
    ihave Ht := (take_msg m d L (k0_off1 L 192#32) (k0_off1_inb L 6)) $$ Hmsg; icases Ht with ⟨⟨%qa6, Hma6⟩, Hmsg⟩
    ihave Ht := (take_msg m d L (k0_off2 L 192#32) (k0_off2_inb L 6)) $$ Hmsg; icases Ht with ⟨⟨%qb6, Hmb6⟩, Hmsg⟩
    ihave Ht := (take_msg m d L (k0_off3 L 192#32) (k0_off3_inb L 6)) $$ Hmsg; icases Ht with ⟨⟨%qd6, Hmc6⟩, Hmsg⟩
    have plan3 : Transfers.BatchOf (thr d L) (SemLoc.dma (sig := sig) cc0_scratch3.sem) 4 (windows := true) := trivial
    have plan4 : Transfers.BatchOf (thr d L) (SemLoc.dma (sig := sig) cc0_scratch4.sem) 4 (windows := true) := trivial
    have plan5 : Transfers.BatchOf (thr d L) (SemLoc.dma (sig := sig) cc0_scratch5.sem) 4 (windows := true) := trivial
    ihave Hb0 := (Entails.of_eq (pts_b0 d L f0)) $$ Hb0
    ihave Hb1 := (Entails.of_eq (pts_b1 d L f1)) $$ Hb1
    ihave Hb2 := (Entails.of_eq (pts_b2 d L f2)) $$ Hb2
    sl_unfold [cc0_k]
    sl_exec_parts
    sl_step
    sl_unfold_run_names
    -- every block holds what it must
    ihave Hf0 := (Entails.of_eq (show ((outSl (k0_off4 L 0#32) (k0_off4_inb L 0)).view.loc (thr d L) ↦[(outSl (k0_off4 L 0#32) (k0_off4_inb L 0)).view.set]{fullShare}
        ((outSl (k0_off4 L 0#32) (k0_off4_inb L 0)).view.writes (Elt F) (m (outLoc d))
          [⟨Rect.whole S40x1024, ReadAs.same.apply (View.read (Elt F) b0.view
            (b0.view.writes (Elt F) f0 (⟨Rect.unit (s := S40x1024) ![0, 768] S40x256.size inb_S40x1024_S40x256_0_768, ReadAs.same.apply (View.read (Elt F) (inSl msgV (k0_off3 L 0#32) (k0_off3_inb L 0)).view (m (msgLoc d)))⟩
              :: ⟨Rect.unit (s := S40x1024) ![0, 512] S40x256.size inb_S40x1024_S40x256_0_512, ReadAs.same.apply (View.read (Elt F) (inSl msgV (k0_off2 L 0#32) (k0_off2_inb L 0)).view (m (msgLoc d)))⟩
              :: ⟨Rect.unit (s := S40x1024) ![0, 256] S40x256.size inb_S40x1024_S40x256_0_256, ReadAs.same.apply (View.read (Elt F) (inSl msgV (k0_off1 L 0#32) (k0_off1_inb L 0)).view (m (msgLoc d)))⟩
              :: ⟨Rect.unit (s := S40x1024) ![0, 0] S40x256.size inb_S40x1024_S40x256_0_0, ReadAs.same.apply (View.read (Elt F) (inSl curV (k0_off1 L 0#32) (k0_off1_inb L 0)).view (m (curLoc d)))⟩ :: _)))⟩]) : sProp 𝕄) = pc d (Gout m d) (wk L) 0 from fin_piece m d L 0 b0 f0 _)) $$ Ho0
    ihave Hf1 := (Entails.of_eq (show ((outSl (k0_off4 L 32#32) (k0_off4_inb L 1)).view.loc (thr d L) ↦[(outSl (k0_off4 L 32#32) (k0_off4_inb L 1)).view.set]{fullShare}
        ((outSl (k0_off4 L 32#32) (k0_off4_inb L 1)).view.writes (Elt F) (m (outLoc d))
          [⟨Rect.whole S40x1024, ReadAs.same.apply (View.read (Elt F) b1.view
            (b1.view.writes (Elt F) f1 (⟨Rect.unit (s := S40x1024) ![0, 768] S40x256.size inb_S40x1024_S40x256_0_768, ReadAs.same.apply (View.read (Elt F) (inSl msgV (k0_off3 L 32#32) (k0_off3_inb L 1)).view (m (msgLoc d)))⟩
              :: ⟨Rect.unit (s := S40x1024) ![0, 512] S40x256.size inb_S40x1024_S40x256_0_512, ReadAs.same.apply (View.read (Elt F) (inSl msgV (k0_off2 L 32#32) (k0_off2_inb L 1)).view (m (msgLoc d)))⟩
              :: ⟨Rect.unit (s := S40x1024) ![0, 256] S40x256.size inb_S40x1024_S40x256_0_256, ReadAs.same.apply (View.read (Elt F) (inSl msgV (k0_off1 L 32#32) (k0_off1_inb L 1)).view (m (msgLoc d)))⟩
              :: ⟨Rect.unit (s := S40x1024) ![0, 0] S40x256.size inb_S40x1024_S40x256_0_0, ReadAs.same.apply (View.read (Elt F) (inSl curV (k0_off1 L 32#32) (k0_off1_inb L 1)).view (m (curLoc d)))⟩ :: _)))⟩]) : sProp 𝕄) = pc d (Gout m d) (wk L) 1 from fin_piece m d L 1 b1 f1 _)) $$ Ho1
    ihave Hf2 := (Entails.of_eq (show ((outSl (k0_off4 L 64#32) (k0_off4_inb L 2)).view.loc (thr d L) ↦[(outSl (k0_off4 L 64#32) (k0_off4_inb L 2)).view.set]{fullShare}
        ((outSl (k0_off4 L 64#32) (k0_off4_inb L 2)).view.writes (Elt F) (m (outLoc d))
          [⟨Rect.whole S40x1024, ReadAs.same.apply (View.read (Elt F) b2.view
            (b2.view.writes (Elt F) f2 (⟨Rect.unit (s := S40x1024) ![0, 768] S40x256.size inb_S40x1024_S40x256_0_768, ReadAs.same.apply (View.read (Elt F) (inSl msgV (k0_off3 L 64#32) (k0_off3_inb L 2)).view (m (msgLoc d)))⟩
              :: ⟨Rect.unit (s := S40x1024) ![0, 512] S40x256.size inb_S40x1024_S40x256_0_512, ReadAs.same.apply (View.read (Elt F) (inSl msgV (k0_off2 L 64#32) (k0_off2_inb L 2)).view (m (msgLoc d)))⟩
              :: ⟨Rect.unit (s := S40x1024) ![0, 256] S40x256.size inb_S40x1024_S40x256_0_256, ReadAs.same.apply (View.read (Elt F) (inSl msgV (k0_off1 L 64#32) (k0_off1_inb L 2)).view (m (msgLoc d)))⟩
              :: ⟨Rect.unit (s := S40x1024) ![0, 0] S40x256.size inb_S40x1024_S40x256_0_0, ReadAs.same.apply (View.read (Elt F) (inSl curV (k0_off1 L 64#32) (k0_off1_inb L 2)).view (m (curLoc d)))⟩ :: _)))⟩]) : sProp 𝕄) = pc d (Gout m d) (wk L) 2 from fin_piece m d L 2 b2 f2 _)) $$ Ho2
    ihave Hf3 := (Entails.of_eq (show ((outSl (k0_off4 L 96#32) (k0_off4_inb L 3)).view.loc (thr d L) ↦[(outSl (k0_off4 L 96#32) (k0_off4_inb L 3)).view.set]{fullShare}
        ((outSl (k0_off4 L 96#32) (k0_off4_inb L 3)).view.writes (Elt F) (m (outLoc d))
          [⟨Rect.whole S40x1024, ReadAs.same.apply (View.read (Elt F) b0.view
            (b0.view.writes (Elt F) f0 (⟨Rect.unit (s := S40x1024) ![0, 768] S40x256.size inb_S40x1024_S40x256_0_768, ReadAs.same.apply (View.read (Elt F) (inSl msgV (k0_off3 L 96#32) (k0_off3_inb L 3)).view (m (msgLoc d)))⟩
              :: ⟨Rect.unit (s := S40x1024) ![0, 512] S40x256.size inb_S40x1024_S40x256_0_512, ReadAs.same.apply (View.read (Elt F) (inSl msgV (k0_off2 L 96#32) (k0_off2_inb L 3)).view (m (msgLoc d)))⟩
              :: ⟨Rect.unit (s := S40x1024) ![0, 256] S40x256.size inb_S40x1024_S40x256_0_256, ReadAs.same.apply (View.read (Elt F) (inSl msgV (k0_off1 L 96#32) (k0_off1_inb L 3)).view (m (msgLoc d)))⟩
              :: ⟨Rect.unit (s := S40x1024) ![0, 0] S40x256.size inb_S40x1024_S40x256_0_0, ReadAs.same.apply (View.read (Elt F) (inSl curV (k0_off1 L 96#32) (k0_off1_inb L 3)).view (m (curLoc d)))⟩ :: _)))⟩]) : sProp 𝕄) = pc d (Gout m d) (wk L) 3 from fin_piece m d L 3 b0 f0 _)) $$ Ho3
    ihave Hf4 := (Entails.of_eq (show ((outSl (k0_off4 L 128#32) (k0_off4_inb L 4)).view.loc (thr d L) ↦[(outSl (k0_off4 L 128#32) (k0_off4_inb L 4)).view.set]{fullShare}
        ((outSl (k0_off4 L 128#32) (k0_off4_inb L 4)).view.writes (Elt F) (m (outLoc d))
          [⟨Rect.whole S40x1024, ReadAs.same.apply (View.read (Elt F) b1.view
            (b1.view.writes (Elt F) f1 (⟨Rect.unit (s := S40x1024) ![0, 768] S40x256.size inb_S40x1024_S40x256_0_768, ReadAs.same.apply (View.read (Elt F) (inSl msgV (k0_off3 L 128#32) (k0_off3_inb L 4)).view (m (msgLoc d)))⟩
              :: ⟨Rect.unit (s := S40x1024) ![0, 512] S40x256.size inb_S40x1024_S40x256_0_512, ReadAs.same.apply (View.read (Elt F) (inSl msgV (k0_off2 L 128#32) (k0_off2_inb L 4)).view (m (msgLoc d)))⟩
              :: ⟨Rect.unit (s := S40x1024) ![0, 256] S40x256.size inb_S40x1024_S40x256_0_256, ReadAs.same.apply (View.read (Elt F) (inSl msgV (k0_off1 L 128#32) (k0_off1_inb L 4)).view (m (msgLoc d)))⟩
              :: ⟨Rect.unit (s := S40x1024) ![0, 0] S40x256.size inb_S40x1024_S40x256_0_0, ReadAs.same.apply (View.read (Elt F) (inSl curV (k0_off1 L 128#32) (k0_off1_inb L 4)).view (m (curLoc d)))⟩ :: _)))⟩]) : sProp 𝕄) = pc d (Gout m d) (wk L) 4 from fin_piece m d L 4 b1 f1 _)) $$ Ho4
    ihave Hf5 := (Entails.of_eq (show ((outSl (k0_off4 L 160#32) (k0_off4_inb L 5)).view.loc (thr d L) ↦[(outSl (k0_off4 L 160#32) (k0_off4_inb L 5)).view.set]{fullShare}
        ((outSl (k0_off4 L 160#32) (k0_off4_inb L 5)).view.writes (Elt F) (m (outLoc d))
          [⟨Rect.whole S40x1024, ReadAs.same.apply (View.read (Elt F) b2.view
            (b2.view.writes (Elt F) f2 (⟨Rect.unit (s := S40x1024) ![0, 768] S40x256.size inb_S40x1024_S40x256_0_768, ReadAs.same.apply (View.read (Elt F) (inSl msgV (k0_off3 L 160#32) (k0_off3_inb L 5)).view (m (msgLoc d)))⟩
              :: ⟨Rect.unit (s := S40x1024) ![0, 512] S40x256.size inb_S40x1024_S40x256_0_512, ReadAs.same.apply (View.read (Elt F) (inSl msgV (k0_off2 L 160#32) (k0_off2_inb L 5)).view (m (msgLoc d)))⟩
              :: ⟨Rect.unit (s := S40x1024) ![0, 256] S40x256.size inb_S40x1024_S40x256_0_256, ReadAs.same.apply (View.read (Elt F) (inSl msgV (k0_off1 L 160#32) (k0_off1_inb L 5)).view (m (msgLoc d)))⟩
              :: ⟨Rect.unit (s := S40x1024) ![0, 0] S40x256.size inb_S40x1024_S40x256_0_0, ReadAs.same.apply (View.read (Elt F) (inSl curV (k0_off1 L 160#32) (k0_off1_inb L 5)).view (m (curLoc d)))⟩ :: _)))⟩]) : sProp 𝕄) = pc d (Gout m d) (wk L) 5 from fin_piece m d L 5 b2 f2 _)) $$ Ho5
    ihave Hf6 := (Entails.of_eq (show ((outSl (k0_off4 L 192#32) (k0_off4_inb L 6)).view.loc (thr d L) ↦[(outSl (k0_off4 L 192#32) (k0_off4_inb L 6)).view.set]{fullShare}
        ((outSl (k0_off4 L 192#32) (k0_off4_inb L 6)).view.writes (Elt F) (m (outLoc d))
          [⟨Rect.whole S40x1024, ReadAs.same.apply (View.read (Elt F) b0.view
            (b0.view.writes (Elt F) f0 (⟨Rect.unit (s := S40x1024) ![0, 768] S40x256.size inb_S40x1024_S40x256_0_768, ReadAs.same.apply (View.read (Elt F) (inSl msgV (k0_off3 L 192#32) (k0_off3_inb L 6)).view (m (msgLoc d)))⟩
              :: ⟨Rect.unit (s := S40x1024) ![0, 512] S40x256.size inb_S40x1024_S40x256_0_512, ReadAs.same.apply (View.read (Elt F) (inSl msgV (k0_off2 L 192#32) (k0_off2_inb L 6)).view (m (msgLoc d)))⟩
              :: ⟨Rect.unit (s := S40x1024) ![0, 256] S40x256.size inb_S40x1024_S40x256_0_256, ReadAs.same.apply (View.read (Elt F) (inSl msgV (k0_off1 L 192#32) (k0_off1_inb L 6)).view (m (msgLoc d)))⟩
              :: ⟨Rect.unit (s := S40x1024) ![0, 0] S40x256.size inb_S40x1024_S40x256_0_0, ReadAs.same.apply (View.read (Elt F) (inSl curV (k0_off1 L 192#32) (k0_off1_inb L 6)).view (m (curLoc d)))⟩ :: _)))⟩]) : sProp 𝕄) = pc d (Gout m d) (wk L) 6 from fin_piece m d L 6 b0 f0 _)) $$ Ho6

    isplitl [Hf0 Hf1 Hf2 Hf3 Hf4 Hf5 Hf6]
    · unfold tdT; rw [pcs8]
      isplitl [Hf0]; · iexact Hf0
      isplitl [Hf1]; · iexact Hf1
      isplitl [Hf2]; · iexact Hf2
      isplitl [Hf3]; · iexact Hf3
      isplitl [Hf4]; · iexact Hf4
      isplitl [Hf5]; · iexact Hf5
      isplitl [Hf6]; · iexact Hf6
      rw [pc_none d L _ hc]; iempintro
    isplitl [Hb0 Hb1 Hb2 Hbufs]
    · isplitl [Hb0]; · iexists _; iapply (Entails.of_eq (pts_b0 d L _).symm); iexact Hb0
      isplitl [Hb1]; · iexists _; iapply (Entails.of_eq (pts_b1 d L _).symm); iexact Hb1
      isplitl [Hb2]; · iexists _; iapply (Entails.of_eq (pts_b2 d L _).symm); iexact Hb2
      iexact Hbufs
    isplitl [Hs3 Hs4 Hs5 Hs6 Hs7 Hs8 Hsems]
    · isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      iexact Hsems
    iexists _; isplitr
    rotate_left
    · iexact HO
    · ipureintro
      repeat (refine waits_ins rfl ?_)
      exact fun p hp => Or.inl hp

end Tile
end Cert.Proof.KB
end
-- ==== Proof.LaunchKB.lean ====
/-
  The run of the whole device: the TensorCore hands each of the two SparseCores a read share of both inputs and that
  SparseCore's row blocks of the result, each SparseCore hands each of its sixteen tiles its own, the tiles bring their blocks
  back holding `Spec.rowsCat` of the inputs, and the blocks — block `k` belongs to worker `k % 32` — make up the whole result.
-/
import proofs.«214735_g34067680592248_cont_8to1_b_1285_15_alg».proof.Proof.TileKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)
variable [FloatOps F]

instance rd_storable (ℓ : Loc nD τ sig) (f : Buf (Elt F) ℓ) : BI.Storable (upEmb : UEmb _ 𝕄) (rd ℓ f) := by
  unfold rd; infer_instance

/-! ## The result split among the SparseCores and their tiles

Block `k` of the result belongs to worker `k % 32`, its `k / 32`-th; worker `w` is tile `w / 2` of SparseCore `w % 2`. So the
whole result is, over SparseCores `c`, tiles `i` and chunk numbers `r`, block `2 i + c + 32 r` where there is one. -/

section Split

variable (d : Dev nD)

omit [FloatOps F] in
theorem out_blocks (f : Buf (Elt F) (outLoc d)) :
    (outLoc d ↦{fullShare} f : sProp 𝕄) = bigSep Finset.univ fun k : Fin 250 => outLoc d ↦[blkSet k]{fullShare} f := by
  rw [← pointsTo_biUnion Finset.univ (ℓ := outLoc d) blkSet blks_disjoint, blks_cover]; try rfl

abbrev TI : Type := (Fin 2 × Fin 16) × Fin 8
def tnum (t : TI) : Nat := 2 * t.1.2.val + t.1.1.val + 32 * t.2.val
def tblk (t : TI) : Fin 250 := ⟨tnum t % 250, Nat.mod_lt _ (by decide)⟩

theorem tblk_inj : Set.InjOn tblk (((Finset.univ : Finset TI).filter fun t => tnum t < 250 : Finset TI) : Set TI) := by
  intro a ha b hb e
  have ha' : tnum a < 250 := (Finset.mem_filter.mp (Finset.mem_coe.mp ha)).2
  have hb' : tnum b < 250 := (Finset.mem_filter.mp (Finset.mem_coe.mp hb)).2
  have e' : tnum a = tnum b := by
    have := congrArg Fin.val e
    simp only [tblk] at this
    rwa [Nat.mod_eq_of_lt ha', Nat.mod_eq_of_lt hb'] at this
  obtain ⟨⟨a1, a2⟩, a3⟩ := a
  obtain ⟨⟨b1, b2⟩, b3⟩ := b
  simp only [tnum] at e'
  have h1 := a1.isLt; have h2 := a2.isLt; have h3 := a3.isLt
  have g1 := b1.isLt; have g2 := b2.isLt; have g3 := b3.isLt
  have e1 : a1 = b1 := Fin.ext (by omega)
  have e2 : a2 = b2 := Fin.ext (by omega)
  have e3 : a3 = b3 := Fin.ext (by omega)
  rw [e1, e2, e3]

theorem tblk_img : ((Finset.univ : Finset TI).filter fun t => tnum t < 250).image tblk = Finset.univ := by
  refine Finset.eq_univ_iff_forall.mpr fun k => Finset.mem_image.mpr ?_
  have hk := k.isLt
  refine ⟨((⟨k.val % 2, by omega⟩, ⟨k.val % 32 / 2, by omega⟩), ⟨k.val / 32, by omega⟩), Finset.mem_filter.mpr ⟨Finset.mem_univ _, ?_⟩, Fin.ext ?_⟩
  · show 2 * (k.val % 32 / 2) + k.val % 2 + 32 * (k.val / 32) < 250; omega
  · show (2 * (k.val % 32 / 2) + k.val % 2 + 32 * (k.val / 32)) % 250 = k.val; omega

omit [FloatOps F] in
theorem out_split (f : Buf (Elt F) (outLoc d)) :
    (outLoc d ↦{fullShare} f : sProp 𝕄)
      = bigSep Finset.univ fun c : Fin 2 => bigSep Finset.univ fun i : Fin 16 => bigSep Finset.univ fun r : Fin 8 => pc d f (2 * i.val + c.val) r.val := by
  rw [out_blocks, ← tblk_img, SparseCore.bigSep_image_of_injOn tblk_inj, bigSep_filter,
    show (Finset.univ : Finset TI) = ((Finset.univ : Finset (Fin 2)) ×ˢ (Finset.univ : Finset (Fin 16))) ×ˢ (Finset.univ : Finset (Fin 8)) from rfl,
    SparseCore.bigSep_product, SparseCore.bigSep_product]
  refine bigSep_congr fun c _ => bigSep_congr fun i _ => bigSep_congr fun r _ => ?_
  unfold pc
  by_cases h : 2 * i.val + c.val + 32 * r.val < 250
  · rw [if_pos (show tnum ((c, i), r) < 250 from h), dif_pos h]
    exact congrArg (fun k => (outLoc d ↦[blkSet k]{fullShare} f : sProp 𝕄)) (Fin.ext (Nat.mod_eq_of_lt h))
  · rw [if_neg (show ¬ tnum ((c, i), r) < 250 from h), dif_neg h]; rfl

end Split

/-! ## What the handshakes carry -/

/-- Tile `(c, i)`'s blocks of the result at contents `f`. -/
def XT (d : Dev nD) (f : Buf (Elt F) (outLoc d)) (c i : Nat) : sProp 𝕄 := bigSep (Finset.univ : Finset (Fin 8)) fun r => pc d f (2 * i + c) r.val
instance XT_storable (d : Dev nD) (f : Buf (Elt F) (outLoc d)) (c i : Nat) : BI.Storable (upEmb : UEmb _ 𝕄) (XT d f c i) := by
  unfold XT; infer_instance

/-- The one call takes, per SparseCore, a read share of each input and that SparseCore's blocks of the result, and brings the
    blocks back holding what they must; each tile likewise its own. -/
def P : (K (F := F)).Pay (nD := nD) (Val := Elt F) (Name := ℕ) (U := UU) where
  st := fun _ d c => iprop(rd (msgLoc d) (m (msgLoc d)) ∗ rd (curLoc d) (m (curLoc d)) ∗ bigSep (Finset.univ : Finset (Fin 16)) fun i => XT d (m (outLoc d)) c.val i.val)
  dn := fun _ d c => bigSep (Finset.univ : Finset (Fin 16)) fun i => XT d (Gout m d) c.val i.val
  go := fun _ d c i => iprop(rd (msgLoc d) (m (msgLoc d)) ∗ rd (curLoc d) (m (curLoc d)) ∗ XT d (m (outLoc d)) c.val i.val)
  td := fun _ d c i => XT d (Gout m d) c.val i.val
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          msgV (Memref.isWhole_whole _) curV (Memref.isWhole_whole _) outV (Memref.isWhole_whole _)
          b0 (Memref.isWhole_whole _) b1 (Memref.isWhole_whole _) b2 (Memref.isWhole_whole _)
          cc0_scratch3 cc0_scratch4 cc0_scratch5 cc0_scratch6 cc0_scratch7 cc0_scratch8) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

theorem vecSplit : (K (F := F)).VecSplit' (P m) 0 := by
  intro d c
  show iprop(rd (msgLoc d) (m (msgLoc d)) ∗ rd (curLoc d) (m (curLoc d)) ∗ bigSep (Finset.univ : Finset (Fin 16)) fun i => XT d (m (outLoc d)) c.val i.val)
    ⊢ |={Set.univ}=> iprop((bigSep (Finset.univ : Finset (Fin 16)) fun i =>
          iprop(rd (msgLoc d) (m (msgLoc d)) ∗ rd (curLoc d) (m (curLoc d)) ∗ XT d (m (outLoc d)) c.val i.val))
      ∗ ((bigSep (Finset.univ : Finset (Fin 16)) fun i => XT d (Gout m d) c.val i.val)
          -∗ bigSep (Finset.univ : Finset (Fin 16)) fun i => XT d (Gout m d) c.val i.val))
  iintro ⟨Hm, Hc, HX⟩
  imodintro
  ihave Hms := (rd_many (msgLoc d) (m (msgLoc d)) (Finset.univ : Finset (Fin 16))) $$ Hm
  ihave Hcs := (rd_many (curLoc d) (m (curLoc d)) (Finset.univ : Finset (Fin 16))) $$ Hc
  isplitl [Hms Hcs HX]
  · rw [bigSep_sep', bigSep_sep']
    isplitl [Hms]; · iexact Hms
    isplitl [Hcs]; · iexact Hcs
    iexact HX
  · iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((msgLoc d ↦{fullShare} W main_arg0) ∗ (curLoc d ↦{fullShare} W main_arg1) ∗ outLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) :
    (bigSep Finset.univ fun c : Fin ((K (F := F)).nCore 0) => (P m).st 0 d c)
      = bigSep (Finset.univ : Finset (Fin 2)) fun c => iprop(rd (msgLoc d) (m (msgLoc d)) ∗ rd (curLoc d) (m (curLoc d))
          ∗ bigSep (Finset.univ : Finset (Fin 16)) fun i => XT d (m (outLoc d)) c.val i.val) := rfl
theorem dn0_eq (d : Dev nD) :
    (bigSep Finset.univ fun c : Fin ((K (F := F)).nCore 0) => (P m).dn 0 d c)
      = bigSep (Finset.univ : Finset (Fin 2)) fun c => bigSep (Finset.univ : Finset (Fin 16)) fun i => XT d (Gout m d) c.val i.val := rfl

omit [FloatOps F] in
theorem rd_of_full (ℓ : Loc nD τ sig) (f : Buf (Elt F) ℓ) : (ℓ ↦{fullShare} f : sProp 𝕄) ⊢ rd ℓ f := by
  unfold rd; iintro Hf; iexists _; iexact Hf

/-- What @main leaves the claim: a read share of each input at its launch contents, the result whole at what it must hold. -/
abbrev FIN (d : Dev nD) : sProp 𝕄 := iprop(rd (msgLoc d) (m (msgLoc d)) ∗ rd (curLoc d) (m (curLoc d)) ∗ outLoc d ↦{fullShare} Gout m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Hx, Ho⟩, -, -⟩, -⟩
  ihave Hi := (rd_of_full _ _) $$ Hi
  ihave Hx := (rd_of_full _ _) $$ Hx
  ihave Hi2 := (rd_dup _ _) $$ Hi; icases Hi2 with ⟨Hi, Hik⟩
  ihave Hx2 := (rd_dup _ _) $$ Hx; icases Hx2 with ⟨Hx, Hxk⟩
  ihave His := (rd_many (msgLoc d) (m (msgLoc d)) (Finset.univ : Finset (Fin 2))) $$ Hi
  ihave Hxs := (rd_many (curLoc d) (m (curLoc d)) (Finset.univ : Finset (Fin 2))) $$ Hx
  ihave Hos := (Entails.of_eq (out_split d (m (outLoc d)))) $$ Ho
  iapply ((K (F := F)).wp_run (D (F := F)) 𝒱 (EH := EH) (P := P m) κ d 0) $$ [Hst His Hxs Hos Hik Hxk]
  isplitr; · iexact Hctx
  isplitl [Hst]; · iexact Hst
  isplitl [His Hxs Hos]
  · rw [st0_eq, bigSep_sep', bigSep_sep']
    isplitl [His]; · iexact His
    isplitl [Hxs]; · iexact Hxs
    iexact Hos
  iintro ⟨Hst, Hdn⟩
  ihave Hdn' := (Entails.of_eq ((dn0_eq m d).trans (out_split d (Gout m d)).symm)) $$ Hdn
  imodintro
  isplitl [Hst]; · iexact Hst
  isplitl [Hik]; · iexact Hik
  isplitl [Hxk]; · iexact Hxk
  iexact Hdn'

def fq (d : Dev nD) (s' : Phys nD τ sig (Elt F)) : Prop :=
  s'.mem.mem (outLoc d) = Gout m d ∧ s'.mem.mem (msgLoc d) = m (msgLoc d) ∧ s'.mem.mem (curLoc d) = m (curLoc d)

omit [FloatOps F] in
/-- A read share of an array agrees with the memory on all of it. -/
theorem rd_agree (ℓ : Loc nD τ sig) (f : Buf (Elt F) ℓ) (s' : Phys nD τ sig (Elt F)) :
    iprop(SI s' ∗ rd ℓ f) ⊢ (⌜s'.mem.mem ℓ = f⌝ : sProp 𝕄) := by
  unfold rd
  iintro ⟨HSI, %q, Hq⟩
  ihave H := (SI_pointsTo_agree (st := s') (ℓ := ℓ) (I := Finset.univ) (q := q) (f := f)) $$ [HSI Hq]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp 𝕄) := by
  iintro ⟨⟨Hi, Hx, Ho⟩, HSI⟩
  ihave H := (persistent_entails_right (rd_agree (msgLoc d) (m (msgLoc d)) s')) $$ [HSI Hi]
  · isplitl [HSI] <;> iassumption
  icases H with ⟨%h1, HSI, -⟩
  ihave H := (persistent_entails_right (rd_agree (curLoc d) (m (curLoc d)) s')) $$ [HSI Hx]
  · isplitl [HSI] <;> iassumption
  icases H with ⟨%h2, HSI, -⟩
  ihave H := (SI_pointsTo_agree (st := s') (ℓ := outLoc d) (I := Finset.univ) (q := fullShare) (f := Gout m d)) $$ [HSI Ho]
  · isplitl [HSI] <;> iassumption
  icases H with %h3
  ipureintro
  exact ⟨funext fun i => h3 i (Finset.mem_univ i), h1, h2⟩

/-! ## The program's run -/

def QC : PUnit × MemSt nD τ sig (Elt F) → Prop := fun r => ∀ c : Dev nD,
  r.2.mem (outLoc c) = Gout m c ∧ r.2.mem (msgLoc c) = m (msgLoc c) ∧ r.2.mem (curLoc c) = m (curLoc c)

/-- Every weakly fair execution of the device's 35 threads terminates, nothing faulting, with the result at
    `Spec.rowsCat` of the inputs' launch contents and the inputs unchanged. -/
theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.TileKI.lean ====
/-
  One vector subcore's share of the kernel, at a symbolic grid point.

  Worker `w = 2 · subcore + core` moves the 40-row chunks `w + 32 j` (`j = 0 … 6`, and `j = 7` when `w < 26`): four copies bring
  rows `40 (w + 32 j) …` of slot 0 of `cur` and of slots 0, 1, 2 of `msg` into the four 256-lane quarters of a 40 × 1024 scratch,
  one copy takes the scratch to the same rows of the result. Three scratches are used in turn; the four copies into a scratch
  complete on one semaphore and are all waited for before the copy out is started, which is waited for before the scratch is
  filled again. So what a row block of the result holds at the end is, lane by lane, the concatenation `Spec.rowsCat`.

  The inputs are only read: every reader holds some positive share of what it reads. The result is held as its 250 row blocks.
-/
import proofs.«214735_g34067680592248_cont_8to1_b_1285_15_alg».proof.KernelIdeal
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic
import proofs.«214735_g34067680592248_cont_8to1_b_1285_15_alg».proof.Proof.Spec
import proofs.«214735_g34067680592248_cont_8to1_b_1285_15_alg».proof.Proof.Gen.KernelIdeal
import proofs.«214735_g34067680592248_cont_8to1_b_1285_15_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

abbrev msgLoc (d : Dev nD) : Loc nD τ sig := (SparseCore.T d).loc main_arg0
abbrev curLoc (d : Dev nD) : Loc nD τ sig := (SparseCore.T d).loc main_arg1
abbrev outLoc (d : Dev nD) : Loc nD τ sig := (SparseCore.T d).loc main_v0

variable [FloatOps F]

abbrev msgV : Memref sig .scVector .hbm S10000x16x256 .f32 := Memref.whole main_arg0_scv
abbrev curV : Memref sig .scVector .hbm S10000x16x256 .f32 := Memref.whole main_arg1_scv
abbrev outV : Memref sig .scVector .hbm S10000x1024 .f32 := Memref.whole main_v0_scv
abbrev b0 : Memref sig .scVector .vmem S40x1024 .f32 := Memref.whole cc0_scratch0
abbrev b1 : Memref sig .scVector .vmem S40x1024 .f32 := Memref.whole cc0_scratch1
abbrev b2 : Memref sig .scVector .vmem S40x1024 .f32 := Memref.whole cc0_scratch2

/-- A 40-row, one-slot, 256-lane slice of an input array at the offsets `o`, squeezed to 40 × 256. -/
abbrev inSl (A : Memref sig .scVector .hbm S10000x16x256 .f32) (o : Fin 3 → Nat) (h : ∀ a, o a + S40x1x256.size a ≤ S10000x16x256.size a) :
    Memref sig .scVector .hbm S40x256 .f32 :=
  (A.slice (Rect.unit (s := S10000x16x256) o S40x1x256.size h) (fun _ => rfl)).squeeze S40x256 squeezes_S40x1x256_S40x256
/-- A 40-row block of the output array at the offsets `o`. -/
abbrev outSl (o : Fin 2 → Nat) (h : ∀ a, o a + S40x1024.size a ≤ S10000x1024.size a) : Memref sig .scVector .hbm S40x1024 .f32 :=
  (outV).slice (Rect.unit (s := S10000x1024) o S40x1024.size h) (fun _ => rfl)

/-! ## Read shares of an input array

The two inputs are only read, by all 32 tiles at once and by several copies in flight per tile. Each reader holds SOME positive
share of what it reads: such a holding can be halved as often as needed, and cut down to any set of elements. -/

/-- Some read share of the whole array `ℓ` at contents `f`. -/
def rd (ℓ : Loc nD τ sig) (f : Buf (Elt F) ℓ) : sProp 𝕄 := iprop(∃ q : PosShare TreeShare, ℓ ↦{q} f)

omit [FloatOps F] in
theorem rd_dup (ℓ : Loc nD τ sig) (f : Buf (Elt F) ℓ) : rd ℓ f ⊢ (iprop(rd ℓ f ∗ rd ℓ f) : sProp 𝕄) := by
  unfold rd
  iintro ⟨%q, Hq⟩
  ihave H2 := ((pointsTo_share (PosShare.mem_left_op_right q)).1) $$ Hq
  icases H2 with ⟨Ha, Hb⟩
  isplitl [Ha]
  · iexists _; iexact Ha
  · iexists _; iexact Hb

omit [FloatOps F] in
theorem rd_many {ι : Type} [DecidableEq ι] (ℓ : Loc nD τ sig) (f : Buf (Elt F) ℓ) (s : Finset ι) :
    rd ℓ f ⊢ (bigSep s fun _ => rd ℓ f : sProp 𝕄) := by
  induction s using Finset.induction_on with
  | empty => rw [bigSep_empty]; iintro -; iempintro
  | insert a s ha ih =>
    rw [bigSep_insert ha]
    exact (rd_dup ℓ f).trans (sep_mono_r ih)

omit [FloatOps F] in
/-- One reader's share of the elements `I` alone, the rest of the holding kept. -/
theorem rd_take (ℓ : Loc nD τ sig) (f : Buf (Elt F) ℓ) (I : Finset (Idx ℓ)) :
    rd ℓ f ⊢ (iprop((∃ q : PosShare TreeShare, ℓ ↦[I]{q} f) ∗ rd ℓ f) : sProp 𝕄) := by
  refine (rd_dup ℓ f).trans ?_
  unfold rd
  iintro ⟨⟨%q, Hq⟩, H2⟩
  ihave H' := ((pointsTo_split_subset (Finset.subset_univ I)).1) $$ Hq
  icases H' with ⟨HI, -⟩
  isplitl [HI]
  · iexists _; iexact HI
  · iexact H2

/-! ## The result's 250 row blocks

The result has 10000 rows; block `k` is rows `40 k … 40 k + 39`, all 1024 lanes. Tile `(c, s)` (SparseCore `c`, subcore `s`)
is worker `2 s + c` and writes blocks `2 s + c + 32 r` for `r = 0 … 7`, the last only when it exists (`< 250`). -/

theorem hdiv : 250 ∣ S10000x1024.size 0 := ⟨40, rfl⟩
abbrev blk (k : Fin 250) : Rect S10000x1024 := Rect.part (s := S10000x1024) (a₀ := 0) hdiv k
abbrev blkSet (k : Fin 250) : Finset S10000x1024.Idx := ((outV : Memref sig .scVector .hbm S10000x1024 .f32).view.slice (blk k)).set

omit [FloatOps F] in
theorem blkSet_eq (k : Fin 250) : blkSet k = (blk k).set := by
  show ((View.whole (main_v0_scv : Ref sig .scVector)).slice (blk k)).set = _
  rw [View.set_slice]; exact Finset.map_refl
omit [FloatOps F] in
theorem blks_disjoint : ∀ i ∈ (Finset.univ : Finset (Fin 250)), ∀ j ∈ (Finset.univ : Finset (Fin 250)), i ≠ j → Disjoint (blkSet i) (blkSet j) :=
  fun i _ j _ h => by rw [blkSet_eq, blkSet_eq]; exact Rect.part_disjoint hdiv h
omit [FloatOps F] in
theorem blks_cover : (Finset.univ : Finset (Fin 250)).biUnion blkSet = Finset.univ :=
  (Finset.biUnion_congr rfl fun i _ => blkSet_eq i).trans (Rect.biUnion_part hdiv)

/-- A unit-stride rectangle of 40 rows from row `40 k`, all lanes, is block `k`. -/
theorem outRect_eq (o : Fin 2 → Nat) (h : ∀ a, o a + S40x1024.size a ≤ S10000x1024.size a) (k : Fin 250) (ho : o = ![40 * k.val, 0]) :
    Rect.unit (s := S10000x1024) o S40x1024.size h = blk k := by
  subst ho
  unfold blk Rect.part Rect.block
  congr 1 <;> funext a
  · match a with
    | 0 => simp [Shape.partIx, Shape.partSize]; omega
    | 1 => simp [Shape.partIx, Shape.partSize]
  · match a with
    | 0 => simp [Shape.partSize]
    | 1 => simp [Shape.partSize]

omit [FloatOps F] in
theorem set_outSl (o : Fin 2 → Nat) (h : ∀ a, o a + S40x1024.size a ≤ S10000x1024.size a) (k : Fin 250) (ho : o = ![40 * k.val, 0]) :
    (outSl o h).view.set = blkSet k := by
  show ((outV : Memref sig .scVector .hbm S10000x1024 .f32).view.slice (Rect.unit (s := S10000x1024) o S40x1024.size h)).set = _
  rw [outRect_eq o h k ho]

/-! ## What a block holds after its chunk has gone through the scratch

Four copies fill the four quarters of a scratch from 40 × 256 slices of `cur` (slot 0) and of `msg` (slots 0, 1, 2) at one
row offset; one copy writes the scratch to the 40 rows of the result at that offset. Element by element that block is then
`Spec.rowsCat`. -/

theorem chunk_val (x0 x1 : (⟨S10000x16x256, .f32⟩ : BufTy).Contents (Elt F)) (fo : (⟨S10000x1024, .f32⟩ : BufTy).Contents (Elt F))
    (b : Memref sig .scVector .vmem S40x1024 .f32) (f0 : b.view.ty.Contents (Elt F))
    (row : Nat) (oc o0 o1 o2 : Fin 3 → Nat) (o4 : Fin 2 → Nat)
    (hc : ∀ a, oc a + S40x1x256.size a ≤ S10000x16x256.size a) (h0 : ∀ a, o0 a + S40x1x256.size a ≤ S10000x16x256.size a)
    (h1 : ∀ a, o1 a + S40x1x256.size a ≤ S10000x16x256.size a) (h2 : ∀ a, o2 a + S40x1x256.size a ≤ S10000x16x256.size a)
    (h4 : ∀ a, o4 a + S40x1024.size a ≤ S10000x1024.size a)
    (ec : oc = ![row, 0, 0]) (e0 : o0 = ![row, 0, 0]) (e1 : o1 = ![row, 1, 0]) (e2 : o2 = ![row, 2, 0]) (e4 : o4 = ![row, 0])
    (rest : List (View.Piece (Elt F) S40x1024 .f32)) :
    ∀ i ∈ (outSl o4 h4).view.set,
      (outSl o4 h4).view.writes (Elt F) fo [⟨Rect.whole S40x1024, ReadAs.same.apply (View.read (Elt F) b.view
        (b.view.writes (Elt F) f0 (⟨Rect.unit (s := S40x1024) ![0, 768] S40x256.size inb_S40x1024_S40x256_0_768, ReadAs.same.apply (View.read (Elt F) (inSl msgV o2 h2).view x0)⟩
          :: ⟨Rect.unit (s := S40x1024) ![0, 512] S40x256.size inb_S40x1024_S40x256_0_512, ReadAs.same.apply (View.read (Elt F) (inSl msgV o1 h1).view x0)⟩
          :: ⟨Rect.unit (s := S40x1024) ![0, 256] S40x256.size inb_S40x1024_S40x256_0_256, ReadAs.same.apply (View.read (Elt F) (inSl msgV o0 h0).view x0)⟩
          :: ⟨Rect.unit (s := S40x1024) ![0, 0] S40x256.size inb_S40x1024_S40x256_0_0, ReadAs.same.apply (View.read (Elt F) (inSl curV oc hc).view x1)⟩ :: rest)))⟩] i
        = Cert.Spec.rowsCat x0 x1 i := by
  subst ec e0 e1 e2 e4
  intro i hi
  obtain ⟨y, -, rfl⟩ := Finset.mem_map.mp hi
  have hy0 := ValueIdx.idx2_lt0 y
  have hy1 := ValueIdx.idx2_lt1 y
  have hrow : row + 40 ≤ 10000 := h4 0
  -- the block's element `(a, b)` is the result's `(row + a, b)`
  have hE0 : (((outSl ![row, 0] h4).view.emb y) 0).val = row + 1 * (y 0).val := rfl
  have hE1 : (((outSl ![row, 0] h4).view.emb y) 1).val = 0 + 1 * (y 1).val := rfl
  have key : ∀ (Fb : (outSl ![row, 0] h4).view.ty.Contents (Elt F)), Fb ((outSl ![row, 0] h4).view.emb y) = (outSl ![row, 0] h4).view.read (Elt F) Fb y := fun _ => rfl
  refine (key _).trans ?_
  refine (Cert.Spec.whole_write_read (outSl ![row, 0] h4).view fo _ y).trans ?_
  show View.read (Elt F) b.view (Cert.Spec.filled b.view f0 _ _ _ _ inb_S40x1024_S40x256_0_0 inb_S40x1024_S40x256_0_256 inb_S40x1024_S40x256_0_512 inb_S40x1024_S40x256_0_768 rest) y = _
  by_cases c0 : (y 1).val < 256
  · rw [Cert.Spec.read_filled _ _ _ _ _ _ _ _ _ _ _ y 0 (by omega)]
    refine (Cert.Spec.slice_read (curV : Memref sig .scVector .hbm S10000x16x256 .f32).view x1 ![row, 0, 0] hc _ _
      (ValueIdx.ix3 (n0 := 10000) (n1 := 16) (n2 := 256) ⟨row + (y 0).val, by omega⟩ ⟨0, by decide⟩ ⟨(y 1).val, by omega⟩) rfl rfl (by show (y 1).val = 0 + ((y 1).val - 256 * 0); omega)).trans ?_
    exact (Cert.Spec.rowsCat_cur x0 x1 _ _ (by omega) (by show row + (y 0).val = _; omega) rfl (by show (y 1).val = _; omega)).symm
  · by_cases c1 : (y 1).val < 512
    · rw [Cert.Spec.read_filled _ _ _ _ _ _ _ _ _ _ _ y 1 (by omega)]
      refine (Cert.Spec.slice_read (msgV : Memref sig .scVector .hbm S10000x16x256 .f32).view x0 ![row, 0, 0] h0 _ _
        (ValueIdx.ix3 (n0 := 10000) (n1 := 16) (n2 := 256) ⟨row + (y 0).val, by omega⟩ ⟨0, by decide⟩ ⟨(y 1).val - 256, by omega⟩) rfl rfl (by show (y 1).val - 256 = 0 + ((y 1).val - 256 * 1); omega)).trans ?_
      exact (Cert.Spec.rowsCat_msg x0 x1 _ _ 0 (by omega) (by omega) (by show row + (y 0).val = _; omega) rfl (by show (y 1).val - 256 + 256 * (0 + 1) = _; omega)).symm
    · by_cases c2 : (y 1).val < 768
      · rw [Cert.Spec.read_filled _ _ _ _ _ _ _ _ _ _ _ y 2 (by omega)]
        refine (Cert.Spec.slice_read (msgV : Memref sig .scVector .hbm S10000x16x256 .f32).view x0 ![row, 1, 0] h1 _ _
          (ValueIdx.ix3 (n0 := 10000) (n1 := 16) (n2 := 256) ⟨row + (y 0).val, by omega⟩ ⟨1, by decide⟩ ⟨(y 1).val - 512, by omega⟩) rfl rfl (by show (y 1).val - 512 = 0 + ((y 1).val - 256 * 2); omega)).trans ?_
        exact (Cert.Spec.rowsCat_msg x0 x1 _ _ 1 (by omega) (by omega) (by show row + (y 0).val = _; omega) rfl (by show (y 1).val - 512 + 256 * (1 + 1) = _; omega)).symm
      · rw [Cert.Spec.read_filled _ _ _ _ _ _ _ _ _ _ _ y 3 (by omega)]
        refine (Cert.Spec.slice_read (msgV : Memref sig .scVector .hbm S10000x16x256 .f32).view x0 ![row, 2, 0] h2 _ _
          (ValueIdx.ix3 (n0 := 10000) (n1 := 16) (n2 := 256) ⟨row + (y 0).val, by omega⟩ ⟨2, by decide⟩ ⟨(y 1).val - 768, by omega⟩) rfl rfl (by show (y 1).val - 768 = 0 + ((y 1).val - 256 * 3); omega)).trans ?_
        exact (Cert.Spec.rowsCat_msg x0 x1 _ _ 2 (by omega) (by omega) (by show row + (y 0).val = _; omega) rfl (by show (y 1).val - 768 + 256 * (2 + 1) = _; omega)).symm

section Tile
variable (d : Dev nD) (L : grid0.Coords)
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev cell (d : Dev nD) (L : grid0.Coords) (s : DmaSem sig) : GSem nD τ sig := (thr d L, .dma s)

omit [FloatOps F] in
theorem ownSems0_V :
    (ownSems0 (thr d L) : sProp 𝕄)
      = iprop(semVal (cell d L cc0_scratch3.sem) 0 ∗ semVal (cell d L cc0_scratch4.sem) 0 ∗ semVal (cell d L cc0_scratch5.sem) 0 ∗ semVal (cell d L cc0_scratch6.sem) 0 ∗ semVal (cell d L cc0_scratch7.sem) 0 ∗ semVal (cell d L cc0_scratch8.sem) 0
          ∗ bigSep (((((((ownCells (thr d L)).erase (cell d L cc0_scratch3.sem)).erase (cell d L cc0_scratch4.sem)).erase (cell d L cc0_scratch5.sem)).erase (cell d L cc0_scratch6.sem)).erase (cell d L cc0_scratch7.sem)).erase (cell d L cc0_scratch8.sem)) fun g => semVal g 0) := by
  unfold SparseCore.Cfg.ownSems0
  rw [SparseCore.bigSep_erase' ((mem_ownCells (g := cell d L cc0_scratch3.sem)).mpr ⟨rfl, by show (SemLoc.dma cc0_scratch3.sem : SemLoc sig).isScoped .scVector = true; decide⟩),
    SparseCore.bigSep_erase' (Finset.mem_erase.mpr ⟨fun e => absurd (congrArg Prod.snd e) (show (SemLoc.dma cc0_scratch4.sem : SemLoc sig) ≠ SemLoc.dma cc0_scratch3.sem by decide), (mem_ownCells (g := cell d L cc0_scratch4.sem)).mpr ⟨rfl, by show (SemLoc.dma cc0_scratch4.sem : SemLoc sig).isScoped .scVector = true; decide⟩⟩),
    SparseCore.bigSep_erase' (Finset.mem_erase.mpr ⟨fun e => absurd (congrArg Prod.snd e) (show (SemLoc.dma cc0_scratch5.sem : SemLoc sig) ≠ SemLoc.dma cc0_scratch4.sem by decide), Finset.mem_erase.mpr ⟨fun e => absurd (congrArg Prod.snd e) (show (SemLoc.dma cc0_scratch5.sem : SemLoc sig) ≠ SemLoc.dma cc0_scratch3.sem by decide), (mem_ownCells (g := cell d L cc0_scratch5.sem)).mpr ⟨rfl, by show (SemLoc.dma cc0_scratch5.sem : SemLoc sig).isScoped .scVector = true; decide⟩⟩⟩),
    SparseCore.bigSep_erase' (Finset.mem_erase.mpr ⟨fun e => absurd (congrArg Prod.snd e) (show (SemLoc.dma cc0_scratch6.sem : SemLoc sig) ≠ SemLoc.dma cc0_scratch5.sem by decide), Finset.mem_erase.mpr ⟨fun e => absurd (congrArg Prod.snd e) (show (SemLoc.dma cc0_scratch6.sem : SemLoc sig) ≠ SemLoc.dma cc0_scratch4.sem by decide), Finset.mem_erase.mpr ⟨fun e => absurd (congrArg Prod.snd e) (show (SemLoc.dma cc0_scratch6.sem : SemLoc sig) ≠ SemLoc.dma cc0_scratch3.sem by decide), (mem_ownCells (g := cell d L cc0_scratch6.sem)).mpr ⟨rfl, by show (SemLoc.dma cc0_scratch6.sem : SemLoc sig).isScoped .scVector = true; decide⟩⟩⟩⟩),
    SparseCore.bigSep_erase' (Finset.mem_erase.mpr ⟨fun e => absurd (congrArg Prod.snd e) (show (SemLoc.dma cc0_scratch7.sem : SemLoc sig) ≠ SemLoc.dma cc0_scratch6.sem by decide), Finset.mem_erase.mpr ⟨fun e => absurd (congrArg Prod.snd e) (show (SemLoc.dma cc0_scratch7.sem : SemLoc sig) ≠ SemLoc.dma cc0_scratch5.sem by decide), Finset.mem_erase.mpr ⟨fun e => absurd (congrArg Prod.snd e) (show (SemLoc.dma cc0_scratch7.sem : SemLoc sig) ≠ SemLoc.dma cc0_scratch4.sem by decide), Finset.mem_erase.mpr ⟨fun e => absurd (congrArg Prod.snd e) (show (SemLoc.dma cc0_scratch7.sem : SemLoc sig) ≠ SemLoc.dma cc0_scratch3.sem by decide), (mem_ownCells (g := cell d L cc0_scratch7.sem)).mpr ⟨rfl, by show (SemLoc.dma cc0_scratch7.sem : SemLoc sig).isScoped .scVector = true; decide⟩⟩⟩⟩⟩),
    SparseCore.bigSep_erase' (Finset.mem_erase.mpr ⟨fun e => absurd (congrArg Prod.snd e) (show (SemLoc.dma cc0_scratch8.sem : SemLoc sig) ≠ SemLoc.dma cc0_scratch7.sem by decide), Finset.mem_erase.mpr ⟨fun e => absurd (congrArg Prod.snd e) (show (SemLoc.dma cc0_scratch8.sem : SemLoc sig) ≠ SemLoc.dma cc0_scratch6.sem by decide), Finset.mem_erase.mpr ⟨fun e => absurd (congrArg Prod.snd e) (show (SemLoc.dma cc0_scratch8.sem : SemLoc sig) ≠ SemLoc.dma cc0_scratch5.sem by decide), Finset.mem_erase.mpr ⟨fun e => absurd (congrArg Prod.snd e) (show (SemLoc.dma cc0_scratch8.sem : SemLoc sig) ≠ SemLoc.dma cc0_scratch4.sem by decide), Finset.mem_erase.mpr ⟨fun e => absurd (congrArg Prod.snd e) (show (SemLoc.dma cc0_scratch8.sem : SemLoc sig) ≠ SemLoc.dma cc0_scratch3.sem by decide), (mem_ownCells (g := cell d L cc0_scratch8.sem)).mpr ⟨rfl, by show (SemLoc.dma cc0_scratch8.sem : SemLoc sig).isScoped .scVector = true; decide⟩⟩⟩⟩⟩⟩)]

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩)]

/-- The tile's worker number: it handles row blocks `wk + 32 r`. -/
abbrev wk (L : grid0.Coords) : Nat := 2 * (L 1).val + (L 0).val
omit [FloatOps F] in
theorem wk_lt : wk L < 32 := by
  have h1 : (L 1).val < 16 := (L 1).isLt
  have h0 : (L 0).val < 2 := (L 0).isLt
  unfold wk; omega
/-- The last block exists exactly for the first 26 workers: the kernel's own test. -/
theorem cond_iff : ∀ L : grid0.Coords, k0_cond1 L = 1#1 ↔ 2 * (L 1).val + (L 0).val < 26 := by decide +kernel

/-- What the result must hold: `Spec.rowsCat` of the two inputs' launch contents. -/
def Gout (d : Dev nD) : Buf (Elt F) (outLoc d) :=
  (Cert.Spec.rowsCat (α := Elt F .f32) (m (msgLoc d) : (⟨S10000x16x256, .f32⟩ : BufTy).Contents (Elt F))
    (m (curLoc d) : (⟨S10000x16x256, .f32⟩ : BufTy).Contents (Elt F)) : (⟨S10000x1024, .f32⟩ : BufTy).Contents (Elt F))

/-- Row block `w + 32 r` of the result at contents `f`, if there is such a block. -/
def pc (d : Dev nD) (f : Buf (Elt F) (outLoc d)) (w r : Nat) : sProp 𝕄 :=
  if h : w + 32 * r < 250 then outLoc d ↦[blkSet ⟨w + 32 * r, h⟩]{fullShare} f else iprop(emp)

instance pc_storable (d : Dev nD) (f : Buf (Elt F) (outLoc d)) (w r : Nat) : BI.Storable (upEmb : UEmb _ 𝕄) (pc d f w r) := by
  unfold pc; split <;> infer_instance

/-- A tile is handed a read share of each input and its row blocks of the result at their launch contents, -/
def goT : sProp 𝕄 :=
  iprop(rd (msgLoc d) (m (msgLoc d)) ∗ rd (curLoc d) (m (curLoc d)) ∗ bigSep (Finset.univ : Finset (Fin 8)) fun r => pc d (m (outLoc d)) (wk L) r.val)
/-- and hands the blocks back holding what they must. -/
def tdT : sProp 𝕄 := bigSep (Finset.univ : Finset (Fin 8)) fun r => pc d (Gout m d) (wk L) r.val

omit [FloatOps F] in
theorem pcs8 (f : Buf (Elt F) (outLoc d)) (w : Nat) :
    (bigSep (Finset.univ : Finset (Fin 8)) fun r => pc d f w r.val)
      = iprop(pc d f w 0 ∗ pc d f w 1 ∗ pc d f w 2 ∗ pc d f w 3 ∗ pc d f w 4 ∗ pc d f w 5 ∗ pc d f w 6 ∗ pc d f w 7) := by
  rw [show (Finset.univ : Finset (Fin 8)) = {0, 1, 2, 3, 4, 5, 6, 7} by decide, SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

omit [FloatOps F] in
theorem off4_row (r : Fin 7) : k0_off4 L (BitVec.ofNat 32 (32 * r.val)) = ![40 * (wk L + 32 * r.val), 0] := by
  rw [k0_off4_eq L r]
  have : 80 * (L 1).val + 40 * (L 0).val + 1280 * r.val = 40 * (wk L + 32 * r.val) := by unfold wk; omega
  rw [this]
omit [FloatOps F] in
theorem off8_row : k0_off8 L = ![40 * (wk L + 32 * 7), 0] := by
  rw [k0_off8_eq L]
  have : 80 * (L 1).val + 40 * (L 0).val + 8960 = 40 * (wk L + 32 * 7) := by unfold wk; omega
  rw [this]

omit [FloatOps F] in
/-- Block `wk + 32 r`, `r ≤ 6`, is the 40-row slice of the result the kernel addresses for its chunk `r`. -/
theorem pc_out (f : Buf (Elt F) (outLoc d)) (r : Fin 7) :
    pc d f (wk L) r.val
      = ((outSl (k0_off4 L (BitVec.ofNat 32 (32 * r.val))) (k0_off4_inb L r)).view.loc (thr d L)
          ↦[(outSl (k0_off4 L (BitVec.ofNat 32 (32 * r.val))) (k0_off4_inb L r)).view.set]{fullShare} f) := by
  have hw := wk_lt L
  have hr := r.isLt
  unfold pc
  rw [dif_pos (by omega), set_outSl _ _ ⟨wk L + 32 * r.val, by omega⟩ (off4_row L r)]
omit [FloatOps F] in
theorem pc_rem (f : Buf (Elt F) (outLoc d)) (hc : k0_cond1 L = 1#1) :
    pc d f (wk L) 7
      = ((outSl (k0_off8 L) (k0_off8_inb L hc)).view.loc (thr d L) ↦[(outSl (k0_off8 L) (k0_off8_inb L hc)).view.set]{fullShare} f) := by
  have hw : wk L < 26 := (cond_iff L).mp hc
  unfold pc
  rw [dif_pos (by omega), set_outSl _ _ ⟨wk L + 32 * 7, by omega⟩ (off8_row L)]
omit [FloatOps F] in
theorem pc_none (f : Buf (Elt F) (outLoc d)) (hc : ¬ k0_cond1 L = 1#1) : pc d f (wk L) 7 = iprop(emp) := by
  have hw : ¬ wk L < 26 := fun h => hc ((cond_iff L).mpr h)
  unfold pc
  rw [dif_neg (by omega)]

omit [FloatOps F] in
theorem take_cur (o : Fin 3 → Nat) (h : ∀ a, o a + S40x1x256.size a ≤ S10000x16x256.size a) :
    rd (curLoc d) (m (curLoc d)) ⊢ (iprop((∃ q : PosShare TreeShare, (inSl curV o h).view.loc (thr d L) ↦[(inSl curV o h).view.set]{q} m (curLoc d))
      ∗ rd (curLoc d) (m (curLoc d))) : sProp 𝕄) := rd_take (curLoc d) (m (curLoc d)) _
omit [FloatOps F] in
theorem take_msg (o : Fin 3 → Nat) (h : ∀ a, o a + S40x1x256.size a ≤ S10000x16x256.size a) :
    rd (msgLoc d) (m (msgLoc d)) ⊢ (iprop((∃ q : PosShare TreeShare, (inSl msgV o h).view.loc (thr d L) ↦[(inSl msgV o h).view.set]{q} m (msgLoc d))
      ∗ rd (msgLoc d) (m (msgLoc d))) : sProp 𝕄) := rd_take (msgLoc d) (m (msgLoc d)) _

omit [FloatOps F] in
theorem off123_row (r : Fin 7) :
    k0_off1 L (BitVec.ofNat 32 (32 * r.val)) = ![40 * (wk L + 32 * r.val), 0, 0] ∧ k0_off2 L (BitVec.ofNat 32 (32 * r.val)) = ![40 * (wk L + 32 * r.val), 1, 0]
      ∧ k0_off3 L (BitVec.ofNat 32 (32 * r.val)) = ![40 * (wk L + 32 * r.val), 2, 0] := by
  have : 80 * (L 1).val + 40 * (L 0).val + 1280 * r.val = 40 * (wk L + 32 * r.val) := by unfold wk; omega
  rw [k0_off1_eq L r, k0_off2_eq L r, k0_off3_eq L r, this]
  exact ⟨rfl, rfl, rfl⟩
omit [FloatOps F] in
theorem off567_row :
    k0_off5 L = ![40 * (wk L + 32 * 7), 0, 0] ∧ k0_off6 L = ![40 * (wk L + 32 * 7), 1, 0] ∧ k0_off7 L = ![40 * (wk L + 32 * 7), 2, 0] := by
  have : 80 * (L 1).val + 40 * (L 0).val + 8960 = 40 * (wk L + 32 * 7) := by unfold wk; omega
  rw [k0_off5_eq L, k0_off6_eq L, k0_off7_eq L, this]
  exact ⟨rfl, rfl, rfl⟩

/-- Chunk `r ≤ 6` gone through scratch `b`: the block then holds what it must. -/
theorem fin_piece (r : Fin 7) (b : Memref sig .scVector .vmem S40x1024 .f32) (f0 : b.view.ty.Contents (Elt F))
    (rest : List (View.Piece (Elt F) S40x1024 .f32)) :
    ((outSl (k0_off4 L (BitVec.ofNat 32 (32 * r.val))) (k0_off4_inb L r)).view.loc (thr d L)
        ↦[(outSl (k0_off4 L (BitVec.ofNat 32 (32 * r.val))) (k0_off4_inb L r)).view.set]{fullShare}
          ((outSl (k0_off4 L (BitVec.ofNat 32 (32 * r.val))) (k0_off4_inb L r)).view.writes (Elt F) (m (outLoc d))
            [⟨Rect.whole S40x1024, ReadAs.same.apply (View.read (Elt F) b.view
              (b.view.writes (Elt F) f0 (⟨Rect.unit (s := S40x1024) ![0, 768] S40x256.size inb_S40x1024_S40x256_0_768, ReadAs.same.apply (View.read (Elt F) (inSl msgV (k0_off3 L (BitVec.ofNat 32 (32 * r.val))) (k0_off3_inb L r)).view (m (msgLoc d)))⟩
                :: ⟨Rect.unit (s := S40x1024) ![0, 512] S40x256.size inb_S40x1024_S40x256_0_512, ReadAs.same.apply (View.read (Elt F) (inSl msgV (k0_off2 L (BitVec.ofNat 32 (32 * r.val))) (k0_off2_inb L r)).view (m (msgLoc d)))⟩
                :: ⟨Rect.unit (s := S40x1024) ![0, 256] S40x256.size inb_S40x1024_S40x256_0_256, ReadAs.same.apply (View.read (Elt F) (inSl msgV (k0_off1 L (BitVec.ofNat 32 (32 * r.val))) (k0_off1_inb L r)).view (m (msgLoc d)))⟩
                :: ⟨Rect.unit (s := S40x1024) ![0, 0] S40x256.size inb_S40x1024_S40x256_0_0, ReadAs.same.apply (View.read (Elt F) (inSl curV (k0_off1 L (BitVec.ofNat 32 (32 * r.val))) (k0_off1_inb L r)).view (m (curLoc d)))⟩ :: rest)))⟩]) : sProp 𝕄)
      = pc d (Gout m d) (wk L) r.val := by
  rw [pc_out]
  exact pointsTo_congr (chunk_val (m (msgLoc d)) (m (curLoc d)) (m (outLoc d)) b f0 (40 * (wk L + 32 * r.val)) _ _ _ _ _ _ _ _ _ _
    (off123_row L r).1 (off123_row L r).1 (off123_row L r).2.1 (off123_row L r).2.2 (off4_row L r) rest)

/-- The last chunk (where there is one) likewise. -/
theorem fin_rem (hc : k0_cond1 L = 1#1) (b : Memref sig .scVector .vmem S40x1024 .f32) (f0 : b.view.ty.Contents (Elt F))
    (rest : List (View.Piece (Elt F) S40x1024 .f32)) :
    ((outSl (k0_off8 L) (k0_off8_inb L hc)).view.loc (thr d L)
        ↦[(outSl (k0_off8 L) (k0_off8_inb L hc)).view.set]{fullShare}
          ((outSl (k0_off8 L) (k0_off8_inb L hc)).view.writes (Elt F) (m (outLoc d))
            [⟨Rect.whole S40x1024, ReadAs.same.apply (View.read (Elt F) b.view
              (b.view.writes (Elt F) f0 (⟨Rect.unit (s := S40x1024) ![0, 768] S40x256.size inb_S40x1024_S40x256_0_768, ReadAs.same.apply (View.read (Elt F) (inSl msgV (k0_off7 L) (k0_off7_inb L hc)).view (m (msgLoc d)))⟩
                :: ⟨Rect.unit (s := S40x1024) ![0, 512] S40x256.size inb_S40x1024_S40x256_0_512, ReadAs.same.apply (View.read (Elt F) (inSl msgV (k0_off6 L) (k0_off6_inb L hc)).view (m (msgLoc d)))⟩
                :: ⟨Rect.unit (s := S40x1024) ![0, 256] S40x256.size inb_S40x1024_S40x256_0_256, ReadAs.same.apply (View.read (Elt F) (inSl msgV (k0_off5 L) (k0_off5_inb L hc)).view (m (msgLoc d)))⟩
                :: ⟨Rect.unit (s := S40x1024) ![0, 0] S40x256.size inb_S40x1024_S40x256_0_0, ReadAs.same.apply (View.read (Elt F) (inSl curV (k0_off5 L) (k0_off5_inb L hc)).view (m (curLoc d)))⟩ :: rest)))⟩]) : sProp 𝕄)
      = pc d (Gout m d) (wk L) 7 := by
  rw [pc_rem d L _ hc]
  exact pointsTo_congr (chunk_val (m (msgLoc d)) (m (curLoc d)) (m (outLoc d)) b f0 (40 * (wk L + 32 * 7)) _ _ _ _ _ _ _ _ _ _
    (off567_row L).1 (off567_row L).1 (off567_row L).2.1 (off567_row L).2.2 (off8_row L) rest)

omit [FloatOps F] in
theorem waits_ins {W W' : Waits sig (HIx 1)} {x : SemLoc sig × HIx 1} (hx : x.2 = none) (h : ∀ p ∈ W', p ∈ W ∨ p.2 = none) :
    ∀ p ∈ insert x W', p ∈ W ∨ p.2 = none :=
  fun p hp => (Finset.mem_insert.mp hp).elim (fun e => .inr (e ▸ hx)) (h p)

omit [FloatOps F] in
theorem pts_b0 (f : Buf (Elt F) ((thr d L).loc cc0_scratch0)) :
    ((thr d L).loc cc0_scratch0 ↦{fullShare} f : sProp 𝕄) = ((b0 : Memref sig .scVector .vmem S40x1024 .f32).view.loc (thr d L) ↦{fullShare} f) := rfl
omit [FloatOps F] in
theorem pts_b1 (f : Buf (Elt F) ((thr d L).loc cc0_scratch1)) :
    ((thr d L).loc cc0_scratch1 ↦{fullShare} f : sProp 𝕄) = ((b1 : Memref sig .scVector .vmem S40x1024 .f32).view.loc (thr d L) ↦{fullShare} f) := rfl
omit [FloatOps F] in
theorem pts_b2 (f : Buf (Elt F) ((thr d L).loc cc0_scratch2)) :
    ((thr d L).loc cc0_scratch2 ↦{fullShare} f : sProp 𝕄) = ((b2 : Memref sig .scVector .vmem S40x1024 .f32).view.loc (thr d L) ↦{fullShare} f) := rfl

set_option maxHeartbeats 8000000 in
/-- The kernel on tile `L`: every gather fills a scratch's four quarters, every scatter writes the scratch to its block; the
    copies of one scratch complete on one semaphore each way and are all waited for before the scratch is used again. -/
theorem tile_body (hF : (K (F := F)).Facts) (O : CellTallies nD τ sig (HIx 1)) (W : Waits sig (HIx 1)) (hO : ∀ g, O g none = 0) :
    (iprop(levAts (K (F := F)).L (K (F := F)).lev ∗ emp ∗ goT m d L
        ∗ scopedBufs (thr d L) ∗ scopedSems0 (thr d L) ∗ owes (thr d L) O W) : sProp 𝕄)
      ⊢ wp frame (wpE (defs₀ (F := F)) 𝒱₀ (thr d L) none) Set.univ
          (cc0_k L msgV (Memref.isWhole_whole _) curV (Memref.isWhole_whole _) outV (Memref.isWhole_whole _) b0 (Memref.isWhole_whole _) b1 (Memref.isWhole_whole _) b2 (Memref.isWhole_whole _) cc0_scratch3 cc0_scratch4 cc0_scratch5 cc0_scratch6 cc0_scratch7 cc0_scratch8)
          fun _ => iprop(tdT m d L ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold goT; rw [pcs8]
  iintro ⟨#Hlv, -, ⟨Hmsg, Hcur, Hp0, Hp1, Hp2, Hp3, Hp4, Hp5, Hp6, Hp7⟩, ⟨⟨%f0, Hb0⟩, ⟨%f1, Hb1⟩, ⟨%f2, Hb2⟩, Hbufs⟩,
    ⟨Hs3, Hs4, Hs5, Hs6, Hs7, Hs8, Hsems⟩, HO⟩
  ihave Hmw := ((K (F := F)).mayWaits_none (thr := thr d L) hO) $$ Hlv
  by_cases hc : k0_cond1 L = 1#1
  · skip

    -- the blocks as the kernel addresses them
    ihave Ho0 := (Entails.of_eq (show pc d (m (outLoc d)) (wk L) 0 = ((outSl (k0_off4 L 0#32) (k0_off4_inb L 0)).view.loc (thr d L) ↦[(outSl (k0_off4 L 0#32) (k0_off4_inb L 0)).view.set]{fullShare} m (outLoc d)) from pc_out d L (m (outLoc d)) 0)) $$ Hp0
    ihave Ho1 := (Entails.of_eq (show pc d (m (outLoc d)) (wk L) 1 = ((outSl (k0_off4 L 32#32) (k0_off4_inb L 1)).view.loc (thr d L) ↦[(outSl (k0_off4 L 32#32) (k0_off4_inb L 1)).view.set]{fullShare} m (outLoc d)) from pc_out d L (m (outLoc d)) 1)) $$ Hp1
    ihave Ho2 := (Entails.of_eq (show pc d (m (outLoc d)) (wk L) 2 = ((outSl (k0_off4 L 64#32) (k0_off4_inb L 2)).view.loc (thr d L) ↦[(outSl (k0_off4 L 64#32) (k0_off4_inb L 2)).view.set]{fullShare} m (outLoc d)) from pc_out d L (m (outLoc d)) 2)) $$ Hp2
    ihave Ho3 := (Entails.of_eq (show pc d (m (outLoc d)) (wk L) 3 = ((outSl (k0_off4 L 96#32) (k0_off4_inb L 3)).view.loc (thr d L) ↦[(outSl (k0_off4 L 96#32) (k0_off4_inb L 3)).view.set]{fullShare} m (outLoc d)) from pc_out d L (m (outLoc d)) 3)) $$ Hp3
    ihave Ho4 := (Entails.of_eq (show pc d (m (outLoc d)) (wk L) 4 = ((outSl (k0_off4 L 128#32) (k0_off4_inb L 4)).view.loc (thr d L) ↦[(outSl (k0_off4 L 128#32) (k0_off4_inb L 4)).view.set]{fullShare} m (outLoc d)) from pc_out d L (m (outLoc d)) 4)) $$ Hp4
    ihave Ho5 := (Entails.of_eq (show pc d (m (outLoc d)) (wk L) 5 = ((outSl (k0_off4 L 160#32) (k0_off4_inb L 5)).view.loc (thr d L) ↦[(outSl (k0_off4 L 160#32) (k0_off4_inb L 5)).view.set]{fullShare} m (outLoc d)) from pc_out d L (m (outLoc d)) 5)) $$ Hp5
    ihave Ho6 := (Entails.of_eq (show pc d (m (outLoc d)) (wk L) 6 = ((outSl (k0_off4 L 192#32) (k0_off4_inb L 6)).view.loc (thr d L) ↦[(outSl (k0_off4 L 192#32) (k0_off4_inb L 6)).view.set]{fullShare} m (outLoc d)) from pc_out d L (m (outLoc d)) 6)) $$ Hp6
    ihave Ho7 := (Entails.of_eq (pc_rem d L (m (outLoc d)) hc)) $$ Hp7
    -- one reader's share of each slice a copy reads
    ihave Ht := (take_cur m d L (k0_off1 L 0#32) (k0_off1_inb L 0)) $$ Hcur; icases Ht with ⟨⟨%qc0, Hc0⟩, Hcur⟩
    ihave Ht := (take_msg m d L (k0_off1 L 0#32) (k0_off1_inb L 0)) $$ Hmsg; icases Ht with ⟨⟨%qa0, Hma0⟩, Hmsg⟩
    ihave Ht := (take_msg m d L (k0_off2 L 0#32) (k0_off2_inb L 0)) $$ Hmsg; icases Ht with ⟨⟨%qb0, Hmb0⟩, Hmsg⟩
    ihave Ht := (take_msg m d L (k0_off3 L 0#32) (k0_off3_inb L 0)) $$ Hmsg; icases Ht with ⟨⟨%qd0, Hmc0⟩, Hmsg⟩
    ihave Ht := (take_cur m d L (k0_off1 L 32#32) (k0_off1_inb L 1)) $$ Hcur; icases Ht with ⟨⟨%qc1, Hc1⟩, Hcur⟩
    ihave Ht := (take_msg m d L (k0_off1 L 32#32) (k0_off1_inb L 1)) $$ Hmsg; icases Ht with ⟨⟨%qa1, Hma1⟩, Hmsg⟩
    ihave Ht := (take_msg m d L (k0_off2 L 32#32) (k0_off2_inb L 1)) $$ Hmsg; icases Ht with ⟨⟨%qb1, Hmb1⟩, Hmsg⟩
    ihave Ht := (take_msg m d L (k0_off3 L 32#32) (k0_off3_inb L 1)) $$ Hmsg; icases Ht with ⟨⟨%qd1, Hmc1⟩, Hmsg⟩
    ihave Ht := (take_cur m d L (k0_off1 L 64#32) (k0_off1_inb L 2)) $$ Hcur; icases Ht with ⟨⟨%qc2, Hc2⟩, Hcur⟩
    ihave Ht := (take_msg m d L (k0_off1 L 64#32) (k0_off1_inb L 2)) $$ Hmsg; icases Ht with ⟨⟨%qa2, Hma2⟩, Hmsg⟩
    ihave Ht := (take_msg m d L (k0_off2 L 64#32) (k0_off2_inb L 2)) $$ Hmsg; icases Ht with ⟨⟨%qb2, Hmb2⟩, Hmsg⟩
    ihave Ht := (take_msg m d L (k0_off3 L 64#32) (k0_off3_inb L 2)) $$ Hmsg; icases Ht with ⟨⟨%qd2, Hmc2⟩, Hmsg⟩
    ihave Ht := (take_cur m d L (k0_off1 L 96#32) (k0_off1_inb L 3)) $$ Hcur; icases Ht with ⟨⟨%qc3, Hc3⟩, Hcur⟩
    ihave Ht := (take_msg m d L (k0_off1 L 96#32) (k0_off1_inb L 3)) $$ Hmsg; icases Ht with ⟨⟨%qa3, Hma3⟩, Hmsg⟩
    ihave Ht := (take_msg m d L (k0_off2 L 96#32) (k0_off2_inb L 3)) $$ Hmsg; icases Ht with ⟨⟨%qb3, Hmb3⟩, Hmsg⟩
    ihave Ht := (take_msg m d L (k0_off3 L 96#32) (k0_off3_inb L 3)) $$ Hmsg; icases Ht with ⟨⟨%qd3, Hmc3⟩, Hmsg⟩
    ihave Ht := (take_cur m d L (k0_off1 L 128#32) (k0_off1_inb L 4)) $$ Hcur; icases Ht with ⟨⟨%qc4, Hc4⟩, Hcur⟩
    ihave Ht := (take_msg m d L (k0_off1 L 128#32) (k0_off1_inb L 4)) $$ Hmsg; icases Ht with ⟨⟨%qa4, Hma4⟩, Hmsg⟩
    ihave Ht := (take_msg m d L (k0_off2 L 128#32) (k0_off2_inb L 4)) $$ Hmsg; icases Ht with ⟨⟨%qb4, Hmb4⟩, Hmsg⟩
    ihave Ht := (take_msg m d L (k0_off3 L 128#32) (k0_off3_inb L 4)) $$ Hmsg; icases Ht with ⟨⟨%qd4, Hmc4⟩, Hmsg⟩
    ihave Ht := (take_cur m d L (k0_off1 L 160#32) (k0_off1_inb L 5)) $$ Hcur; icases Ht with ⟨⟨%qc5, Hc5⟩, Hcur⟩
    ihave Ht := (take_msg m d L (k0_off1 L 160#32) (k0_off1_inb L 5)) $$ Hmsg; icases Ht with ⟨⟨%qa5, Hma5⟩, Hmsg⟩
    ihave Ht := (take_msg m d L (k0_off2 L 160#32) (k0_off2_inb L 5)) $$ Hmsg; icases Ht with ⟨⟨%qb5, Hmb5⟩, Hmsg⟩
    ihave Ht := (take_msg m d L (k0_off3 L 160#32) (k0_off3_inb L 5)) $$ Hmsg; icases Ht with ⟨⟨%qd5, Hmc5⟩, Hmsg⟩
    ihave Ht := (take_cur m d L (k0_off1 L 192#32) (k0_off1_inb L 6)) $$ Hcur; icases Ht with ⟨⟨%qc6, Hc6⟩, Hcur⟩
    ihave Ht := (take_msg m d L (k0_off1 L 192#32) (k0_off1_inb L 6)) $$ Hmsg; icases Ht with ⟨⟨%qa6, Hma6⟩, Hmsg⟩
    ihave Ht := (take_msg m d L (k0_off2 L 192#32) (k0_off2_inb L 6)) $$ Hmsg; icases Ht with ⟨⟨%qb6, Hmb6⟩, Hmsg⟩
    ihave Ht := (take_msg m d L (k0_off3 L 192#32) (k0_off3_inb L 6)) $$ Hmsg; icases Ht with ⟨⟨%qd6, Hmc6⟩, Hmsg⟩
    ihave Ht := (take_cur m d L (k0_off5 L) (k0_off5_inb L hc)) $$ Hcur; icases Ht with ⟨⟨%qc7, Hc7⟩, Hcur⟩
    ihave Ht := (take_msg m d L (k0_off5 L) (k0_off5_inb L hc)) $$ Hmsg; icases Ht with ⟨⟨%qa7, Hma7⟩, Hmsg⟩
    ihave Ht := (take_msg m d L (k0_off6 L) (k0_off6_inb L hc)) $$ Hmsg; icases Ht with ⟨⟨%qb7, Hmb7⟩, Hmsg⟩
    ihave Ht := (take_msg m d L (k0_off7 L) (k0_off7_inb L hc)) $$ Hmsg; icases Ht with ⟨⟨%qd7, Hmc7⟩, Hmsg⟩
    have plan3 : Transfers.BatchOf (thr d L) (SemLoc.dma (sig := sig) cc0_scratch3.sem) 4 (windows := true) := trivial
    have plan4 : Transfers.BatchOf (thr d L) (SemLoc.dma (sig := sig) cc0_scratch4.sem) 4 (windows := true) := trivial
    have plan5 : Transfers.BatchOf (thr d L) (SemLoc.dma (sig := sig) cc0_scratch5.sem) 4 (windows := true) := trivial
    ihave Hb0 := (Entails.of_eq (pts_b0 d L f0)) $$ Hb0
    ihave Hb1 := (Entails.of_eq (pts_b1 d L f1)) $$ Hb1
    ihave Hb2 := (Entails.of_eq (pts_b2 d L f2)) $$ Hb2
    sl_unfold [cc0_k]
    sl_exec_parts
    sl_step
    sl_unfold_run_names
    -- every block holds what it must
    ihave Hf0 := (Entails.of_eq (show ((outSl (k0_off4 L 0#32) (k0_off4_inb L 0)).view.loc (thr d L) ↦[(outSl (k0_off4 L 0#32) (k0_off4_inb L 0)).view.set]{fullShare}
        ((outSl (k0_off4 L 0#32) (k0_off4_inb L 0)).view.writes (Elt F) (m (outLoc d))
          [⟨Rect.whole S40x1024, ReadAs.same.apply (View.read (Elt F) b0.view
            (b0.view.writes (Elt F) f0 (⟨Rect.unit (s := S40x1024) ![0, 768] S40x256.size inb_S40x1024_S40x256_0_768, ReadAs.same.apply (View.read (Elt F) (inSl msgV (k0_off3 L 0#32) (k0_off3_inb L 0)).view (m (msgLoc d)))⟩
              :: ⟨Rect.unit (s := S40x1024) ![0, 512] S40x256.size inb_S40x1024_S40x256_0_512, ReadAs.same.apply (View.read (Elt F) (inSl msgV (k0_off2 L 0#32) (k0_off2_inb L 0)).view (m (msgLoc d)))⟩
              :: ⟨Rect.unit (s := S40x1024) ![0, 256] S40x256.size inb_S40x1024_S40x256_0_256, ReadAs.same.apply (View.read (Elt F) (inSl msgV (k0_off1 L 0#32) (k0_off1_inb L 0)).view (m (msgLoc d)))⟩
              :: ⟨Rect.unit (s := S40x1024) ![0, 0] S40x256.size inb_S40x1024_S40x256_0_0, ReadAs.same.apply (View.read (Elt F) (inSl curV (k0_off1 L 0#32) (k0_off1_inb L 0)).view (m (curLoc d)))⟩ :: _)))⟩]) : sProp 𝕄) = pc d (Gout m d) (wk L) 0 from fin_piece m d L 0 b0 f0 _)) $$ Ho0
    ihave Hf1 := (Entails.of_eq (show ((outSl (k0_off4 L 32#32) (k0_off4_inb L 1)).view.loc (thr d L) ↦[(outSl (k0_off4 L 32#32) (k0_off4_inb L 1)).view.set]{fullShare}
        ((outSl (k0_off4 L 32#32) (k0_off4_inb L 1)).view.writes (Elt F) (m (outLoc d))
          [⟨Rect.whole S40x1024, ReadAs.same.apply (View.read (Elt F) b1.view
            (b1.view.writes (Elt F) f1 (⟨Rect.unit (s := S40x1024) ![0, 768] S40x256.size inb_S40x1024_S40x256_0_768, ReadAs.same.apply (View.read (Elt F) (inSl msgV (k0_off3 L 32#32) (k0_off3_inb L 1)).view (m (msgLoc d)))⟩
              :: ⟨Rect.unit (s := S40x1024) ![0, 512] S40x256.size inb_S40x1024_S40x256_0_512, ReadAs.same.apply (View.read (Elt F) (inSl msgV (k0_off2 L 32#32) (k0_off2_inb L 1)).view (m (msgLoc d)))⟩
              :: ⟨Rect.unit (s := S40x1024) ![0, 256] S40x256.size inb_S40x1024_S40x256_0_256, ReadAs.same.apply (View.read (Elt F) (inSl msgV (k0_off1 L 32#32) (k0_off1_inb L 1)).view (m (msgLoc d)))⟩
              :: ⟨Rect.unit (s := S40x1024) ![0, 0] S40x256.size inb_S40x1024_S40x256_0_0, ReadAs.same.apply (View.read (Elt F) (inSl curV (k0_off1 L 32#32) (k0_off1_inb L 1)).view (m (curLoc d)))⟩ :: _)))⟩]) : sProp 𝕄) = pc d (Gout m d) (wk L) 1 from fin_piece m d L 1 b1 f1 _)) $$ Ho1
    ihave Hf2 := (Entails.of_eq (show ((outSl (k0_off4 L 64#32) (k0_off4_inb L 2)).view.loc (thr d L) ↦[(outSl (k0_off4 L 64#32) (k0_off4_inb L 2)).view.set]{fullShare}
        ((outSl (k0_off4 L 64#32) (k0_off4_inb L 2)).view.writes (Elt F) (m (outLoc d))
          [⟨Rect.whole S40x1024, ReadAs.same.apply (View.read (Elt F) b2.view
            (b2.view.writes (Elt F) f2 (⟨Rect.unit (s := S40x1024) ![0, 768] S40x256.size inb_S40x1024_S40x256_0_768, ReadAs.same.apply (View.read (Elt F) (inSl msgV (k0_off3 L 64#32) (k0_off3_inb L 2)).view (m (msgLoc d)))⟩
              :: ⟨Rect.unit (s := S40x1024) ![0, 512] S40x256.size inb_S40x1024_S40x256_0_512, ReadAs.same.apply (View.read (Elt F) (inSl msgV (k0_off2 L 64#32) (k0_off2_inb L 2)).view (m (msgLoc d)))⟩
              :: ⟨Rect.unit (s := S40x1024) ![0, 256] S40x256.size inb_S40x1024_S40x256_0_256, ReadAs.same.apply (View.read (Elt F) (inSl msgV (k0_off1 L 64#32) (k0_off1_inb L 2)).view (m (msgLoc d)))⟩
              :: ⟨Rect.unit (s := S40x1024) ![0, 0] S40x256.size inb_S40x1024_S40x256_0_0, ReadAs.same.apply (View.read (Elt F) (inSl curV (k0_off1 L 64#32) (k0_off1_inb L 2)).view (m (curLoc d)))⟩ :: _)))⟩]) : sProp 𝕄) = pc d (Gout m d) (wk L) 2 from fin_piece m d L 2 b2 f2 _)) $$ Ho2
    ihave Hf3 := (Entails.of_eq (show ((outSl (k0_off4 L 96#32) (k0_off4_inb L 3)).view.loc (thr d L) ↦[(outSl (k0_off4 L 96#32) (k0_off4_inb L 3)).view.set]{fullShare}
        ((outSl (k0_off4 L 96#32) (k0_off4_inb L 3)).view.writes (Elt F) (m (outLoc d))
          [⟨Rect.whole S40x1024, ReadAs.same.apply (View.read (Elt F) b0.view
            (b0.view.writes (Elt F) f0 (⟨Rect.unit (s := S40x1024) ![0, 768] S40x256.size inb_S40x1024_S40x256_0_768, ReadAs.same.apply (View.read (Elt F) (inSl msgV (k0_off3 L 96#32) (k0_off3_inb L 3)).view (m (msgLoc d)))⟩
              :: ⟨Rect.unit (s := S40x1024) ![0, 512] S40x256.size inb_S40x1024_S40x256_0_512, ReadAs.same.apply (View.read (Elt F) (inSl msgV (k0_off2 L 96#32) (k0_off2_inb L 3)).view (m (msgLoc d)))⟩
              :: ⟨Rect.unit (s := S40x1024) ![0, 256] S40x256.size inb_S40x1024_S40x256_0_256, ReadAs.same.apply (View.read (Elt F) (inSl msgV (k0_off1 L 96#32) (k0_off1_inb L 3)).view (m (msgLoc d)))⟩
              :: ⟨Rect.unit (s := S40x1024) ![0, 0] S40x256.size inb_S40x1024_S40x256_0_0, ReadAs.same.apply (View.read (Elt F) (inSl curV (k0_off1 L 96#32) (k0_off1_inb L 3)).view (m (curLoc d)))⟩ :: _)))⟩]) : sProp 𝕄) = pc d (Gout m d) (wk L) 3 from fin_piece m d L 3 b0 f0 _)) $$ Ho3
    ihave Hf4 := (Entails.of_eq (show ((outSl (k0_off4 L 128#32) (k0_off4_inb L 4)).view.loc (thr d L) ↦[(outSl (k0_off4 L 128#32) (k0_off4_inb L 4)).view.set]{fullShare}
        ((outSl (k0_off4 L 128#32) (k0_off4_inb L 4)).view.writes (Elt F) (m (outLoc d))
          [⟨Rect.whole S40x1024, ReadAs.same.apply (View.read (Elt F) b1.view
            (b1.view.writes (Elt F) f1 (⟨Rect.unit (s := S40x1024) ![0, 768] S40x256.size inb_S40x1024_S40x256_0_768, ReadAs.same.apply (View.read (Elt F) (inSl msgV (k0_off3 L 128#32) (k0_off3_inb L 4)).view (m (msgLoc d)))⟩
              :: ⟨Rect.unit (s := S40x1024) ![0, 512] S40x256.size inb_S40x1024_S40x256_0_512, ReadAs.same.apply (View.read (Elt F) (inSl msgV (k0_off2 L 128#32) (k0_off2_inb L 4)).view (m (msgLoc d)))⟩
              :: ⟨Rect.unit (s := S40x1024) ![0, 256] S40x256.size inb_S40x1024_S40x256_0_256, ReadAs.same.apply (View.read (Elt F) (inSl msgV (k0_off1 L 128#32) (k0_off1_inb L 4)).view (m (msgLoc d)))⟩
              :: ⟨Rect.unit (s := S40x1024) ![0, 0] S40x256.size inb_S40x1024_S40x256_0_0, ReadAs.same.apply (View.read (Elt F) (inSl curV (k0_off1 L 128#32) (k0_off1_inb L 4)).view (m (curLoc d)))⟩ :: _)))⟩]) : sProp 𝕄) = pc d (Gout m d) (wk L) 4 from fin_piece m d L 4 b1 f1 _)) $$ Ho4
    ihave Hf5 := (Entails.of_eq (show ((outSl (k0_off4 L 160#32) (k0_off4_inb L 5)).view.loc (thr d L) ↦[(outSl (k0_off4 L 160#32) (k0_off4_inb L 5)).view.set]{fullShare}
        ((outSl (k0_off4 L 160#32) (k0_off4_inb L 5)).view.writes (Elt F) (m (outLoc d))
          [⟨Rect.whole S40x1024, ReadAs.same.apply (View.read (Elt F) b2.view
            (b2.view.writes (Elt F) f2 (⟨Rect.unit (s := S40x1024) ![0, 768] S40x256.size inb_S40x1024_S40x256_0_768, ReadAs.same.apply (View.read (Elt F) (inSl msgV (k0_off3 L 160#32) (k0_off3_inb L 5)).view (m (msgLoc d)))⟩
              :: ⟨Rect.unit (s := S40x1024) ![0, 512] S40x256.size inb_S40x1024_S40x256_0_512, ReadAs.same.apply (View.read (Elt F) (inSl msgV (k0_off2 L 160#32) (k0_off2_inb L 5)).view (m (msgLoc d)))⟩
              :: ⟨Rect.unit (s := S40x1024) ![0, 256] S40x256.size inb_S40x1024_S40x256_0_256, ReadAs.same.apply (View.read (Elt F) (inSl msgV (k0_off1 L 160#32) (k0_off1_inb L 5)).view (m (msgLoc d)))⟩
              :: ⟨Rect.unit (s := S40x1024) ![0, 0] S40x256.size inb_S40x1024_S40x256_0_0, ReadAs.same.apply (View.read (Elt F) (inSl curV (k0_off1 L 160#32) (k0_off1_inb L 5)).view (m (curLoc d)))⟩ :: _)))⟩]) : sProp 𝕄) = pc d (Gout m d) (wk L) 5 from fin_piece m d L 5 b2 f2 _)) $$ Ho5
    ihave Hf6 := (Entails.of_eq (show ((outSl (k0_off4 L 192#32) (k0_off4_inb L 6)).view.loc (thr d L) ↦[(outSl (k0_off4 L 192#32) (k0_off4_inb L 6)).view.set]{fullShare}
        ((outSl (k0_off4 L 192#32) (k0_off4_inb L 6)).view.writes (Elt F) (m (outLoc d))
          [⟨Rect.whole S40x1024, ReadAs.same.apply (View.read (Elt F) b0.view
            (b0.view.writes (Elt F) f0 (⟨Rect.unit (s := S40x1024) ![0, 768] S40x256.size inb_S40x1024_S40x256_0_768, ReadAs.same.apply (View.read (Elt F) (inSl msgV (k0_off3 L 192#32) (k0_off3_inb L 6)).view (m (msgLoc d)))⟩
              :: ⟨Rect.unit (s := S40x1024) ![0, 512] S40x256.size inb_S40x1024_S40x256_0_512, ReadAs.same.apply (View.read (Elt F) (inSl msgV (k0_off2 L 192#32) (k0_off2_inb L 6)).view (m (msgLoc d)))⟩
              :: ⟨Rect.unit (s := S40x1024) ![0, 256] S40x256.size inb_S40x1024_S40x256_0_256, ReadAs.same.apply (View.read (Elt F) (inSl msgV (k0_off1 L 192#32) (k0_off1_inb L 6)).view (m (msgLoc d)))⟩
              :: ⟨Rect.unit (s := S40x1024) ![0, 0] S40x256.size inb_S40x1024_S40x256_0_0, ReadAs.same.apply (View.read (Elt F) (inSl curV (k0_off1 L 192#32) (k0_off1_inb L 6)).view (m (curLoc d)))⟩ :: _)))⟩]) : sProp 𝕄) = pc d (Gout m d) (wk L) 6 from fin_piece m d L 6 b0 f0 _)) $$ Ho6
    ihave Hf7 := (Entails.of_eq (show ((outSl (k0_off8 L) (k0_off8_inb L hc)).view.loc (thr d L) ↦[(outSl (k0_off8 L) (k0_off8_inb L hc)).view.set]{fullShare}
        ((outSl (k0_off8 L) (k0_off8_inb L hc)).view.writes (Elt F) (m (outLoc d))
          [⟨Rect.whole S40x1024, ReadAs.same.apply (View.read (Elt F) b0.view
            (b0.view.writes (Elt F) f0 (⟨Rect.unit (s := S40x1024) ![0, 768] S40x256.size inb_S40x1024_S40x256_0_768, ReadAs.same.apply (View.read (Elt F) (inSl msgV (k0_off7 L) (k0_off7_inb L hc)).view (m (msgLoc d)))⟩
              :: ⟨Rect.unit (s := S40x1024) ![0, 512] S40x256.size inb_S40x1024_S40x256_0_512, ReadAs.same.apply (View.read (Elt F) (inSl msgV (k0_off6 L) (k0_off6_inb L hc)).view (m (msgLoc d)))⟩
              :: ⟨Rect.unit (s := S40x1024) ![0, 256] S40x256.size inb_S40x1024_S40x256_0_256, ReadAs.same.apply (View.read (Elt F) (inSl msgV (k0_off5 L) (k0_off5_inb L hc)).view (m (msgLoc d)))⟩
              :: ⟨Rect.unit (s := S40x1024) ![0, 0] S40x256.size inb_S40x1024_S40x256_0_0, ReadAs.same.apply (View.read (Elt F) (inSl curV (k0_off5 L) (k0_off5_inb L hc)).view (m (curLoc d)))⟩ :: _)))⟩]) : sProp 𝕄) = pc d (Gout m d) (wk L) 7 from fin_rem m d L hc b0 f0 _)) $$ Ho7
    isplitl [Hf0 Hf1 Hf2 Hf3 Hf4 Hf5 Hf6 Hf7]
    · unfold tdT; rw [pcs8]
      isplitl [Hf0]; · iexact Hf0
      isplitl [Hf1]; · iexact Hf1
      isplitl [Hf2]; · iexact Hf2
      isplitl [Hf3]; · iexact Hf3
      isplitl [Hf4]; · iexact Hf4
      isplitl [Hf5]; · iexact Hf5
      isplitl [Hf6]; · iexact Hf6
      iexact Hf7
    isplitl [Hb0 Hb1 Hb2 Hbufs]
    · isplitl [Hb0]; · iexists _; iapply (Entails.of_eq (pts_b0 d L _).symm); iexact Hb0
      isplitl [Hb1]; · iexists _; iapply (Entails.of_eq (pts_b1 d L _).symm); iexact Hb1
      isplitl [Hb2]; · iexists _; iapply (Entails.of_eq (pts_b2 d L _).symm); iexact Hb2
      iexact Hbufs
    isplitl [Hs3 Hs4 Hs5 Hs6 Hs7 Hs8 Hsems]
    · isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      iexact Hsems
    iexists _; isplitr
    rotate_left
    · iexact HO
    · ipureintro
      repeat (refine waits_ins rfl ?_)
      exact fun p hp => Or.inl hp

  · skip

    -- the blocks as the kernel addresses them
    ihave Ho0 := (Entails.of_eq (show pc d (m (outLoc d)) (wk L) 0 = ((outSl (k0_off4 L 0#32) (k0_off4_inb L 0)).view.loc (thr d L) ↦[(outSl (k0_off4 L 0#32) (k0_off4_inb L 0)).view.set]{fullShare} m (outLoc d)) from pc_out d L (m (outLoc d)) 0)) $$ Hp0
    ihave Ho1 := (Entails.of_eq (show pc d (m (outLoc d)) (wk L) 1 = ((outSl (k0_off4 L 32#32) (k0_off4_inb L 1)).view.loc (thr d L) ↦[(outSl (k0_off4 L 32#32) (k0_off4_inb L 1)).view.set]{fullShare} m (outLoc d)) from pc_out d L (m (outLoc d)) 1)) $$ Hp1
    ihave Ho2 := (Entails.of_eq (show pc d (m (outLoc d)) (wk L) 2 = ((outSl (k0_off4 L 64#32) (k0_off4_inb L 2)).view.loc (thr d L) ↦[(outSl (k0_off4 L 64#32) (k0_off4_inb L 2)).view.set]{fullShare} m (outLoc d)) from pc_out d L (m (outLoc d)) 2)) $$ Hp2
    ihave Ho3 := (Entails.of_eq (show pc d (m (outLoc d)) (wk L) 3 = ((outSl (k0_off4 L 96#32) (k0_off4_inb L 3)).view.loc (thr d L) ↦[(outSl (k0_off4 L 96#32) (k0_off4_inb L 3)).view.set]{fullShare} m (outLoc d)) from pc_out d L (m (outLoc d)) 3)) $$ Hp3
    ihave Ho4 := (Entails.of_eq (show pc d (m (outLoc d)) (wk L) 4 = ((outSl (k0_off4 L 128#32) (k0_off4_inb L 4)).view.loc (thr d L) ↦[(outSl (k0_off4 L 128#32) (k0_off4_inb L 4)).view.set]{fullShare} m (outLoc d)) from pc_out d L (m (outLoc d)) 4)) $$ Hp4
    ihave Ho5 := (Entails.of_eq (show pc d (m (outLoc d)) (wk L) 5 = ((outSl (k0_off4 L 160#32) (k0_off4_inb L 5)).view.loc (thr d L) ↦[(outSl (k0_off4 L 160#32) (k0_off4_inb L 5)).view.set]{fullShare} m (outLoc d)) from pc_out d L (m (outLoc d)) 5)) $$ Hp5
    ihave Ho6 := (Entails.of_eq (show pc d (m (outLoc d)) (wk L) 6 = ((outSl (k0_off4 L 192#32) (k0_off4_inb L 6)).view.loc (thr d L) ↦[(outSl (k0_off4 L 192#32) (k0_off4_inb L 6)).view.set]{fullShare} m (outLoc d)) from pc_out d L (m (outLoc d)) 6)) $$ Hp6

    -- one reader's share of each slice a copy reads
    ihave Ht := (take_cur m d L (k0_off1 L 0#32) (k0_off1_inb L 0)) $$ Hcur; icases Ht with ⟨⟨%qc0, Hc0⟩, Hcur⟩
    ihave Ht := (take_msg m d L (k0_off1 L 0#32) (k0_off1_inb L 0)) $$ Hmsg; icases Ht with ⟨⟨%qa0, Hma0⟩, Hmsg⟩
    ihave Ht := (take_msg m d L (k0_off2 L 0#32) (k0_off2_inb L 0)) $$ Hmsg; icases Ht with ⟨⟨%qb0, Hmb0⟩, Hmsg⟩
    ihave Ht := (take_msg m d L (k0_off3 L 0#32) (k0_off3_inb L 0)) $$ Hmsg; icases Ht with ⟨⟨%qd0, Hmc0⟩, Hmsg⟩
    ihave Ht := (take_cur m d L (k0_off1 L 32#32) (k0_off1_inb L 1)) $$ Hcur; icases Ht with ⟨⟨%qc1, Hc1⟩, Hcur⟩
    ihave Ht := (take_msg m d L (k0_off1 L 32#32) (k0_off1_inb L 1)) $$ Hmsg; icases Ht with ⟨⟨%qa1, Hma1⟩, Hmsg⟩
    ihave Ht := (take_msg m d L (k0_off2 L 32#32) (k0_off2_inb L 1)) $$ Hmsg; icases Ht with ⟨⟨%qb1, Hmb1⟩, Hmsg⟩
    ihave Ht := (take_msg m d L (k0_off3 L 32#32) (k0_off3_inb L 1)) $$ Hmsg; icases Ht with ⟨⟨%qd1, Hmc1⟩, Hmsg⟩
    ihave Ht := (take_cur m d L (k0_off1 L 64#32) (k0_off1_inb L 2)) $$ Hcur; icases Ht with ⟨⟨%qc2, Hc2⟩, Hcur⟩
    ihave Ht := (take_msg m d L (k0_off1 L 64#32) (k0_off1_inb L 2)) $$ Hmsg; icases Ht with ⟨⟨%qa2, Hma2⟩, Hmsg⟩
    ihave Ht := (take_msg m d L (k0_off2 L 64#32) (k0_off2_inb L 2)) $$ Hmsg; icases Ht with ⟨⟨%qb2, Hmb2⟩, Hmsg⟩
    ihave Ht := (take_msg m d L (k0_off3 L 64#32) (k0_off3_inb L 2)) $$ Hmsg; icases Ht with ⟨⟨%qd2, Hmc2⟩, Hmsg⟩
    ihave Ht := (take_cur m d L (k0_off1 L 96#32) (k0_off1_inb L 3)) $$ Hcur; icases Ht with ⟨⟨%qc3, Hc3⟩, Hcur⟩
    ihave Ht := (take_msg m d L (k0_off1 L 96#32) (k0_off1_inb L 3)) $$ Hmsg; icases Ht with ⟨⟨%qa3, Hma3⟩, Hmsg⟩
    ihave Ht := (take_msg m d L (k0_off2 L 96#32) (k0_off2_inb L 3)) $$ Hmsg; icases Ht with ⟨⟨%qb3, Hmb3⟩, Hmsg⟩
    ihave Ht := (take_msg m d L (k0_off3 L 96#32) (k0_off3_inb L 3)) $$ Hmsg; icases Ht with ⟨⟨%qd3, Hmc3⟩, Hmsg⟩
    ihave Ht := (take_cur m d L (k0_off1 L 128#32) (k0_off1_inb L 4)) $$ Hcur; icases Ht with ⟨⟨%qc4, Hc4⟩, Hcur⟩
    ihave Ht := (take_msg m d L (k0_off1 L 128#32) (k0_off1_inb L 4)) $$ Hmsg; icases Ht with ⟨⟨%qa4, Hma4⟩, Hmsg⟩
    ihave Ht := (take_msg m d L (k0_off2 L 128#32) (k0_off2_inb L 4)) $$ Hmsg; icases Ht with ⟨⟨%qb4, Hmb4⟩, Hmsg⟩
    ihave Ht := (take_msg m d L (k0_off3 L 128#32) (k0_off3_inb L 4)) $$ Hmsg; icases Ht with ⟨⟨%qd4, Hmc4⟩, Hmsg⟩
    ihave Ht := (take_cur m d L (k0_off1 L 160#32) (k0_off1_inb L 5)) $$ Hcur; icases Ht with ⟨⟨%qc5, Hc5⟩, Hcur⟩
    ihave Ht := (take_msg m d L (k0_off1 L 160#32) (k0_off1_inb L 5)) $$ Hmsg; icases Ht with ⟨⟨%qa5, Hma5⟩, Hmsg⟩
    ihave Ht := (take_msg m d L (k0_off2 L 160#32) (k0_off2_inb L 5)) $$ Hmsg; icases Ht with ⟨⟨%qb5, Hmb5⟩, Hmsg⟩
    ihave Ht := (take_msg m d L (k0_off3 L 160#32) (k0_off3_inb L 5)) $$ Hmsg; icases Ht with ⟨⟨%qd5, Hmc5⟩, Hmsg⟩
    ihave Ht := (take_cur m d L (k0_off1 L 192#32) (k0_off1_inb L 6)) $$ Hcur; icases Ht with ⟨⟨%qc6, Hc6⟩, Hcur⟩
    ihave Ht := (take_msg m d L (k0_off1 L 192#32) (k0_off1_inb L 6)) $$ Hmsg; icases Ht with ⟨⟨%qa6, Hma6⟩, Hmsg⟩
    ihave Ht := (take_msg m d L (k0_off2 L 192#32) (k0_off2_inb L 6)) $$ Hmsg; icases Ht with ⟨⟨%qb6, Hmb6⟩, Hmsg⟩
    ihave Ht := (take_msg m d L (k0_off3 L 192#32) (k0_off3_inb L 6)) $$ Hmsg; icases Ht with ⟨⟨%qd6, Hmc6⟩, Hmsg⟩
    have plan3 : Transfers.BatchOf (thr d L) (SemLoc.dma (sig := sig) cc0_scratch3.sem) 4 (windows := true) := trivial
    have plan4 : Transfers.BatchOf (thr d L) (SemLoc.dma (sig := sig) cc0_scratch4.sem) 4 (windows := true) := trivial
    have plan5 : Transfers.BatchOf (thr d L) (SemLoc.dma (sig := sig) cc0_scratch5.sem) 4 (windows := true) := trivial
    ihave Hb0 := (Entails.of_eq (pts_b0 d L f0)) $$ Hb0
    ihave Hb1 := (Entails.of_eq (pts_b1 d L f1)) $$ Hb1
    ihave Hb2 := (Entails.of_eq (pts_b2 d L f2)) $$ Hb2
    sl_unfold [cc0_k]
    sl_exec_parts
    sl_step
    sl_unfold_run_names
    -- every block holds what it must
    ihave Hf0 := (Entails.of_eq (show ((outSl (k0_off4 L 0#32) (k0_off4_inb L 0)).view.loc (thr d L) ↦[(outSl (k0_off4 L 0#32) (k0_off4_inb L 0)).view.set]{fullShare}
        ((outSl (k0_off4 L 0#32) (k0_off4_inb L 0)).view.writes (Elt F) (m (outLoc d))
          [⟨Rect.whole S40x1024, ReadAs.same.apply (View.read (Elt F) b0.view
            (b0.view.writes (Elt F) f0 (⟨Rect.unit (s := S40x1024) ![0, 768] S40x256.size inb_S40x1024_S40x256_0_768, ReadAs.same.apply (View.read (Elt F) (inSl msgV (k0_off3 L 0#32) (k0_off3_inb L 0)).view (m (msgLoc d)))⟩
              :: ⟨Rect.unit (s := S40x1024) ![0, 512] S40x256.size inb_S40x1024_S40x256_0_512, ReadAs.same.apply (View.read (Elt F) (inSl msgV (k0_off2 L 0#32) (k0_off2_inb L 0)).view (m (msgLoc d)))⟩
              :: ⟨Rect.unit (s := S40x1024) ![0, 256] S40x256.size inb_S40x1024_S40x256_0_256, ReadAs.same.apply (View.read (Elt F) (inSl msgV (k0_off1 L 0#32) (k0_off1_inb L 0)).view (m (msgLoc d)))⟩
              :: ⟨Rect.unit (s := S40x1024) ![0, 0] S40x256.size inb_S40x1024_S40x256_0_0, ReadAs.same.apply (View.read (Elt F) (inSl curV (k0_off1 L 0#32) (k0_off1_inb L 0)).view (m (curLoc d)))⟩ :: _)))⟩]) : sProp 𝕄) = pc d (Gout m d) (wk L) 0 from fin_piece m d L 0 b0 f0 _)) $$ Ho0
    ihave Hf1 := (Entails.of_eq (show ((outSl (k0_off4 L 32#32) (k0_off4_inb L 1)).view.loc (thr d L) ↦[(outSl (k0_off4 L 32#32) (k0_off4_inb L 1)).view.set]{fullShare}
        ((outSl (k0_off4 L 32#32) (k0_off4_inb L 1)).view.writes (Elt F) (m (outLoc d))
          [⟨Rect.whole S40x1024, ReadAs.same.apply (View.read (Elt F) b1.view
            (b1.view.writes (Elt F) f1 (⟨Rect.unit (s := S40x1024) ![0, 768] S40x256.size inb_S40x1024_S40x256_0_768, ReadAs.same.apply (View.read (Elt F) (inSl msgV (k0_off3 L 32#32) (k0_off3_inb L 1)).view (m (msgLoc d)))⟩
              :: ⟨Rect.unit (s := S40x1024) ![0, 512] S40x256.size inb_S40x1024_S40x256_0_512, ReadAs.same.apply (View.read (Elt F) (inSl msgV (k0_off2 L 32#32) (k0_off2_inb L 1)).view (m (msgLoc d)))⟩
              :: ⟨Rect.unit (s := S40x1024) ![0, 256] S40x256.size inb_S40x1024_S40x256_0_256, ReadAs.same.apply (View.read (Elt F) (inSl msgV (k0_off1 L 32#32) (k0_off1_inb L 1)).view (m (msgLoc d)))⟩
              :: ⟨Rect.unit (s := S40x1024) ![0, 0] S40x256.size inb_S40x1024_S40x256_0_0, ReadAs.same.apply (View.read (Elt F) (inSl curV (k0_off1 L 32#32) (k0_off1_inb L 1)).view (m (curLoc d)))⟩ :: _)))⟩]) : sProp 𝕄) = pc d (Gout m d) (wk L) 1 from fin_piece m d L 1 b1 f1 _)) $$ Ho1
    ihave Hf2 := (Entails.of_eq (show ((outSl (k0_off4 L 64#32) (k0_off4_inb L 2)).view.loc (thr d L) ↦[(outSl (k0_off4 L 64#32) (k0_off4_inb L 2)).view.set]{fullShare}
        ((outSl (k0_off4 L 64#32) (k0_off4_inb L 2)).view.writes (Elt F) (m (outLoc d))
          [⟨Rect.whole S40x1024, ReadAs.same.apply (View.read (Elt F) b2.view
            (b2.view.writes (Elt F) f2 (⟨Rect.unit (s := S40x1024) ![0, 768] S40x256.size inb_S40x1024_S40x256_0_768, ReadAs.same.apply (View.read (Elt F) (inSl msgV (k0_off3 L 64#32) (k0_off3_inb L 2)).view (m (msgLoc d)))⟩
              :: ⟨Rect.unit (s := S40x1024) ![0, 512] S40x256.size inb_S40x1024_S40x256_0_512, ReadAs.same.apply (View.read (Elt F) (inSl msgV (k0_off2 L 64#32) (k0_off2_inb L 2)).view (m (msgLoc d)))⟩
              :: ⟨Rect.unit (s := S40x1024) ![0, 256] S40x256.size inb_S40x1024_S40x256_0_256, ReadAs.same.apply (View.read (Elt F) (inSl msgV (k0_off1 L 64#32) (k0_off1_inb L 2)).view (m (msgLoc d)))⟩
              :: ⟨Rect.unit (s := S40x1024) ![0, 0] S40x256.size inb_S40x1024_S40x256_0_0, ReadAs.same.apply (View.read (Elt F) (inSl curV (k0_off1 L 64#32) (k0_off1_inb L 2)).view (m (curLoc d)))⟩ :: _)))⟩]) : sProp 𝕄) = pc d (Gout m d) (wk L) 2 from fin_piece m d L 2 b2 f2 _)) $$ Ho2
    ihave Hf3 := (Entails.of_eq (show ((outSl (k0_off4 L 96#32) (k0_off4_inb L 3)).view.loc (thr d L) ↦[(outSl (k0_off4 L 96#32) (k0_off4_inb L 3)).view.set]{fullShare}
        ((outSl (k0_off4 L 96#32) (k0_off4_inb L 3)).view.writes (Elt F) (m (outLoc d))
          [⟨Rect.whole S40x1024, ReadAs.same.apply (View.read (Elt F) b0.view
            (b0.view.writes (Elt F) f0 (⟨Rect.unit (s := S40x1024) ![0, 768] S40x256.size inb_S40x1024_S40x256_0_768, ReadAs.same.apply (View.read (Elt F) (inSl msgV (k0_off3 L 96#32) (k0_off3_inb L 3)).view (m (msgLoc d)))⟩
              :: ⟨Rect.unit (s := S40x1024) ![0, 512] S40x256.size inb_S40x1024_S40x256_0_512, ReadAs.same.apply (View.read (Elt F) (inSl msgV (k0_off2 L 96#32) (k0_off2_inb L 3)).view (m (msgLoc d)))⟩
              :: ⟨Rect.unit (s := S40x1024) ![0, 256] S40x256.size inb_S40x1024_S40x256_0_256, ReadAs.same.apply (View.read (Elt F) (inSl msgV (k0_off1 L 96#32) (k0_off1_inb L 3)).view (m (msgLoc d)))⟩
              :: ⟨Rect.unit (s := S40x1024) ![0, 0] S40x256.size inb_S40x1024_S40x256_0_0, ReadAs.same.apply (View.read (Elt F) (inSl curV (k0_off1 L 96#32) (k0_off1_inb L 3)).view (m (curLoc d)))⟩ :: _)))⟩]) : sProp 𝕄) = pc d (Gout m d) (wk L) 3 from fin_piece m d L 3 b0 f0 _)) $$ Ho3
    ihave Hf4 := (Entails.of_eq (show ((outSl (k0_off4 L 128#32) (k0_off4_inb L 4)).view.loc (thr d L) ↦[(outSl (k0_off4 L 128#32) (k0_off4_inb L 4)).view.set]{fullShare}
        ((outSl (k0_off4 L 128#32) (k0_off4_inb L 4)).view.writes (Elt F) (m (outLoc d))
          [⟨Rect.whole S40x1024, ReadAs.same.apply (View.read (Elt F) b1.view
            (b1.view.writes (Elt F) f1 (⟨Rect.unit (s := S40x1024) ![0, 768] S40x256.size inb_S40x1024_S40x256_0_768, ReadAs.same.apply (View.read (Elt F) (inSl msgV (k0_off3 L 128#32) (k0_off3_inb L 4)).view (m (msgLoc d)))⟩
              :: ⟨Rect.unit (s := S40x1024) ![0, 512] S40x256.size inb_S40x1024_S40x256_0_512, ReadAs.same.apply (View.read (Elt F) (inSl msgV (k0_off2 L 128#32) (k0_off2_inb L 4)).view (m (msgLoc d)))⟩
              :: ⟨Rect.unit (s := S40x1024) ![0, 256] S40x256.size inb_S40x1024_S40x256_0_256, ReadAs.same.apply (View.read (Elt F) (inSl msgV (k0_off1 L 128#32) (k0_off1_inb L 4)).view (m (msgLoc d)))⟩
              :: ⟨Rect.unit (s := S40x1024) ![0, 0] S40x256.size inb_S40x1024_S40x256_0_0, ReadAs.same.apply (View.read (Elt F) (inSl curV (k0_off1 L 128#32) (k0_off1_inb L 4)).view (m (curLoc d)))⟩ :: _)))⟩]) : sProp 𝕄) = pc d (Gout m d) (wk L) 4 from fin_piece m d L 4 b1 f1 _)) $$ Ho4
    ihave Hf5 := (Entails.of_eq (show ((outSl (k0_off4 L 160#32) (k0_off4_inb L 5)).view.loc (thr d L) ↦[(outSl (k0_off4 L 160#32) (k0_off4_inb L 5)).view.set]{fullShare}
        ((outSl (k0_off4 L 160#32) (k0_off4_inb L 5)).view.writes (Elt F) (m (outLoc d))
          [⟨Rect.whole S40x1024, ReadAs.same.apply (View.read (Elt F) b2.view
            (b2.view.writes (Elt F) f2 (⟨Rect.unit (s := S40x1024) ![0, 768] S40x256.size inb_S40x1024_S40x256_0_768, ReadAs.same.apply (View.read (Elt F) (inSl msgV (k0_off3 L 160#32) (k0_off3_inb L 5)).view (m (msgLoc d)))⟩
              :: ⟨Rect.unit (s := S40x1024) ![0, 512] S40x256.size inb_S40x1024_S40x256_0_512, ReadAs.same.apply (View.read (Elt F) (inSl msgV (k0_off2 L 160#32) (k0_off2_inb L 5)).view (m (msgLoc d)))⟩
              :: ⟨Rect.unit (s := S40x1024) ![0, 256] S40x256.size inb_S40x1024_S40x256_0_256, ReadAs.same.apply (View.read (Elt F) (inSl msgV (k0_off1 L 160#32) (k0_off1_inb L 5)).view (m (msgLoc d)))⟩
              :: ⟨Rect.unit (s := S40x1024) ![0, 0] S40x256.size inb_S40x1024_S40x256_0_0, ReadAs.same.apply (View.read (Elt F) (inSl curV (k0_off1 L 160#32) (k0_off1_inb L 5)).view (m (curLoc d)))⟩ :: _)))⟩]) : sProp 𝕄) = pc d (Gout m d) (wk L) 5 from fin_piece m d L 5 b2 f2 _)) $$ Ho5
    ihave Hf6 := (Entails.of_eq (show ((outSl (k0_off4 L 192#32) (k0_off4_inb L 6)).view.loc (thr d L) ↦[(outSl (k0_off4 L 192#32) (k0_off4_inb L 6)).view.set]{fullShare}
        ((outSl (k0_off4 L 192#32) (k0_off4_inb L 6)).view.writes (Elt F) (m (outLoc d))
          [⟨Rect.whole S40x1024, ReadAs.same.apply (View.read (Elt F) b0.view
            (b0.view.writes (Elt F) f0 (⟨Rect.unit (s := S40x1024) ![0, 768] S40x256.size inb_S40x1024_S40x256_0_768, ReadAs.same.apply (View.read (Elt F) (inSl msgV (k0_off3 L 192#32) (k0_off3_inb L 6)).view (m (msgLoc d)))⟩
              :: ⟨Rect.unit (s := S40x1024) ![0, 512] S40x256.size inb_S40x1024_S40x256_0_512, ReadAs.same.apply (View.read (Elt F) (inSl msgV (k0_off2 L 192#32) (k0_off2_inb L 6)).view (m (msgLoc d)))⟩
              :: ⟨Rect.unit (s := S40x1024) ![0, 256] S40x256.size inb_S40x1024_S40x256_0_256, ReadAs.same.apply (View.read (Elt F) (inSl msgV (k0_off1 L 192#32) (k0_off1_inb L 6)).view (m (msgLoc d)))⟩
              :: ⟨Rect.unit (s := S40x1024) ![0, 0] S40x256.size inb_S40x1024_S40x256_0_0, ReadAs.same.apply (View.read (Elt F) (inSl curV (k0_off1 L 192#32) (k0_off1_inb L 6)).view (m (curLoc d)))⟩ :: _)))⟩]) : sProp 𝕄) = pc d (Gout m d) (wk L) 6 from fin_piece m d L 6 b0 f0 _)) $$ Ho6

    isplitl [Hf0 Hf1 Hf2 Hf3 Hf4 Hf5 Hf6]
    · unfold tdT; rw [pcs8]
      isplitl [Hf0]; · iexact Hf0
      isplitl [Hf1]; · iexact Hf1
      isplitl [Hf2]; · iexact Hf2
      isplitl [Hf3]; · iexact Hf3
      isplitl [Hf4]; · iexact Hf4
      isplitl [Hf5]; · iexact Hf5
      isplitl [Hf6]; · iexact Hf6
      rw [pc_none d L _ hc]; iempintro
    isplitl [Hb0 Hb1 Hb2 Hbufs]
    · isplitl [Hb0]; · iexists _; iapply (Entails.of_eq (pts_b0 d L _).symm); iexact Hb0
      isplitl [Hb1]; · iexists _; iapply (Entails.of_eq (pts_b1 d L _).symm); iexact Hb1
      isplitl [Hb2]; · iexists _; iapply (Entails.of_eq (pts_b2 d L _).symm); iexact Hb2
      iexact Hbufs
    isplitl [Hs3 Hs4 Hs5 Hs6 Hs7 Hs8 Hsems]
    · isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      iexact Hsems
    iexists _; isplitr
    rotate_left
    · iexact HO
    · ipureintro
      repeat (refine waits_ins rfl ?_)
      exact fun p hp => Or.inl hp

end Tile
end Cert.Proof.KI
end
-- ==== Proof.LaunchKI.lean ====
/-
  The run of the whole device: the TensorCore hands each of the two SparseCores a read share of both inputs and that
  SparseCore's row blocks of the result, each SparseCore hands each of its sixteen tiles its own, the tiles bring their blocks
  back holding `Spec.rowsCat` of the inputs, and the blocks — block `k` belongs to worker `k % 32` — make up the whole result.
-/
import proofs.«214735_g34067680592248_cont_8to1_b_1285_15_alg».proof.Proof.TileKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)
variable [FloatOps F]

instance rd_storable (ℓ : Loc nD τ sig) (f : Buf (Elt F) ℓ) : BI.Storable (upEmb : UEmb _ 𝕄) (rd ℓ f) := by
  unfold rd; infer_instance

/-! ## The result split among the SparseCores and their tiles

Block `k` of the result belongs to worker `k % 32`, its `k / 32`-th; worker `w` is tile `w / 2` of SparseCore `w % 2`. So the
whole result is, over SparseCores `c`, tiles `i` and chunk numbers `r`, block `2 i + c + 32 r` where there is one. -/

section Split

variable (d : Dev nD)

omit [FloatOps F] in
theorem out_blocks (f : Buf (Elt F) (outLoc d)) :
    (outLoc d ↦{fullShare} f : sProp 𝕄) = bigSep Finset.univ fun k : Fin 250 => outLoc d ↦[blkSet k]{fullShare} f := by
  rw [← pointsTo_biUnion Finset.univ (ℓ := outLoc d) blkSet blks_disjoint, blks_cover]; try rfl

abbrev TI : Type := (Fin 2 × Fin 16) × Fin 8
def tnum (t : TI) : Nat := 2 * t.1.2.val + t.1.1.val + 32 * t.2.val
def tblk (t : TI) : Fin 250 := ⟨tnum t % 250, Nat.mod_lt _ (by decide)⟩

theorem tblk_inj : Set.InjOn tblk (((Finset.univ : Finset TI).filter fun t => tnum t < 250 : Finset TI) : Set TI) := by
  intro a ha b hb e
  have ha' : tnum a < 250 := (Finset.mem_filter.mp (Finset.mem_coe.mp ha)).2
  have hb' : tnum b < 250 := (Finset.mem_filter.mp (Finset.mem_coe.mp hb)).2
  have e' : tnum a = tnum b := by
    have := congrArg Fin.val e
    simp only [tblk] at this
    rwa [Nat.mod_eq_of_lt ha', Nat.mod_eq_of_lt hb'] at this
  obtain ⟨⟨a1, a2⟩, a3⟩ := a
  obtain ⟨⟨b1, b2⟩, b3⟩ := b
  simp only [tnum] at e'
  have h1 := a1.isLt; have h2 := a2.isLt; have h3 := a3.isLt
  have g1 := b1.isLt; have g2 := b2.isLt; have g3 := b3.isLt
  have e1 : a1 = b1 := Fin.ext (by omega)
  have e2 : a2 = b2 := Fin.ext (by omega)
  have e3 : a3 = b3 := Fin.ext (by omega)
  rw [e1, e2, e3]

theorem tblk_img : ((Finset.univ : Finset TI).filter fun t => tnum t < 250).image tblk = Finset.univ := by
  refine Finset.eq_univ_iff_forall.mpr fun k => Finset.mem_image.mpr ?_
  have hk := k.isLt
  refine ⟨((⟨k.val % 2, by omega⟩, ⟨k.val % 32 / 2, by omega⟩), ⟨k.val / 32, by omega⟩), Finset.mem_filter.mpr ⟨Finset.mem_univ _, ?_⟩, Fin.ext ?_⟩
  · show 2 * (k.val % 32 / 2) + k.val % 2 + 32 * (k.val / 32) < 250; omega
  · show (2 * (k.val % 32 / 2) + k.val % 2 + 32 * (k.val / 32)) % 250 = k.val; omega

omit [FloatOps F] in
theorem out_split (f : Buf (Elt F) (outLoc d)) :
    (outLoc d ↦{fullShare} f : sProp 𝕄)
      = bigSep Finset.univ fun c : Fin 2 => bigSep Finset.univ fun i : Fin 16 => bigSep Finset.univ fun r : Fin 8 => pc d f (2 * i.val + c.val) r.val := by
  rw [out_blocks, ← tblk_img, SparseCore.bigSep_image_of_injOn tblk_inj, bigSep_filter,
    show (Finset.univ : Finset TI) = ((Finset.univ : Finset (Fin 2)) ×ˢ (Finset.univ : Finset (Fin 16))) ×ˢ (Finset.univ : Finset (Fin 8)) from rfl,
    SparseCore.bigSep_product, SparseCore.bigSep_product]
  refine bigSep_congr fun c _ => bigSep_congr fun i _ => bigSep_congr fun r _ => ?_
  unfold pc
  by_cases h : 2 * i.val + c.val + 32 * r.val < 250
  · rw [if_pos (show tnum ((c, i), r) < 250 from h), dif_pos h]
    exact congrArg (fun k => (outLoc d ↦[blkSet k]{fullShare} f : sProp 𝕄)) (Fin.ext (Nat.mod_eq_of_lt h))
  · rw [if_neg (show ¬ tnum ((c, i), r) < 250 from h), dif_neg h]; rfl

end Split

/-! ## What the handshakes carry -/

/-- Tile `(c, i)`'s blocks of the result at contents `f`. -/
def XT (d : Dev nD) (f : Buf (Elt F) (outLoc d)) (c i : Nat) : sProp 𝕄 := bigSep (Finset.univ : Finset (Fin 8)) fun r => pc d f (2 * i + c) r.val
instance XT_storable (d : Dev nD) (f : Buf (Elt F) (outLoc d)) (c i : Nat) : BI.Storable (upEmb : UEmb _ 𝕄) (XT d f c i) := by
  unfold XT; infer_instance

/-- The one call takes, per SparseCore, a read share of each input and that SparseCore's blocks of the result, and brings the
    blocks back holding what they must; each tile likewise its own. -/
def P : (K (F := F)).Pay (nD := nD) (Val := Elt F) (Name := ℕ) (U := UU) where
  st := fun _ d c => iprop(rd (msgLoc d) (m (msgLoc d)) ∗ rd (curLoc d) (m (curLoc d)) ∗ bigSep (Finset.univ : Finset (Fin 16)) fun i => XT d (m (outLoc d)) c.val i.val)
  dn := fun _ d c => bigSep (Finset.univ : Finset (Fin 16)) fun i => XT d (Gout m d) c.val i.val
  go := fun _ d c i => iprop(rd (msgLoc d) (m (msgLoc d)) ∗ rd (curLoc d) (m (curLoc d)) ∗ XT d (m (outLoc d)) c.val i.val)
  td := fun _ d c i => XT d (Gout m d) c.val i.val
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          msgV (Memref.isWhole_whole _) curV (Memref.isWhole_whole _) outV (Memref.isWhole_whole _)
          b0 (Memref.isWhole_whole _) b1 (Memref.isWhole_whole _) b2 (Memref.isWhole_whole _)
          cc0_scratch3 cc0_scratch4 cc0_scratch5 cc0_scratch6 cc0_scratch7 cc0_scratch8) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

theorem vecSplit : (K (F := F)).VecSplit' (P m) 0 := by
  intro d c
  show iprop(rd (msgLoc d) (m (msgLoc d)) ∗ rd (curLoc d) (m (curLoc d)) ∗ bigSep (Finset.univ : Finset (Fin 16)) fun i => XT d (m (outLoc d)) c.val i.val)
    ⊢ |={Set.univ}=> iprop((bigSep (Finset.univ : Finset (Fin 16)) fun i =>
          iprop(rd (msgLoc d) (m (msgLoc d)) ∗ rd (curLoc d) (m (curLoc d)) ∗ XT d (m (outLoc d)) c.val i.val))
      ∗ ((bigSep (Finset.univ : Finset (Fin 16)) fun i => XT d (Gout m d) c.val i.val)
          -∗ bigSep (Finset.univ : Finset (Fin 16)) fun i => XT d (Gout m d) c.val i.val))
  iintro ⟨Hm, Hc, HX⟩
  imodintro
  ihave Hms := (rd_many (msgLoc d) (m (msgLoc d)) (Finset.univ : Finset (Fin 16))) $$ Hm
  ihave Hcs := (rd_many (curLoc d) (m (curLoc d)) (Finset.univ : Finset (Fin 16))) $$ Hc
  isplitl [Hms Hcs HX]
  · rw [bigSep_sep', bigSep_sep']
    isplitl [Hms]; · iexact Hms
    isplitl [Hcs]; · iexact Hcs
    iexact HX
  · iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((msgLoc d ↦{fullShare} W main_arg0) ∗ (curLoc d ↦{fullShare} W main_arg1) ∗ outLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) :
    (bigSep Finset.univ fun c : Fin ((K (F := F)).nCore 0) => (P m).st 0 d c)
      = bigSep (Finset.univ : Finset (Fin 2)) fun c => iprop(rd (msgLoc d) (m (msgLoc d)) ∗ rd (curLoc d) (m (curLoc d))
          ∗ bigSep (Finset.univ : Finset (Fin 16)) fun i => XT d (m (outLoc d)) c.val i.val) := rfl
theorem dn0_eq (d : Dev nD) :
    (bigSep Finset.univ fun c : Fin ((K (F := F)).nCore 0) => (P m).dn 0 d c)
      = bigSep (Finset.univ : Finset (Fin 2)) fun c => bigSep (Finset.univ : Finset (Fin 16)) fun i => XT d (Gout m d) c.val i.val := rfl

omit [FloatOps F] in
theorem rd_of_full (ℓ : Loc nD τ sig) (f : Buf (Elt F) ℓ) : (ℓ ↦{fullShare} f : sProp 𝕄) ⊢ rd ℓ f := by
  unfold rd; iintro Hf; iexists _; iexact Hf

/-- What @main leaves the claim: a read share of each input at its launch contents, the result whole at what it must hold. -/
abbrev FIN (d : Dev nD) : sProp 𝕄 := iprop(rd (msgLoc d) (m (msgLoc d)) ∗ rd (curLoc d) (m (curLoc d)) ∗ outLoc d ↦{fullShare} Gout m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Hx, Ho⟩, -, -⟩, -⟩
  ihave Hi := (rd_of_full _ _) $$ Hi
  ihave Hx := (rd_of_full _ _) $$ Hx
  ihave Hi2 := (rd_dup _ _) $$ Hi; icases Hi2 with ⟨Hi, Hik⟩
  ihave Hx2 := (rd_dup _ _) $$ Hx; icases Hx2 with ⟨Hx, Hxk⟩
  ihave His := (rd_many (msgLoc d) (m (msgLoc d)) (Finset.univ : Finset (Fin 2))) $$ Hi
  ihave Hxs := (rd_many (curLoc d) (m (curLoc d)) (Finset.univ : Finset (Fin 2))) $$ Hx
  ihave Hos := (Entails.of_eq (out_split d (m (outLoc d)))) $$ Ho
  iapply ((K (F := F)).wp_run (D (F := F)) 𝒱 (EH := EH) (P := P m) κ d 0) $$ [Hst His Hxs Hos Hik Hxk]
  isplitr; · iexact Hctx
  isplitl [Hst]; · iexact Hst
  isplitl [His Hxs Hos]
  · rw [st0_eq, bigSep_sep', bigSep_sep']
    isplitl [His]; · iexact His
    isplitl [Hxs]; · iexact Hxs
    iexact Hos
  iintro ⟨Hst, Hdn⟩
  ihave Hdn' := (Entails.of_eq ((dn0_eq m d).trans (out_split d (Gout m d)).symm)) $$ Hdn
  imodintro
  isplitl [Hst]; · iexact Hst
  isplitl [Hik]; · iexact Hik
  isplitl [Hxk]; · iexact Hxk
  iexact Hdn'

def fq (d : Dev nD) (s' : Phys nD τ sig (Elt F)) : Prop :=
  s'.mem.mem (outLoc d) = Gout m d ∧ s'.mem.mem (msgLoc d) = m (msgLoc d) ∧ s'.mem.mem (curLoc d) = m (curLoc d)

omit [FloatOps F] in
/-- A read share of an array agrees with the memory on all of it. -/
theorem rd_agree (ℓ : Loc nD τ sig) (f : Buf (Elt F) ℓ) (s' : Phys nD τ sig (Elt F)) :
    iprop(SI s' ∗ rd ℓ f) ⊢ (⌜s'.mem.mem ℓ = f⌝ : sProp 𝕄) := by
  unfold rd
  iintro ⟨HSI, %q, Hq⟩
  ihave H := (SI_pointsTo_agree (st := s') (ℓ := ℓ) (I := Finset.univ) (q := q) (f := f)) $$ [HSI Hq]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp 𝕄) := by
  iintro ⟨⟨Hi, Hx, Ho⟩, HSI⟩
  ihave H := (persistent_entails_right (rd_agree (msgLoc d) (m (msgLoc d)) s')) $$ [HSI Hi]
  · isplitl [HSI] <;> iassumption
  icases H with ⟨%h1, HSI, -⟩
  ihave H := (persistent_entails_right (rd_agree (curLoc d) (m (curLoc d)) s')) $$ [HSI Hx]
  · isplitl [HSI] <;> iassumption
  icases H with ⟨%h2, HSI, -⟩
  ihave H := (SI_pointsTo_agree (st := s') (ℓ := outLoc d) (I := Finset.univ) (q := fullShare) (f := Gout m d)) $$ [HSI Ho]
  · isplitl [HSI] <;> iassumption
  icases H with %h3
  ipureintro
  exact ⟨funext fun i => h3 i (Finset.mem_univ i), h1, h2⟩

/-! ## The program's run -/

def QC : PUnit × MemSt nD τ sig (Elt F) → Prop := fun r => ∀ c : Dev nD,
  r.2.mem (outLoc c) = Gout m c ∧ r.2.mem (msgLoc c) = m (msgLoc c) ∧ r.2.mem (curLoc c) = m (curLoc c)

/-- Every weakly fair execution of the device's 35 threads terminates, nothing faulting, with the result at
    `Spec.rowsCat` of the inputs' launch contents and the inputs unchanged. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.RefValue.lean ====
import proofs.«214735_g34067680592248_cont_8to1_b_1285_15_alg».proof.Proof.Gen.ReferenceIdeal.Read
import proofs.«214735_g34067680592248_cont_8to1_b_1285_15_alg».proof.Proof.Spec
import Idealize.ShloMosaic.Lib.ValueIdx
import Idealize.ShloMosaic.Lib.Pipeline.Value

/-!
  The reference's result is `Spec.rowsCat` of its two arguments: four concatenations along the lane axis of four
  10000 × 256 pieces, each a slot of an input with its unit axis dropped. An index's lane falls in exactly one piece; there the
  concatenations read that piece at the lane less the pieces before it, and the slice and reshape read the input at
  `(row, slot, lane)`.
-/

noncomputable section

namespace Cert.ReferenceIdeal.RefValue

open Cert.ReferenceIdeal Cert.ReferenceIdeal.Gen Cert.ReferenceIdeal.Read Idealize.ShloMosaic Idealize.ShloMosaic.ValueIdx Idealize.SL.Sem

variable {F : FTy → Type} [FloatOps F]

/-- Two pieces joined along the lane axis, at a lane of the first piece. -/
theorem cat_left {α : Type} {A n1 n2 n : Nat} (x₁ : (⟨2, ![A, n1]⟩ : Shape).Idx → α) (x₂ : (⟨2, ![A, n2]⟩ : Shape).Idx → α)
    (h : Shape.Concatenates [(⟨2, ![A, n1]⟩ : Shape), ⟨2, ![A, n2]⟩] ⟨2, ![A, n]⟩ 1) (j : (⟨2, ![A, n]⟩ : Shape).Idx) (hj : (j 1).val < n1) :
    concatenate ⟨2, ![A, n]⟩ 1 [⟨⟨2, ![A, n1]⟩, x₁⟩, ⟨⟨2, ![A, n2]⟩, x₂⟩] h j = x₁ (ix2 (j 0) ⟨(j 1).val, hj⟩) :=
  concatenate_pair_apply_left 1 x₁ x₂ h j rfl _ (fun b => match b with | ⟨0, _⟩ => rfl | ⟨1, _⟩ => rfl)

/-- The same at a lane of the second piece. -/
theorem cat_right {α : Type} {A n1 n2 n : Nat} (x₁ : (⟨2, ![A, n1]⟩ : Shape).Idx → α) (x₂ : (⟨2, ![A, n2]⟩ : Shape).Idx → α)
    (h : Shape.Concatenates [(⟨2, ![A, n1]⟩ : Shape), ⟨2, ![A, n2]⟩] ⟨2, ![A, n]⟩ 1) (j : (⟨2, ![A, n]⟩ : Shape).Idx) (hj : n1 ≤ (j 1).val)
    (hj' : (j 1).val - n1 < n2) :
    concatenate ⟨2, ![A, n]⟩ 1 [⟨⟨2, ![A, n1]⟩, x₁⟩, ⟨⟨2, ![A, n2]⟩, x₂⟩] h j = x₂ (ix2 (j 0) ⟨(j 1).val - n1, hj'⟩) :=
  concatenate_pair_apply_right 1 x₁ x₂ h j rfl rfl _
    (fun b hb => match b, hb with | ⟨0, _⟩, _ => rfl | ⟨1, _⟩, hb => absurd rfl hb)
    (by show (j 1).val - n1 + n1 = (j 1).val; omega)

/-- An input read at two indices with the same coordinates. -/
theorem in_eq {α : Type} (x : S10000x16x256.Idx → α) (s t : S10000x16x256.Idx) (h0 : (s 0).val = (t 0).val) (h1 : (s 1).val = (t 1).val)
    (h2 : (s 2).val = (t 2).val) : x s = x t :=
  congrArg x (funext fun a => match a with | ⟨0, _⟩ => Fin.ext h0 | ⟨1, _⟩ => Fin.ext h1 | ⟨2, _⟩ => Fin.ext h2)

variable (x0 x1 : (⟨S10000x16x256, .f32⟩ : BufTy).Contents (Elt F))

/-- Slot 0 of the second argument, its unit axis dropped, at `(a, b)`. -/
theorem v1_at (i : S10000x256.Idx) (t : S10000x16x256.Idx) (h0 : (t 0).val = (i 0).val) (h1 : (t 1).val = 0) (h2 : (t 2).val = (i 1).val) :
    val_main_v1 (F := F) x1 i = x1 t := by
  have hi := idx2_lt1 i
  rw [val_main_v1_apply, val_main_v0_apply]
  exact in_eq x1 _ _ (by show ((i 0).val * 256 + (i 1).val) / 256 = (t 0).val; omega) (by show 0 = (t 1).val; omega)
    (by show ((i 0).val * 256 + (i 1).val) % 256 = (t 2).val; omega)
/-- Slots 0, 1, 2 of the first argument likewise. -/
theorem v3_at (i : S10000x256.Idx) (t : S10000x16x256.Idx) (h0 : (t 0).val = (i 0).val) (h1 : (t 1).val = 0) (h2 : (t 2).val = (i 1).val) :
    val_main_v3 (F := F) x0 i = x0 t := by
  have hi := idx2_lt1 i
  rw [val_main_v3_apply, val_main_v2_apply]
  exact in_eq x0 _ _ (by show ((i 0).val * 256 + (i 1).val) / 256 = (t 0).val; omega) (by show 0 = (t 1).val; omega)
    (by show ((i 0).val * 256 + (i 1).val) % 256 = (t 2).val; omega)
theorem v6_at (i : S10000x256.Idx) (t : S10000x16x256.Idx) (h0 : (t 0).val = (i 0).val) (h1 : (t 1).val = 1) (h2 : (t 2).val = (i 1).val) :
    val_main_v6 (F := F) x0 i = x0 t := by
  have hi := idx2_lt1 i
  rw [val_main_v6_apply, val_main_v5_apply]
  exact in_eq x0 _ _ (by show ((i 0).val * 256 + (i 1).val) / 256 = (t 0).val; omega) (by show 1 + 0 = (t 1).val; omega)
    (by show ((i 0).val * 256 + (i 1).val) % 256 = (t 2).val; omega)
theorem v9_at (i : S10000x256.Idx) (t : S10000x16x256.Idx) (h0 : (t 0).val = (i 0).val) (h1 : (t 1).val = 2) (h2 : (t 2).val = (i 1).val) :
    val_main_v9 (F := F) x0 i = x0 t := by
  have hi := idx2_lt1 i
  rw [val_main_v9_apply, val_main_v8_apply]
  exact in_eq x0 _ _ (by show ((i 0).val * 256 + (i 1).val) / 256 = (t 0).val; omega) (by show 2 + 0 = (t 1).val; omega)
    (by show ((i 0).val * 256 + (i 1).val) % 256 = (t 2).val; omega)

theorem v4_lo (i : S10000x512.Idx) (h : (i 1).val < 256) : val_main_v4 (F := F) x0 x1 i = val_main_v1 (F := F) x1 (ix2 (i 0) ⟨(i 1).val, h⟩) := by
  unfold val_main_v4; exact cat_left _ _ _ i h
theorem v4_hi (i : S10000x512.Idx) (h : 256 ≤ (i 1).val) :
    val_main_v4 (F := F) x0 x1 i = val_main_v3 (F := F) x0 (ix2 (i 0) ⟨(i 1).val - 256, by have := idx2_lt1 i; omega⟩) := by
  unfold val_main_v4; exact cat_right _ _ _ i h _
theorem v7_lo (i : S10000x768.Idx) (h : (i 1).val < 512) : val_main_v7 (F := F) x0 x1 i = val_main_v4 (F := F) x0 x1 (ix2 (i 0) ⟨(i 1).val, h⟩) := by
  unfold val_main_v7; exact cat_left _ _ _ i h
theorem v7_hi (i : S10000x768.Idx) (h : 512 ≤ (i 1).val) :
    val_main_v7 (F := F) x0 x1 i = val_main_v6 (F := F) x0 (ix2 (i 0) ⟨(i 1).val - 512, by have := idx2_lt1 i; omega⟩) := by
  unfold val_main_v7; exact cat_right _ _ _ i h _
theorem v10_lo (i : S10000x1024.Idx) (h : (i 1).val < 768) : val_main_v10 (F := F) x0 x1 i = val_main_v7 (F := F) x0 x1 (ix2 (i 0) ⟨(i 1).val, h⟩) := by
  unfold val_main_v10; exact cat_left _ _ _ i h
theorem v10_hi (i : S10000x1024.Idx) (h : 768 ≤ (i 1).val) :
    val_main_v10 (F := F) x0 x1 i = val_main_v9 (F := F) x0 (ix2 (i 0) ⟨(i 1).val - 768, by have := idx2_lt1 i; omega⟩) := by
  unfold val_main_v10; exact cat_right _ _ _ i h _
theorem v12_at (i : S10000x1024.Idx) : val_main_v12 (F := F) x0 x1 i = val_main_v10 (F := F) x0 x1 (ix2 (i 0) ⟨(i 1).val, idx2_lt1 i⟩) := by
  unfold val_main_v12; exact cat_left _ _ _ i (idx2_lt1 i)

theorem ref_is_rowsCat : val_main_v12 (F := F) x0 x1 = Cert.Spec.rowsCat x0 x1 := by
  funext j
  have hj0 := idx2_lt0 j
  have hj1 := idx2_lt1 j
  rw [v12_at]
  by_cases c2 : (j 1).val < 768
  · refine (v10_lo x0 x1 _ (by exact c2)).trans ?_
    by_cases c1 : (j 1).val < 512
    · refine (v7_lo x0 x1 _ (by exact c1)).trans ?_
      by_cases c0 : (j 1).val < 256
      · refine (v4_lo x0 x1 _ (by exact c0)).trans ?_
        let t : S10000x16x256.Idx := ix3 (n0 := 10000) (n1 := 16) (n2 := 256) (j 0) ⟨0, by decide⟩ ⟨(j 1).val, c0⟩
        exact (v1_at x1 _ t rfl rfl rfl).trans (Cert.Spec.rowsCat_cur x0 x1 j t c0 rfl rfl rfl).symm
      · have c0' : 256 ≤ (j 1).val := by omega
        refine (v4_hi x0 x1 _ (by exact c0')).trans ?_
        let t : S10000x16x256.Idx := ix3 (n0 := 10000) (n1 := 16) (n2 := 256) (j 0) ⟨0, by decide⟩ ⟨(j 1).val - 256, by omega⟩
        exact (v3_at x0 _ t rfl rfl rfl).trans (Cert.Spec.rowsCat_msg x0 x1 j t 0 (by omega) (by omega) rfl rfl
          (by show (j 1).val - 256 + 256 * (0 + 1) = (j 1).val; omega)).symm
    · have c1' : 512 ≤ (j 1).val := by omega
      refine (v7_hi x0 x1 _ (by exact c1')).trans ?_
      let t : S10000x16x256.Idx := ix3 (n0 := 10000) (n1 := 16) (n2 := 256) (j 0) ⟨1, by decide⟩ ⟨(j 1).val - 512, by omega⟩
      exact (v6_at x0 _ t rfl rfl rfl).trans (Cert.Spec.rowsCat_msg x0 x1 j t 1 (by omega) (by omega) rfl rfl
        (by show (j 1).val - 512 + 256 * (1 + 1) = (j 1).val; omega)).symm
  · have c2' : 768 ≤ (j 1).val := by omega
    refine (v10_hi x0 x1 _ (by exact c2')).trans ?_
    let t : S10000x16x256.Idx := ix3 (n0 := 10000) (n1 := 16) (n2 := 256) (j 0) ⟨2, by decide⟩ ⟨(j 1).val - 768, by omega⟩
    exact (v9_at x0 _ t rfl rfl rfl).trans (Cert.Spec.rowsCat_msg x0 x1 j t 2 (by omega) (by omega) rfl rfl
      (by show (j 1).val - 768 + 256 * (2 + 1) = (j 1).val; omega)).symm

end Cert.ReferenceIdeal.RefValue

end
-- ==== Proof.lean ====
/-
  The kernel concatenates, row by row, slot 0 of `curr_emb` and slots 0, 1, 2 of `msg` into a 10000 × 1024 result; the reference
  does the same with slices, reshapes and concatenations. The kernel runs on the 32 vector subcores of the device's two
  SparseCores: worker `w` moves the 40-row chunks `w + 32 j` through three scratch buffers in turn, each chunk by four
  copies into the four quarters of a scratch (completing on one semaphore) and one copy out to the result (on another); every
  copy of a scratch is waited for before the scratch is used again, so no copy's source or destination is touched while it is
  in flight.

  * `Proof/Spec.lean`: the function both sides compute (`Spec.rowsCat`) and the index facts about a scratch written in
    quarters, a slot slice read as 40 × 256, and a block written whole.
  * `Proof/TileKI.lean`, `Proof/LaunchKI.lean` (the idealized kernel) and `Proof/TileKB.lean`, `Proof/LaunchKB.lean` (the
    word-level kernel, by the same argument): one tile's run with the value carried, then the run of all 35 threads.
  * `Proof/RefValue.lean`: the reference's result is `Spec.rowsCat`.

  No arithmetic is done on either side, so finiteness of the inputs is never used.
-/
import proofs.«214735_g34067680592248_cont_8to1_b_1285_15_alg».proof.Defs
import proofs.«214735_g34067680592248_cont_8to1_b_1285_15_alg».proof.Proof.Gen.Kernel
import proofs.«214735_g34067680592248_cont_8to1_b_1285_15_alg».proof.Proof.Gen.Kernel.Skeleton
import proofs.«214735_g34067680592248_cont_8to1_b_1285_15_alg».proof.Proof.Gen.KernelIdeal
import proofs.«214735_g34067680592248_cont_8to1_b_1285_15_alg».proof.Proof.Gen.KernelIdeal.Skeleton
import proofs.«214735_g34067680592248_cont_8to1_b_1285_15_alg».proof.Proof.Gen.ReferenceIdeal
import proofs.«214735_g34067680592248_cont_8to1_b_1285_15_alg».proof.Proof.Gen.ReferenceIdeal.Run
import proofs.«214735_g34067680592248_cont_8to1_b_1285_15_alg».proof.Proof.Gen.ReferenceIdeal.Read
import proofs.«214735_g34067680592248_cont_8to1_b_1285_15_alg».proof.Proof.Gen.Pre_finite_inputs
import proofs.«214735_g34067680592248_cont_8to1_b_1285_15_alg».proof.Proof.LaunchKB
import proofs.«214735_g34067680592248_cont_8to1_b_1285_15_alg».proof.Proof.LaunchKI
import proofs.«214735_g34067680592248_cont_8to1_b_1285_15_alg».proof.Proof.RefValue
import Idealize.ShloMosaic.Adequacy
import Idealize.ShloMosaic.Init

noncomputable section

namespace Cert.Proof

open Idealize.ShloMosaic Idealize.SL.Sem

/-- The word-level kernel runs, faults nowhere and leaves both inputs as they were: its run with the result forgotten. -/
theorem frame_p : Cert.frame_Kernel := fun m ρ _ =>
  (θ_run Cert.Kernel.defs _ _).mono (fun _ h c => ⟨(h c).2.1, (h c).2.2⟩) (Cert.Proof.KB.run_main (F := Bits) m ρ)

/-- The idealized kernel likewise. -/
theorem frame_pi : Cert.frame_KernelIdeal := fun m ρ _ =>
  (θ_run Cert.KernelIdeal.defs _ _).mono (fun _ h c => ⟨(h c).2.1, (h c).2.2⟩) (Cert.Proof.KI.run_main (F := Ideal) m ρ)

/-- The reference is a straight line of host operations: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the result at `Spec.rowsCat` of the arguments. -/
theorem algebraic : Cert.algebraic_KernelIdeal_ReferenceIdeal := by
  intro m ρ m' ρ' _ hagree
  refine ⟨fun c => Cert.Proof.KI.Gout m c, ?_, ?_⟩
  · exact (θ_run Cert.KernelIdeal.defs _ _).mono (fun _ h c => h c) (Cert.Proof.KI.run_main (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2]
    exact (Cert.ReferenceIdeal.Read.val_main_v12_eq _ _).trans (Cert.ReferenceIdeal.RefValue.ref_is_rowsCat _ _)

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
